-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S64x512 : Shape := ⟨2, ![64, 512]⟩
abbrev S512x512 : Shape := ⟨2, ![512, 512]⟩
abbrev S512 : Shape := ⟨1, ![512]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S32x2048x512 .f32) (main_arg1 : FVec F S64x512 .f32) (main_arg2 : FVec F S512x512 .f32) (main_arg3 : FVec F S512 .f32) (main_arg4 : FVec F S512x512 .f32) (main_arg5 : FVec F S512 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32x2048x512 : Shape := ⟨3, ![32, 2048, 512]⟩
abbrev S64x512 : Shape := ⟨2, ![64, 512]⟩
abbrev S512x512 : Shape := ⟨2, ![512, 512]⟩
abbrev S512 : Shape := ⟨1, ![512]⟩
abbrev S65536x512 : Shape := ⟨2, ![65536, 512]⟩
abbrev S65536x1024 : Shape := ⟨2, ![65536, 1024]⟩
abbrev S65536x64 : Shape := ⟨2, ![65536, 64]⟩
abbrev S2x64x1 : Shape := ⟨3, ![2, 64, 1]⟩
abbrev S2048x512 : Shape := ⟨2, ![2048, 512]⟩
abbrev S2048x1024 : Shape := ⟨2, ![2048, 1024]⟩
abbrev S2048x64 : Shape := ⟨2, ![2048, 64]⟩
abbrev S1x64x1 : Shape := ⟨3, ![1, 64, 1]⟩
abbrev S64x1 : Shape := ⟨2, ![64, 1]⟩
abbrev S64x2048 : Shape := ⟨2, ![64, 2048]⟩
abbrev S64 : Shape := ⟨1, ![64]⟩
abbrev S2048 : Shape := ⟨1, ![2048]⟩
abbrev S2048x1 : Shape := ⟨2, ![2048, 1]⟩
abbrev S_ : Shape := ⟨0, ![]⟩
abbrev S2x64x512 : Shape := ⟨3, ![2, 64, 512]⟩
abbrev S1x64x512 : Shape := ⟨3, ![1, 64, 512]⟩
abbrev S1x512 : Shape := ⟨2, ![1, 512]⟩
abbrev S32x2048x1024 : Shape := ⟨3, ![32, 2048, 1024]⟩
abbrev S32x2048x64 : Shape := ⟨3, ![32, 2048, 64]⟩

abbrev nBuf : Space → Nat
  | .hbm => 59
  | .vmem => 24
  | .smem => 0
  | _ => 0

abbrev bufTy : (tb : Table) → Fin (tcTables nBuf tb) → BufTy
  | .hbm, ⟨0, _⟩ => ⟨S32x2048x512, .f32⟩
  | .hbm, ⟨1, _⟩ => ⟨S64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S65536x512, .f32⟩
  | .hbm, ⟨7, _⟩ => ⟨S65536x1024, .f32⟩
  | .hbm, ⟨8, _⟩ => ⟨S65536x64, .f32⟩
  | .hbm, ⟨9, _⟩ => ⟨S2x64x1, .f32⟩
  | .hbm, ⟨10, _⟩ => ⟨S2x64x1, .f32⟩
  | .hbm, ⟨11, _⟩ => ⟨S_, .f32⟩
  | .hbm, ⟨12, _⟩ => ⟨S64x1, .f32⟩
  | .hbm, ⟨13, _⟩ => ⟨S1x64x1, .f32⟩
  | .hbm, ⟨14, _⟩ => ⟨S2x64x1, .f32⟩
  | .hbm, ⟨15, _⟩ => ⟨S2x64x1, .f32⟩
  | .hbm, ⟨16, _⟩ => ⟨S2x64x1, .f32⟩
  | .hbm, ⟨17, _⟩ => ⟨S2x64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S2x64x512, .f32⟩
  | .hbm, ⟨22, _⟩ => ⟨S2x64x1, .f32⟩
  | .hbm, ⟨23, _⟩ => ⟨S_, .f32⟩
  | .hbm, ⟨24, _⟩ => ⟨S64x512, .f32⟩
  | .hbm, ⟨25, _⟩ => ⟨S_, .f32⟩
  | .hbm, ⟨26, _⟩ => ⟨S64x1, .f32⟩
  | .hbm, ⟨27, _⟩ => ⟨S_, .f32⟩
  | .hbm, ⟨28, _⟩ => ⟨S64x1, .f32⟩
  | .hbm, ⟨29, _⟩ => ⟨S64x1, .f32⟩
  | .hbm, ⟨30, _⟩ => ⟨S64x512, .f32⟩
  | .hbm, ⟨31, _⟩ => ⟨S64x512, .f32⟩
  | .hbm, ⟨32, _⟩ => ⟨S512x512, .f32⟩
  | .hbm, ⟨33, _⟩ => ⟨S64x512, .f32⟩
  | .hbm, ⟨34, _⟩ => ⟨S1x512, .f32⟩
  | .hbm, ⟨35, _⟩ => ⟨S64x512, .f32⟩
  | .hbm, ⟨36, _⟩ => ⟨S64x512, .f32⟩
  | .hbm, ⟨37, _⟩ => ⟨S512x512, .f32⟩
  | .hbm, ⟨38, _⟩ => ⟨S64x512, .f32⟩
  | .hbm, ⟨39, _⟩ => ⟨S1x512, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S_, .f32⟩
  | .hbm, ⟨49, _⟩ => ⟨S64x512, .f32⟩
  | .hbm, ⟨50, _⟩ => ⟨S64x512, .f32⟩
  | .hbm, ⟨51, _⟩ => ⟨S_, .f32⟩
  | .hbm, ⟨52, _⟩ => ⟨S64x512, .f32⟩
  | .hbm, ⟨53, _⟩ => ⟨S64x512, .f32⟩
  | .hbm, ⟨54, _⟩ => ⟨S64x512, .f32⟩
  | .hbm, ⟨55, _⟩ => ⟨S64x512, .f32⟩
  | .hbm, ⟨56, _⟩ => ⟨S64x512, .f32⟩
  | .hbm, ⟨57, _⟩ => ⟨S32x2048x1024, .f32⟩
  | .hbm, ⟨58, _⟩ => ⟨S32x2048x64, .f32⟩
  | .local _ .vmem, ⟨0, _⟩ => ⟨S2048x512, .f32⟩
  | .local _ .vmem, ⟨1, _⟩ => ⟨S2048x512, .f32⟩
  | .local _ .vmem, ⟨2, _⟩ => ⟨S64x512, .f32⟩
  | .local _ .vmem, ⟨3, _⟩ => ⟨S2048x1024, .f32⟩
  | .local _ .vmem, ⟨4, _⟩ => ⟨S2048x1024, .f32⟩
  | .local _ .vmem, ⟨5, _⟩ => ⟨S2048x64, .f32⟩
  | .local _ .vmem, ⟨6, _⟩ => ⟨S2048x64, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | .local _ .vmem, ⟨10, _⟩ => ⟨S1x64x1, .f32⟩
  | .local _ .vmem, ⟨11, _⟩ => ⟨S64x1, .f32⟩
  | .local _ .vmem, ⟨12, _⟩ => ⟨S64x1, .f32⟩
  | .local _ .vmem, ⟨13, _⟩ => ⟨S2048x512, .f32⟩
  | .local _ .vmem, ⟨14, _⟩ => ⟨S2048x512, .f32⟩
  | .local _ .vmem, ⟨15, _⟩ => ⟨S64x512, .f32⟩
  | .local _ .vmem, ⟨16, _⟩ => ⟨S64x1, .f32⟩
  | .local _ .vmem, ⟨17, _⟩ => ⟨S64x1, .f32⟩
  | .local _ .vmem, ⟨18, _⟩ => ⟨S1x64x512, .f32⟩
  | .local _ .vmem, ⟨19, _⟩ => ⟨S1x64x512, .f32⟩
  | .local _ .vmem, ⟨20, _⟩ => ⟨S1x64x1, .f32⟩
  | .local _ .vmem, ⟨21, _⟩ => ⟨S1x64x1, .f32⟩
  | .local _ .vmem, ⟨22, _⟩ => ⟨S64x512, .f32⟩
  | .local _ .vmem, ⟨23, _⟩ => ⟨S64x1, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_14 : BitVec 32 := 0#32
  let v30 : BitVec 1 := Scalar.cmpi .ne v29 c0_i32_14
  v30

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_21 : BitVec 32 := 0#32
  let v43 : BitVec 1 := Scalar.cmpi .ne v42 c0_i32_21
  v43

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x64x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x64x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S32x2048x512_S65536x512 : S32x2048x512.ShapeCasts S65536x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S64x512_S64x512_0_0 : ∀ a, (![0, 0] : Fin 2 → Nat) a + S64x512.size a ≤ S64x512.size a
  h_S64x512 : 0 < S64x512.numel
  bitsLt_bf16_f32 : FTy.bits .bf16 < FTy.bits .f32
  reduces_S64x2048_S64 : S64x2048.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reduces_S2048x64_S2048 : S2048x64.Reduces [1] S2048
  shapeCasts_S2048_S2048x1 : S2048.ShapeCasts S2048x1
  broadcasts_S2048x1_S2048x64 : S2048x1.Broadcasts S2048x64
  inb_S2048x1024_S2048x512_0_0 : ∀ a, (![0, 0] : Fin 2 → Nat) a + S2048x512.size a ≤ S2048x1024.size a
  inb_S2048x1024_S2048x512_0_512 : ∀ a, (![0, 512] : Fin 2 → Nat) a + S2048x512.size a ≤ S2048x1024.size a
  inb_S2048x64_S2048x64_0_0 : ∀ a, (![0, 0] : Fin 2 → Nat) a + S2048x64.size a ≤ S2048x64.size a
  h_S2048x64 : 0 < S2048x64.numel
  reducesTo_S2x64x1_S64x1_d0 : S2x64x1.ReducesTo [0] S64x1
  h_S_ : 0 < S_.numel
  bcast_S64x1_S1x64x1_1_2 : S64x1.BroadcastsInDim S1x64x1 (![1, 2] : Fin 2 → Fin S1x64x1.rank)
  bcast_S1x64x1_S2x64x1_0_1_2 : S1x64x1.BroadcastsInDim S2x64x1 (![0, 1, 2] : Fin 3 → Fin S2x64x1.rank)
  shapeCasts_S64x512_S64x512 : S64x512.ShapeCasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  reducesTo_S2x64x512_S64x512_d0 : S2x64x512.ReducesTo [0] S64x512
  bcast_S_S64x1 : S_.BroadcastsInDim S64x1 (![] : Fin 0 → Fin S64x1.rank)
  bcast_S64x1_S64x512_0_1 : S64x1.BroadcastsInDim S64x512 (![0, 1] : Fin 2 → Fin S64x512.rank)
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  shapeCasts_S65536x1024_S32x2048x1024 : S65536x1024.ShapeCasts S32x2048x1024
  shapeCasts_S65536x64_S32x2048x64 : S65536x64.ShapeCasts S32x2048x64
  dot_S64x512_S2048x512_S64x2048_1_1_0_0_n_n_wf : DotDims.WF S64x512 S2048x512 S64x2048 [1] [1] [0] [0] [] []
  dot_S2048x512_S64x512_S2048x64_1_1_0_0_n_n_wf : DotDims.WF S2048x512 S64x512 S2048x64 [1] [1] [0] [0] [] []
  dot_S2048x64_S64x512_S2048x512_1_0_0_1_n_n_wf : DotDims.WF S2048x64 S64x512 S2048x512 [1] [0] [0] [1] [] []
  dot_S64x2048_S2048x512_S64x512_1_0_0_1_n_n_wf : DotDims.WF S64x2048 S2048x512 S64x512 [1] [0] [0] [1] [] []
  dot_S64x512_S512x512_S64x512_1_0_0_1_n_n_wf : DotDims.WF S64x512 S512x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S65536x64.size a
  hwx0_3 : ∀ i : grid0.Coords, EltTy.bits .f32 = 32 ∨ (Rect.block (s := S65536x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S2x64x1.size a
  hwx0_5 : ∀ i : grid0.Coords, EltTy.bits .f32 = 32 ∨ (Rect.block (s := S2x64x1) S1x64x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S64x512.size a
  hwx1_1 : ∀ i : grid1.Coords, EltTy.bits .f32 = 32 ∨ (Rect.block (s := S64x512) S64x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x512.size a ≤ S2x64x512.size a
  hwx1_4 : ∀ i : grid1.Coords, EltTy.bits .f32 = 32 ∨ (Rect.block (s := S2x64x512) S1x64x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x1.size a ≤ S2x64x1.size a
  hwx1_5 : ∀ i : grid1.Coords, EltTy.bits .f32 = 32 ∨ (Rect.block (s := S2x64x1) S1x64x1.size (cc1_transform_5 i) (hinb1_5 i)).WholeWords (EltTy.packing .f32)

variable [Facts₀]

def dot_S64x512_S2048x512_S64x2048_1_1_0_0_n_n : DotDims S64x512 S2048x512 S64x2048 where
  lhsContracting := [1]
  rhsContracting := [1]
  lhsNonContracting := [0]
  rhsNonContracting := [0]
  lhsBatch := []
  rhsBatch := []
  wf := dot_S64x512_S2048x512_S64x2048_1_1_0_0_n_n_wf
def dot_S2048x512_S64x512_S2048x64_1_1_0_0_n_n : DotDims S2048x512 S64x512 S2048x64 where
  lhsContracting := [1]
  rhsContracting := [1]
  lhsNonContracting := [0]
  rhsNonContracting := [0]
  lhsBatch := []
  rhsBatch := []
  wf := dot_S2048x512_S64x512_S2048x64_1_1_0_0_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2048x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S1x64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10_0) S1x64x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_1) S1x64x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S32x2048x512 : Shape := ⟨3, ![32, 2048, 512]⟩
abbrev S64x512 : Shape := ⟨2, ![64, 512]⟩
abbrev S512x512 : Shape := ⟨2, ![512, 512]⟩
abbrev S512 : Shape := ⟨1, ![512]⟩
abbrev S65536x512 : Shape := ⟨2, ![65536, 512]⟩
abbrev S512x65536 : Shape := ⟨2, ![512, 65536]⟩
abbrev S64x65536 : Shape := ⟨2, ![64, 65536]⟩
abbrev S_ : Shape := ⟨0, ![]⟩
abbrev S64 : Shape := ⟨1, ![64]⟩
abbrev S64x1 : Shape := ⟨2, ![64, 1]⟩
abbrev S1x512 : Shape := ⟨2, ![1, 512]⟩
abbrev S512x64 : Shape := ⟨2, ![512, 64]⟩
abbrev S65536x64 : Shape := ⟨2, ![65536, 64]⟩
abbrev S65536 : Shape := ⟨1, ![65536]⟩
abbrev S65536x1 : Shape := ⟨2, ![65536, 1]⟩
abbrev S65536x1024 : Shape := ⟨2, ![65536, 1024]⟩
abbrev S32x2048x1024 : Shape := ⟨3, ![32, 2048, 1024]⟩
abbrev S32x2048x64 : Shape := ⟨3, ![32, 2048, 64]⟩

abbrev nBuf : Space → Nat
  | .hbm => 111
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S65536x512, .f32⟩
  | .hbm, ⟨7, _⟩ => ⟨S512x65536, .f32⟩
  | .hbm, ⟨8, _⟩ => ⟨S64x65536, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64x1, .f32⟩
  | .hbm, ⟨15, _⟩ => ⟨S64x65536, .f32⟩
  | .hbm, ⟨16, _⟩ => ⟨S64x65536, .f32⟩
  | .hbm, ⟨17, _⟩ => ⟨S64x65536, .f32⟩
  | .hbm, ⟨18, _⟩ => ⟨S_, .f32⟩
  | .hbm, ⟨19, _⟩ => ⟨S64, .f32⟩
  | .hbm, ⟨20, _⟩ => ⟨S64x1, .f32⟩
  | .hbm, ⟨21, _⟩ => ⟨S64x65536, .f32⟩
  | .hbm, ⟨22, _⟩ => ⟨S64x65536, .f32⟩
  | .hbm, ⟨23, _⟩ => ⟨S_, .f32⟩
  | .hbm, ⟨24, _⟩ => ⟨S64x65536, .f32⟩
  | .hbm, ⟨25, _⟩ => ⟨S64x65536, .f32⟩
  | .hbm, ⟨26, _⟩ => ⟨S_, .f32⟩
  | .hbm, ⟨27, _⟩ => ⟨S64x65536, .f32⟩
  | .hbm, ⟨28, _⟩ => ⟨S64x65536, .f32⟩
  | .hbm, ⟨29, _⟩ => ⟨S64x65536, .f32⟩
  | .hbm, ⟨30, _⟩ => ⟨S64x65536, .f32⟩
  | .hbm, ⟨31, _⟩ => ⟨S_, .f32⟩
  | .hbm, ⟨32, _⟩ => ⟨S64x65536, .f32⟩
  | .hbm, ⟨33, _⟩ => ⟨S64x65536, .f32⟩
  | .hbm, ⟨34, _⟩ => ⟨S64x65536, .f32⟩
  | .hbm, ⟨35, _⟩ => ⟨S64x65536, .f32⟩
  | .hbm, ⟨36, _⟩ => ⟨S_, .f32⟩
  | .hbm, ⟨37, _⟩ => ⟨S64, .f32⟩
  | .hbm, ⟨38, _⟩ => ⟨S64x1, .f32⟩
  | .hbm, ⟨39, _⟩ => ⟨S_, .f32⟩
  | .hbm, ⟨40, _⟩ => ⟨S64x1, .f32⟩
  | .hbm, ⟨41, _⟩ => ⟨S64x1, .f32⟩
  | .hbm, ⟨42, _⟩ => ⟨S64x65536, .f32⟩
  | .hbm, ⟨43, _⟩ => ⟨S64x65536, .f32⟩
  | .hbm, ⟨44, _⟩ => ⟨S64x512, .f32⟩
  | .hbm, ⟨45, _⟩ => ⟨S512x512, .f32⟩
  | .hbm, ⟨46, _⟩ => ⟨S64x512, .f32⟩
  | .hbm, ⟨47, _⟩ => ⟨S1x512, .f32⟩
  | .hbm, ⟨48, _⟩ => ⟨S64x512, .f32⟩
  | .hbm, ⟨49, _⟩ => ⟨S64x512, .f32⟩
  | .hbm, ⟨50, _⟩ => ⟨S512x512, .f32⟩
  | .hbm, ⟨51, _⟩ => ⟨S64x512, .f32⟩
  | .hbm, ⟨52, _⟩ => ⟨S64x512, .f32⟩
  | .hbm, ⟨53, _⟩ => ⟨S1x512, .f32⟩
  | .hbm, ⟨54, _⟩ => ⟨S64x512, .f32⟩
  | .hbm, ⟨55, _⟩ => ⟨S64x512, .f32⟩
  | .hbm, ⟨56, _⟩ => ⟨S64x512, .f32⟩
  | .hbm, ⟨57, _⟩ => ⟨S64x512, .f32⟩
  | .hbm, ⟨58, _⟩ => ⟨S_, .f32⟩
  | .hbm, ⟨59, _⟩ => ⟨S64x512, .f32⟩
  | .hbm, ⟨60, _⟩ => ⟨S64x512, .f32⟩
  | .hbm, ⟨61, _⟩ => ⟨S_, .f32⟩
  | .hbm, ⟨62, _⟩ => ⟨S64x512, .f32⟩
  | .hbm, ⟨63, _⟩ => ⟨S64x512, .f32⟩
  | .hbm, ⟨64, _⟩ => ⟨S_, .f32⟩
  | .hbm, ⟨65, _⟩ => ⟨S64x512, .f32⟩
  | .hbm, ⟨66, _⟩ => ⟨S64x512, .f32⟩
  | .hbm, ⟨67, _⟩ => ⟨S64x512, .f32⟩
  | .hbm, ⟨68, _⟩ => ⟨S64x512, .f32⟩
  | .hbm, ⟨69, _⟩ => ⟨S64x512, .f32⟩
  | .hbm, ⟨70, _⟩ => ⟨S512x64, .f32⟩
  | .hbm, ⟨71, _⟩ => ⟨S65536x64, .f32⟩
  | .hbm, ⟨72, _⟩ => ⟨S_, .f32⟩
  | .hbm, ⟨73, _⟩ => ⟨S65536, .f32⟩
  | .hbm, ⟨74, _⟩ => ⟨S_, .f32⟩
  | .hbm, ⟨75, _⟩ => ⟨S65536, .f32⟩
  | .hbm, ⟨76, _⟩ => ⟨S65536, .f32⟩
  | .hbm, ⟨77, _⟩ => ⟨S65536x1, .f32⟩
  | .hbm, ⟨78, _⟩ => ⟨S65536x64, .f32⟩
  | .hbm, ⟨79, _⟩ => ⟨S65536x64, .f32⟩
  | .hbm, ⟨80, _⟩ => ⟨S65536x64, .f32⟩
  | .hbm, ⟨81, _⟩ => ⟨S_, .f32⟩
  | .hbm, ⟨82, _⟩ => ⟨S65536, .f32⟩
  | .hbm, ⟨83, _⟩ => ⟨S65536x1, .f32⟩
  | .hbm, ⟨84, _⟩ => ⟨S65536x64, .f32⟩
  | .hbm, ⟨85, _⟩ => ⟨S65536x64, .f32⟩
  | .hbm, ⟨86, _⟩ => ⟨S_, .f32⟩
  | .hbm, ⟨87, _⟩ => ⟨S65536x64, .f32⟩
  | .hbm, ⟨88, _⟩ => ⟨S65536x64, .f32⟩
  | .hbm, ⟨89, _⟩ => ⟨S_, .f32⟩
  | .hbm, ⟨90, _⟩ => ⟨S65536x64, .f32⟩
  | .hbm, ⟨91, _⟩ => ⟨S65536x64, .f32⟩
  | .hbm, ⟨92, _⟩ => ⟨S65536x64, .f32⟩
  | .hbm, ⟨93, _⟩ => ⟨S65536x64, .f32⟩
  | .hbm, ⟨94, _⟩ => ⟨S_, .f32⟩
  | .hbm, ⟨95, _⟩ => ⟨S65536x64, .f32⟩
  | .hbm, ⟨96, _⟩ => ⟨S65536x64, .f32⟩
  | .hbm, ⟨97, _⟩ => ⟨S65536x64, .f32⟩
  | .hbm, ⟨98, _⟩ => ⟨S65536x64, .f32⟩
  | .hbm, ⟨99, _⟩ => ⟨S_, .f32⟩
  | .hbm, ⟨100, _⟩ => ⟨S65536, .f32⟩
  | .hbm, ⟨101, _⟩ => ⟨S65536x1, .f32⟩
  | .hbm, ⟨102, _⟩ => ⟨S_, .f32⟩
  | .hbm, ⟨103, _⟩ => ⟨S65536x1, .f32⟩
  | .hbm, ⟨104, _⟩ => ⟨S65536x1, .f32⟩
  | .hbm, ⟨105, _⟩ => ⟨S65536x64, .f32⟩
  | .hbm, ⟨106, _⟩ => ⟨S65536x64, .f32⟩
  | .hbm, ⟨107, _⟩ => ⟨S65536x512, .f32⟩
  | .hbm, ⟨108, _⟩ => ⟨S65536x1024, .f32⟩
  | .hbm, ⟨109, _⟩ => ⟨S32x2048x1024, .f32⟩
  | .hbm, ⟨110, _⟩ => ⟨S32x2048x64, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_call1_cst : Ref sig .tc := ⟨.hbm, 89, rfl⟩
abbrev main_call1_v0 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]

class Facts₀ : Prop where
  shapeCasts_S32x2048x512_S65536x512 : S32x2048x512.ShapeCasts S65536x512
  transposes_S65536x512_S512x65536_1_0 : S65536x512.Transposes [1, 0] S512x65536
  reducesTo_S64x65536_S64_d1 : S64x65536.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x65536_0_1 : S64x1.BroadcastsInDim S64x65536 (![0, 1] : Fin 2 → Fin S64x65536.rank)
  bcast_S_S64x65536 : S_.BroadcastsInDim S64x65536 (![] : Fin 0 → Fin S64x65536.rank)
  bcast_S_S64x1 : S_.BroadcastsInDim S64x1 (![] : Fin 0 → Fin S64x1.rank)
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  transposes_S64x512_S512x64_1_0 : S64x512.Transposes [1, 0] S512x64
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  bcast_S_S65536x64 : S_.BroadcastsInDim S65536x64 (![] : Fin 0 → Fin S65536x64.rank)
  bcast_S_S65536x1 : S_.BroadcastsInDim S65536x1 (![] : Fin 0 → Fin S65536x1.rank)
  concatenates_S65536x512_S65536x512_S65536x1024_d1 : Shape.Concatenates [S65536x512, S65536x512] S65536x1024 1
  shapeCasts_S65536x1024_S32x2048x1024 : S65536x1024.ShapeCasts S32x2048x1024
  shapeCasts_S65536x64_S32x2048x64 : S65536x64.ShapeCasts S32x2048x64
  dot_S64x512_S512x65536_S64x65536_1_0_0_1_n_n_wf : DotDims.WF S64x512 S512x65536 S64x65536 [1] [0] [0] [1] [] []
  dot_S64x65536_S65536x512_S64x512_1_0_0_1_n_n_wf : DotDims.WF S64x65536 S65536x512 S64x512 [1] [0] [0] [1] [] []
  dot_S64x512_S512x512_S64x512_1_0_0_1_n_n_wf : DotDims.WF S64x512 S512x512 S64x512 [1] [0] [0] [1] [] []
  dot_S65536x512_S512x64_S65536x64_1_0_0_1_n_n_wf : DotDims.WF S65536x512 S512x64 S65536x64 [1] [0] [0] [1] [] []
  dot_S65536x64_S64x512_S65536x512_1_0_0_1_n_n_wf : DotDims.WF S65536x64 S64x512 S65536x512 [1] [0] [0] [1] [] []

variable [Facts₀]

def dot_S64x512_S512x65536_S64x65536_1_0_0_1_n_n : DotDims S64x512 S512x65536 S64x65536 where
  lhsContracting := [1]
  rhsContracting := [0]
  lhsNonContracting := [0]
  rhsNonContracting := [1]
  lhsBatch := []
  rhsBatch := []
  wf := dot_S64x512_S512x65536_S64x65536_1_0_0_1_n_n_wf
def dot_S64x65536_S65536x512_S64x512_1_0_0_1_n_n : DotDims S64x65536 S65536x512 S64x512 where
  lhsContracting := [1]
  rhsContracting := [0]
  lhsNonContracting := [0]
  rhsNonContracting := [1]
  lhsBatch := []
  rhsBatch := []
  wf := dot_S64x65536_S65536x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S65536x512_S512x64_S65536x64_1_0_0_1_n_n : DotDims S65536x512 S512x64 S65536x64 where
  lhsContracting := [1]
  rhsContracting := [0]
  lhsNonContracting := [0]
  rhsNonContracting := [1]
  lhsBatch := []
  rhsBatch := []
  wf := dot_S65536x512_S512x64_S65536x64_1_0_0_1_n_n_wf
def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf

class Facts : Prop extends Facts₀ where

variable [Facts]
-- ==== Proof.K.Kit0.lean ====
/-
  The first region (the statistics-and-read kernel over a 2 x 16 grid): what its three control cases are and where
  they fall. The grid's second coordinate is the chunk number within a core's half of the rows; the body resets
  its two running statistics (a running row maximum and a running sum of exponentials, each a 64 x 1 column kept
  in scratch memory) at chunk 0, and copies them to the two per-core statistics outputs at chunk 15. So a point
  `t = 16 * core + chunk` is in the FIRST case when `t % 16 = 0`, in the LAST case when `t % 16 = 15` and in the
  MIDDLE case otherwise; the two per-core outputs are idle (neither stored nor written back) outside the last case.
-/
import proofs.«147958_j26001732010458_2_alg».proof.Proof.Gen.Kernel.Launch
import proofs.«147958_j26001732010458_2_alg».proof.Proof.Gen.Kernel.Skeleton
import proofs.«147958_j26001732010458_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- "This is a core's first chunk": the body's first conditional, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is a core's last chunk": the body's second conditional. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Outside a core's last chunk the two statistics outputs are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At a core's last chunk they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with at a point -/

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1 .f32 := win0_5.stage (cfg0.slots t 5)
abbrev hs0_5 (t : Fin cfg0.N) : (ms0_5 t).IsWhole := hstage0_5 ((cfg0.slots t 5).cast nbuf0_5)
/-- The running maximum's and the running sum's scratch buffers. -/
abbrev scM0_0 : Memref sig .tc .vmem S64x1 .f32 := Memref.whole cc0_scratch0
abbrev scM0_1 : Memref sig .tc .vmem S64x1 .f32 := Memref.whole cc0_scratch1
abbrev VS0_0 : View sig .tc .vmem S64x1 .f32 := scM0_0.view
abbrev VS0_1 : View sig .tc .vmem S64x1 .f32 := scM0_1.view
/-- One staging buffer of each output window, through which its contents are stated. -/
abbrev VO0_2 : View sig .tc .vmem S2048x1024 .f32 := (Memref.whole cc0_stg2_0 : Memref sig .tc .vmem S2048x1024 .f32).view
abbrev VO0_3 : View sig .tc .vmem S2048x64 .f32 := (Memref.whole cc0_stg3_0 : Memref sig .tc .vmem S2048x64 .f32).view
abbrev VO0_4 : View sig .tc .vmem S1x64x1 .f32 := (Memref.whole cc0_stg4_0 : Memref sig .tc .vmem S1x64x1 .f32).view
abbrev VO0_5 : View sig .tc .vmem S1x64x1 .f32 := (Memref.whole cc0_stg5_0 : Memref sig .tc .vmem S1x64x1 .f32).view

/-- The other region's staging and scratch buffers, each whole at some contents: they ride through this region untouched. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with the two scratch buffers as memrefs owned at some contents, beside the other region's buffers. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

end Cert.Kernel.Hand

end
-- ==== Proof.K.Run0A.lean ====
/-
  The first region's body in the FIRST case (a core's first chunk): the two running statistics in scratch are
  first reset — the running maximum to minus infinity, the running sum to zero — whatever they held, and then
  updated from this chunk as in the middle case; the two row-block outputs are stored; the two per-core
  statistics outputs are not touched.
-/
import proofs.«147958_j26001732010458_2_alg».proof.Proof.K.Kit0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) :
    Σ' (L2 : List (View.Piece (Elt F) S2048x1024 .f32)) (L3 : List (View.Piece (Elt F) S2048x64 .f32)) (LS0 : List (View.Piece (Elt F) S64x1 .f32)), { LS1 : List (View.Piece (Elt F) S64x1 .f32) //
      ∀ (xi4 : Vec F S1x64x1 .f32) (xi5 : Vec F S1x64x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_stats_read i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0__kernel_stats_read_eq_skeleton]; unfold cc0__kernel_stats_read_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.Run0B.lean ====
/-
  The first region's body in the MIDDLE case (neither a core's first chunk nor its last): from the query block and
  the memory block in their staging buffers and the two running statistics in scratch, it leaves the read-path
  block (the query block beside the attention-weighted memory rows) and the attention weights in the two row-block
  outputs, and the updated running maximum and running sum in scratch; the two per-core statistics outputs are not
  touched. The pieces each buffer ends with are found by running the body symbolically.
-/
import proofs.«147958_j26001732010458_2_alg».proof.Proof.K.Kit0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) :
    Σ' (L2 : List (View.Piece (Elt F) S2048x1024 .f32)) (L3 : List (View.Piece (Elt F) S2048x64 .f32)) (LS0 : List (View.Piece (Elt F) S64x1 .f32)), { LS1 : List (View.Piece (Elt F) S64x1 .f32) //
      ∀ (xi4 : Vec F S1x64x1 .f32) (xi5 : Vec F S1x64x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_stats_read i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0__kernel_stats_read_eq_skeleton]; unfold cc0__kernel_stats_read_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.Run0C.lean ====
/-
  The first region's body in the LAST case (a core's last chunk): the running statistics, carried in from the
  chunk before, are updated from this chunk and then copied to the two per-core statistics outputs; the two
  row-block outputs are stored as at every point.
-/
import proofs.«147958_j26001732010458_2_alg».proof.Proof.K.Kit0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) :
    Σ' (L2 : List (View.Piece (Elt F) S2048x1024 .f32)) (L3 : List (View.Piece (Elt F) S2048x64 .f32)) (L4 : List (View.Piece (Elt F) S1x64x1 .f32)) (L5 : List (View.Piece (Elt F) S1x64x1 .f32)) (LS0 : List (View.Piece (Elt F) S64x1 .f32)), { LS1 : List (View.Piece (Elt F) S64x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_stats_read i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__kernel_stats_read_eq_skeleton]; unfold cc0__kernel_stats_read_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.K.Frame0.lean ====
/-
  The first region, point by point. A point's body leaves, in the two row-block output buffers, the read-path block
  and the attention weights of its 2048 query rows; in the two scratch columns, the running row maximum and running
  sum of exponentials over the chunks of its core seen so far (reset at a core's first chunk); and, at a core's last
  chunk only, copies of those two columns in the per-core statistics outputs. This module names those contents case by
  case (the symbolic run's pieces read back), chains them over the grid by recursion on the point's position, and
  proves the pipeline's body obligation from them: the region invariant is "the two scratch columns hold what the
  point before left", beside the buffers this region never touches.
-/
import proofs.«147958_j26001732010458_2_alg».proof.Proof.K.Run0A
import proofs.«147958_j26001732010458_2_alg».proof.Proof.K.Run0B
import proofs.«147958_j26001732010458_2_alg».proof.Proof.K.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What case A leaves in output window 2's staging buffer: the stores' pieces read back. -/
def out0_A_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) : Vec F S2048x1024 .f32 :=
  VO0_2.read (Elt F) (VO0_2.writes (Elt F) VO0_2.junk (kernelRun0_A c i arg2 harg2 arg3 harg3 arg4 harg4 arg5 harg5 arg6 harg6 arg7 harg7 arg8 harg8 arg9 harg9 hc0 hc1 x0 x1).1)
/-- Those pieces tile the block, so they cover it. -/
theorem cover0_A_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) (y : S2048x1024.Idx) :
    ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S2048x512.size (by sl_kernel_rfl) y

/-- What case A leaves in output window 3's staging buffer: the stores' pieces read back. -/
def out0_A_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) : Vec F S2048x64 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1).2.1)
/-- Those pieces tile the block, so they cover it. -/
theorem cover0_A_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) (y : S2048x64.Idx) :
    ∃ pc ∈ (kernelRun0_A c i arg2 harg2 arg3 harg3 arg4 harg4 arg5 harg5 arg6 harg6 arg7 harg7 arg8 harg8 arg9 harg9 hc0 hc1 x0 x1).2.1, y ∈ pc.1.set :=
  View.cover_of_tiledL (kernelRun0_A c i arg2 harg2 arg3 harg3 arg4 harg4 arg5 harg5 arg6 harg6 arg7 harg7 arg8 harg8 arg9 harg9 hc0 hc1 x0 x1).2.1 S2048x64.size (by sl_kernel_rfl) y

/-- What case A leaves in scratch buffer 0, which the kernel carries to the next point. -/
def sout0_A_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) : Vec F S64x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1).2.2.1)
theorem scover0_A_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) (y : S64x1.Idx) :
    ∃ pc ∈ (kernelRun0_A c i arg2 harg2 arg3 harg3 arg4 harg4 arg5 harg5 arg6 harg6 arg7 harg7 arg8 harg8 arg9 harg9 hc0 hc1 x0 x1).2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.1 S64x1.size (by sl_kernel_rfl) y

/-- What case A leaves in scratch buffer 1, which the kernel carries to the next point. -/
def sout0_A_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) : Vec F S64x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1).2.2.2.1)
theorem scover0_A_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) (y : S64x1.Idx) :
    ∃ pc ∈ (kernelRun0_A c i arg2 harg2 arg3 harg3 arg4 harg4 arg5 harg5 arg6 harg6 arg7 harg7 arg8 harg8 arg9 harg9 hc0 hc1 x0 x1).2.2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.2.1 S64x1.size (by sl_kernel_rfl) y

/-- What case B leaves in output window 2's staging buffer: the stores' pieces read back. -/
def out0_B_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) : Vec F S2048x1024 .f32 :=
  VO0_2.read (Elt F) (VO0_2.writes (Elt F) VO0_2.junk (kernelRun0_B c i arg2 harg2 arg3 harg3 arg4 harg4 arg5 harg5 arg6 harg6 arg7 harg7 arg8 harg8 arg9 harg9 hc0 hc1 x0 x1 xs0 xs1).1)
/-- Those pieces tile the block, so they cover it. -/
theorem cover0_B_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) (y : S2048x1024.Idx) :
    ∃ pc ∈ (kernelRun0_B c i arg2 harg2 arg3 harg3 arg4 harg4 arg5 harg5 arg6 harg6 arg7 harg7 arg8 harg8 arg9 harg9 hc0 hc1 x0 x1 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).1 S2048x512.size (by sl_kernel_rfl) y

/-- What case B leaves in output window 3's staging buffer: the stores' pieces read back. -/
def out0_B_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) : Vec F S2048x64 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 xs0 xs1).2.1)
/-- Those pieces tile the block, so they cover it. -/
theorem cover0_B_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) (y : S2048x64.Idx) :
    ∃ pc ∈ (kernelRun0_B c i arg2 harg2 arg3 harg3 arg4 harg4 arg5 harg5 arg6 harg6 arg7 harg7 arg8 harg8 arg9 harg9 hc0 hc1 x0 x1 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).2.1 S2048x64.size (by sl_kernel_rfl) y

/-- What case B leaves in scratch buffer 0, which the kernel carries to the next point. -/
def sout0_B_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) : Vec F S64x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 xs0 xs1).2.2.1)
theorem scover0_B_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) (y : S64x1.Idx) :
    ∃ pc ∈ (kernelRun0_B c i arg2 harg2 arg3 harg3 arg4 harg4 arg5 harg5 arg6 harg6 arg7 harg7 arg8 harg8 arg9 harg9 hc0 hc1 x0 x1 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).2.2.1 S64x1.size (by sl_kernel_rfl) y

/-- What case B leaves in scratch buffer 1, which the kernel carries to the next point. -/
def sout0_B_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) : Vec F S64x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 xs0 xs1).2.2.2.1)
theorem scover0_B_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) (y : S64x1.Idx) :
    ∃ pc ∈ (kernelRun0_B c i arg2 harg2 arg3 harg3 arg4 harg4 arg5 harg5 arg6 harg6 arg7 harg7 arg8 harg8 arg9 harg9 hc0 hc1 x0 x1 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).2.2.2.1 S64x1.size (by sl_kernel_rfl) y

/-- What case C leaves in output window 2's staging buffer: the stores' pieces read back. -/
def out0_C_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S2048x1024 .f32 :=
  VO0_2.read (Elt F) (VO0_2.writes (Elt F) VO0_2.junk (kernelRun0_C c i arg2 harg2 arg3 harg3 arg4 harg4 arg5 harg5 arg6 harg6 arg7 harg7 arg8 harg8 arg9 harg9 hc0 hc1 x0 x1 xs0 xs1).1)
/-- Those pieces tile the block, so they cover it. -/
theorem cover0_C_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S2048x1024.Idx) :
    ∃ pc ∈ (kernelRun0_C c i arg2 harg2 arg3 harg3 arg4 harg4 arg5 harg5 arg6 harg6 arg7 harg7 arg8 harg8 arg9 harg9 hc0 hc1 x0 x1 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).1 S2048x512.size (by sl_kernel_rfl) y

/-- What case C leaves in output window 3's staging buffer: the stores' pieces read back. -/
def out0_C_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S2048x64 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 xs0 xs1).2.1)
/-- Those pieces tile the block, so they cover it. -/
theorem cover0_C_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S2048x64.Idx) :
    ∃ pc ∈ (kernelRun0_C c i arg2 harg2 arg3 harg3 arg4 harg4 arg5 harg5 arg6 harg6 arg7 harg7 arg8 harg8 arg9 harg9 hc0 hc1 x0 x1 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).2.1 S2048x64.size (by sl_kernel_rfl) y

/-- What case C leaves in output window 4's staging buffer: the stores' pieces read back. -/
def out0_C_4 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S1x64x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 xs0 xs1).2.2.1)
/-- Those pieces tile the block, so they cover it. -/
theorem cover0_C_4 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S1x64x1.Idx) :
    ∃ pc ∈ (kernelRun0_C c i arg2 harg2 arg3 harg3 arg4 harg4 arg5 harg5 arg6 harg6 arg7 harg7 arg8 harg8 arg9 harg9 hc0 hc1 x0 x1 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).2.2.1 S1x64x1.size (by sl_kernel_rfl) y

/-- What case C leaves in output window 5's staging buffer: the stores' pieces read back. -/
def out0_C_5 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S1x64x1 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 xs0 xs1).2.2.2.1)
/-- Those pieces tile the block, so they cover it. -/
theorem cover0_C_5 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S1x64x1.Idx) :
    ∃ pc ∈ (kernelRun0_C c i arg2 harg2 arg3 harg3 arg4 harg4 arg5 harg5 arg6 harg6 arg7 harg7 arg8 harg8 arg9 harg9 hc0 hc1 x0 x1 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).2.2.2.1 S1x64x1.size (by sl_kernel_rfl) y

/-- What case C leaves in scratch buffer 0, which the kernel carries to the next point. -/
def sout0_C_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S64x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 xs0 xs1).2.2.2.2.1)
theorem scover0_C_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S64x1.Idx) :
    ∃ pc ∈ (kernelRun0_C c i arg2 harg2 arg3 harg3 arg4 harg4 arg5 harg5 arg6 harg6 arg7 harg7 arg8 harg8 arg9 harg9 hc0 hc1 x0 x1 xs0 xs1).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).2.2.2.2.1 S64x1.size (by sl_kernel_rfl) y

/-- What case C leaves in scratch buffer 1, which the kernel carries to the next point. -/
def sout0_C_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S64x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 xs0 xs1).2.2.2.2.2.1)
theorem scover0_C_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S64x1.Idx) :
    ∃ pc ∈ (kernelRun0_C c i arg2 harg2 arg3 harg3 arg4 harg4 arg5 harg5 arg6 harg6 arg7 harg7 arg8 harg8 arg9 harg9 hc0 hc1 x0 x1 xs0 xs1).2.2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).2.2.2.2.2.1 S64x1.size (by sl_kernel_rfl) y

/-- What the output staging buffers and the two scratch buffers hold after a point (outputs in window order, then the scratch). -/
abbrev Outs0 (F : FTy → Type) [FloatOps F] : Type := Vec F S2048x1024 .f32 × Vec F S2048x64 .f32 × Vec F S1x64x1 .f32 × Vec F S1x64x1 .f32 × Vec F S64x1 .f32 × Vec F S64x1 .f32

/-- Case A at point `t`: the buffers' contents after the body there. -/
def caseA0 (c : Dev nD) (t : Fin cfg0.N) (h0 : t.val % 16 = 0) (h1 : ¬t.val % 16 = 15) : Outs0 F :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t),
   out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t),
   VO0_4.read (Elt F) VO0_4.junk,
   VO0_5.read (Elt F) VO0_5.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t))

/-- Case B at point `t`: the buffers' contents after the body there, over the scratch contents the point before left. -/
def caseB0 (c : Dev nD) (t : Fin cfg0.N) (h0 : ¬t.val % 16 = 0) (h1 : ¬t.val % 16 = 15) (xs0 : Vec F S64x1 .f32) (xs1 : Vec F S64x1 .f32) : Outs0 F :=
  (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) xs0 xs1,
   out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) xs0 xs1,
   VO0_4.read (Elt F) VO0_4.junk,
   VO0_5.read (Elt F) VO0_5.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) xs0 xs1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) xs0 xs1)

/-- Case C at point `t`: the buffers' contents after the body there, over the scratch contents the point before left. -/
def caseC0 (c : Dev nD) (t : Fin cfg0.N) (h0 : ¬t.val % 16 = 0) (h1 : t.val % 16 = 15) (xs0 : Vec F S64x1 .f32) (xs1 : Vec F S64x1 .f32) : Outs0 F :=
  (out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1,
   out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1,
   out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1,
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1)

/-- What the buffers hold after the body at position `n`: the case the closed forms select there, a scratch buffer it
    reads at what this leaves at `n - 1`. -/
def outsAt0 (c : Dev nD) : (n : ℕ) → n < cfg0.N → Outs0 F
  | 0, hn => caseA0 V c ⟨0, hn⟩ (Nat.zero_mod _) (by show ¬(0 % 16 = 15); decide)
  | n + 1, hn =>
    if h0 : (n + 1) % 16 = 0 then caseA0 V c ⟨n + 1, hn⟩ h0 (by show ¬((n + 1) % 16 = 15); omega)
    else if h1 : (n + 1) % 16 = 15 then
      caseC0 V c ⟨n + 1, hn⟩ h0 h1 (outsAt0 c n (Nat.lt_of_succ_lt hn)).2.2.2.2.1 (outsAt0 c n (Nat.lt_of_succ_lt hn)).2.2.2.2.2
    else
      caseB0 V c ⟨n + 1, hn⟩ h0 h1 (outsAt0 c n (Nat.lt_of_succ_lt hn)).2.2.2.2.1 (outsAt0 c n (Nat.lt_of_succ_lt hn)).2.2.2.2.2

theorem outsAt0_A (c : Dev nD) (t : Fin cfg0.N) (h0 : t.val % 16 = 0) (h1 : ¬t.val % 16 = 15) :
    outsAt0 V c t.val t.isLt = caseA0 V c t h0 h1 := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = caseB0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 V c t.val t.isLt = caseC0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_pos h1).trans rfl)

/-- The region invariant before position `n`: before the first point the class's (every scoped buffer at anything);
    afterwards the same with the two scratch buffers at what the point before left in them. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.1) ∗ owns (c : Thread nD τ) scM0_1 fullShare ((outsAt0 V c n hn).2.2.2.2.2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.2.2.1) ∗ owns (c : Thread nD τ) scM0_1 fullShare ((outsAt0 V c n hn).2.2.2.2.2) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.2.1) ∗ owns (c : Thread nD τ) scM0_1 fullShare ((outsAt0 V c (n - 1) (by omega)).2.2.2.2.2) ∗ rest0 (F := F) c) ∗ (∃ r, prngReg c r)) := by
  cases n with
  | zero => exact absurd rfl hz
  | succ n => rfl

/-- The proof data of this region on core `c`: the arrays as the region finds them; after the body at a point each
    input's buffer at its block and each output's at the recursion's component; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem after0_5 (c : Dev nD) (t : Fin cfg0.N) : (dat0 V c).after 5 t = (outsAt0 V c t.val t.isLt).2.2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the closed forms say which case the point is in; the
    invariant hands the body the two scratch buffers at what the point before left (at anything at the very first point)
    and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t]]
  rw [show (dat0 V c).leavesExact 1 t = owns (c : Thread nD τ) (ms0_1 t) fullShare ((dat0 V c).after 1 t) from by
    unfold Dat.leavesExact; rw [liveAt0_1 t]]
  rw [show (dat0 V c).leavesExact 2 t = owns (c : Thread nD τ) (ms0_2 t) fullShare ((dat0 V c).after 2 t) from by
    unfold Dat.leavesExact; rw [liveAt0_2 t]]
  rw [show (dat0 V c).leavesExact 3 t = owns (c : Thread nD τ) (ms0_3 t) fullShare ((dat0 V c).after 3 t) from by
    unfold Dat.leavesExact; rw [liveAt0_3 t]]
  rw [after0_0, after0_1]
  by_cases h0 : t.val % 16 = 0
  · have h1 : ¬t.val % 16 = 15 := by omega
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [after0_2, after0_3, outsAt0_A V c t h0 h1]
    unfold caseA0; dsimp only
    unfold out0_A_2 out0_A_3 sout0_A_0 sout0_A_1; (try dsimp only)
    by_cases hz : t.val = 0
    ·
      rw [PhiS0_castSucc V c t, PhiS0_zero V c _ _ hz, PhiA0_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t)).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      isplitl [HS1]; · iexact HS1
      iintro ⟨H0, H1, ⟨%e2, H2⟩, ⟨%e3, H3⟩, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _ _)
      isplitl [H4]; · iexists _; iexact H4
      iexists _; iexact H5
    ·
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t)).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexists _; iexact HS0
      isplitl [HS1]; · iexists _; iexact HS1
      iintro ⟨H0, H1, ⟨%e2, H2⟩, ⟨%e3, H3⟩, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _ _)
      isplitl [H4]; · iexists _; iexact H4
      iexists _; iexact H5
  · by_cases h1 : t.val % 16 = 15
    ·
      rw [show (dat0 V c).leavesExact 4 t = owns (c : Thread nD τ) (ms0_4 t) fullShare ((dat0 V c).after 4 t) from by
        unfold Dat.leavesExact; rw [liveAt0_4 t ((hcond0_1 t).mpr h1)]]
      rw [show (dat0 V c).leavesExact 5 t = owns (c : Thread nD τ) (ms0_5 t) fullShare ((dat0 V c).after 5 t) from by
        unfold Dat.leavesExact; rw [liveAt0_5 t ((hcond0_1 t).mpr h1)]]
      rw [after0_2, after0_3, after0_4, after0_5, outsAt0_C V c t h0 h1]
      unfold caseC0; dsimp only
      unfold out0_C_2 out0_C_3 out0_C_4 out0_C_5 sout0_C_0 sout0_C_1; (try dsimp only)
      by_cases hz : t.val = 0
      · exfalso; omega
      ·
        rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) _ _).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        isplitl [HS1]; · iexact HS1
        iintro ⟨H0, H1, ⟨%e2, H2⟩, ⟨%e3, H3⟩, ⟨%e4, H4⟩, ⟨%e5, H5⟩, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _)
    ·
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [after0_2, after0_3, outsAt0_B V c t h0 h1]
      unfold caseB0; dsimp only
      unfold out0_B_2 out0_B_3 sout0_B_0 sout0_B_1; (try dsimp only)
      by_cases hz : t.val = 0
      · exfalso; omega
      ·
        rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) _ _).2.2.2.2 _ _ Set.univ _)
        isplitl [H0]; · iexact H0
        isplitl [H1]; · iexact H1
        isplitl [H2]; · iexists _; iexact H2
        isplitl [H3]; · iexists _; iexact H3
        isplitl [H4]; · iexact H4
        isplitl [H5]; · iexact H5
        isplitl [HS0]; · iexact HS0
        isplitl [HS1]; · iexact HS1
        iintro ⟨H0, H1, ⟨%e2, H2⟩, ⟨%e3, H3⟩, H4, H5, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _ _ _ _)
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _)
        isplitl [H4]; · iexists _; iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: the scratch contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.Kernel.Hand

end
-- ==== Proof.K.Kit1.lean ====
/-
  The second region (the accumulating kernel over the same 2 x 16 grid): its three control cases and where they
  fall. The body zeroes its two accumulators (a 64 x 512 weighted sum of query rows and a 64 x 1 sum of absolute
  weights, both kept in scratch memory) at a core's first chunk and copies them to the two per-core outputs at its
  last chunk; the outputs are idle elsewhere.
-/
import proofs.«147958_j26001732010458_2_alg».proof.Proof.Gen.Kernel.Launch
import proofs.«147958_j26001732010458_2_alg».proof.Proof.Gen.Kernel.Skeleton
import proofs.«147958_j26001732010458_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is a core's first chunk". -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is a core's last chunk". -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64x1 .f32 := win1_5.stage (cfg1.slots t 5)
abbrev hs1_5 (t : Fin cfg1.N) : (ms1_5 t).IsWhole := hstage1_5 ((cfg1.slots t 5).cast nbuf1_5)
/-- The weighted-sum accumulator's and the weight-sum accumulator's scratch buffers. -/
abbrev scM1_0 : Memref sig .tc .vmem S64x512 .f32 := Memref.whole cc1_scratch0
abbrev scM1_1 : Memref sig .tc .vmem S64x1 .f32 := Memref.whole cc1_scratch1
abbrev VS1_0 : View sig .tc .vmem S64x512 .f32 := scM1_0.view
abbrev VS1_1 : View sig .tc .vmem S64x1 .f32 := scM1_1.view
abbrev VO1_4 : View sig .tc .vmem S1x64x512 .f32 := (Memref.whole cc1_stg4_0 : Memref sig .tc .vmem S1x64x512 .f32).view
abbrev VO1_5 : View sig .tc .vmem S1x64x1 .f32 := (Memref.whole cc1_stg5_0 : Memref sig .tc .vmem S1x64x1 .f32).view

/-- The class invariant spelt out: the first region's thirteen staging and scratch buffers, each whole at some
    contents (they ride through this region untouched), then this region's two accumulators as memrefs owned at some
    contents, beside the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Hand

end
-- ==== Proof.K.Run1A.lean ====
/-
  The second region's body at a core's FIRST chunk: both accumulators are zeroed, whatever they held, then this
  chunk's hard-shrunk weights (from the query block, the memory block and the two global statistics) are added —
  their absolute row sums into the 64 x 1 accumulator, their product with the query block into the 64 x 512 one.
-/
import proofs.«147958_j26001732010458_2_alg».proof.Proof.K.Kit1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) :
    Σ' (LS0 : List (View.Piece (Elt F) S64x512 .f32)), { LS1 : List (View.Piece (Elt F) S64x1 .f32) //
      ∀ (xi4 : Vec F S1x64x512 .f32) (xi5 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kernel_accumulate i arg2 harg2 arg3 harg3 arg4 harg4 arg5 harg5 arg6 harg6 arg7 harg7 arg8 harg8 arg9 harg9) K } := by
  refine ⟨?_, ?_, fun xi4 xi5 E K => ?run⟩
  case run =>
    simp only [cc1__kernel_accumulate_eq_skeleton]; unfold cc1__kernel_accumulate_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.Run1B.lean ====
/-
  The second region's body at a MIDDLE chunk: the accumulators carried in from the chunk before take this chunk's
  contribution; the two per-core outputs are not touched.
-/
import proofs.«147958_j26001732010458_2_alg».proof.Proof.K.Kit1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) :
    Σ' (LS0 : List (View.Piece (Elt F) S64x512 .f32)), { LS1 : List (View.Piece (Elt F) S64x1 .f32) //
      ∀ (xi4 : Vec F S1x64x512 .f32) (xi5 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kernel_accumulate i arg2 harg2 arg3 harg3 arg4 harg4 arg5 harg5 arg6 harg6 arg7 harg7 arg8 harg8 arg9 harg9) K } := by
  refine ⟨?_, ?_, fun xi4 xi5 E K => ?run⟩
  case run =>
    simp only [cc1__kernel_accumulate_eq_skeleton]; unfold cc1__kernel_accumulate_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.Run1C.lean ====
/-
  The second region's body at a core's LAST chunk: the accumulators carried in from the chunk before take this
  chunk's contribution and are then copied to the two per-core outputs.
-/
import proofs.«147958_j26001732010458_2_alg».proof.Proof.K.Kit1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) :
    Σ' (L4 : List (View.Piece (Elt F) S1x64x512 .f32)) (L5 : List (View.Piece (Elt F) S1x64x1 .f32)) (LS0 : List (View.Piece (Elt F) S64x512 .f32)), { LS1 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kernel_accumulate i arg2 harg2 arg3 harg3 arg4 harg4 arg5 harg5 arg6 harg6 arg7 harg7 arg8 harg8 arg9 harg9) K } := by
  refine ⟨?_, ?_, ?_, ?_, fun E K => ?run⟩
  case run =>
    simp only [cc1__kernel_accumulate_eq_skeleton]; unfold cc1__kernel_accumulate_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Hand

end
-- ==== Proof.K.Frame1.lean ====
/-
  The second region, point by point. A point's body adds its chunk's contribution to the two accumulators kept in
  scratch memory (zeroed at a core's first chunk) and, at a core's last chunk only, copies them to the two per-core
  outputs. This module names the buffers' contents case by case (the symbolic run's pieces read back), chains them
  over the grid by recursion on the point's position, and proves the pipeline's body obligation from them: the region
  invariant is "the two accumulators hold what the point before left", beside the buffers this region never touches.
-/
import proofs.«147958_j26001732010458_2_alg».proof.Proof.K.Run1A
import proofs.«147958_j26001732010458_2_alg».proof.Proof.K.Run1B
import proofs.«147958_j26001732010458_2_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What case A leaves in scratch buffer 0, which the kernel carries to the next point. -/
def sout1_A_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) : Vec F S64x512 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).1)
theorem scover1_A_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) (y : S64x512.Idx) :
    ∃ pc ∈ (kernelRun1_A c i arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg2 harg2 arg3 harg3 arg4 harg4 arg5 harg5 arg6 harg6 arg7 harg7 arg8 harg8 arg9 harg9 hc0 hc1 x0 x1 x2 x3).1 S64x512.size (by sl_kernel_rfl) y

/-- What case A leaves in scratch buffer 1, which the kernel carries to the next point. -/
def sout1_A_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) : Vec F S64x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.1)
theorem scover1_A_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) (y : S64x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S64x1.size (by sl_kernel_rfl) y

/-- What case B leaves in scratch buffer 0, which the kernel carries to the next point. -/
def sout1_B_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S64x512 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1).1)
theorem scover1_B_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S64x512.Idx) :
    ∃ pc ∈ (kernelRun1_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).1 S64x512.size (by sl_kernel_rfl) y

/-- What case B leaves in scratch buffer 1, which the kernel carries to the next point. -/
def sout1_B_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S64x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1).2.1)
theorem scover1_B_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S64x1.Idx) :
    ∃ pc ∈ (kernelRun1_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).2.1 S64x1.size (by sl_kernel_rfl) y

/-- What case C leaves in output window 4's staging buffer: the stores' pieces read back. -/
def out1_C_4 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S1x64x512 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1).1)
/-- Those pieces tile the block, so they cover it. -/
theorem cover1_C_4 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S1x64x512.Idx) :
    ∃ pc ∈ (kernelRun1_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).1 S1x64x512.size (by sl_kernel_rfl) y

/-- What case C leaves in output window 5's staging buffer: the stores' pieces read back. -/
def out1_C_5 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S1x64x1 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 xs0 xs1).2.1)
/-- Those pieces tile the block, so they cover it. -/
theorem cover1_C_5 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S1x64x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.1 S1x64x1.size (by sl_kernel_rfl) y

/-- What case C leaves in scratch buffer 0, which the kernel carries to the next point. -/
def sout1_C_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S64x512 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1).2.2.1)
theorem scover1_C_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S64x512.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.1 S64x512.size (by sl_kernel_rfl) y

/-- What case C leaves in scratch buffer 1, which the kernel carries to the next point. -/
def sout1_C_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S64x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1).2.2.2.1)
theorem scover1_C_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S64x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.2.1 S64x1.size (by sl_kernel_rfl) y

/-- What the output staging buffers and the two scratch buffers hold after a point (outputs in window order, then the scratch). -/
abbrev Outs1 (F : FTy → Type) [FloatOps F] : Type := Vec F S1x64x512 .f32 × Vec F S1x64x1 .f32 × Vec F S64x512 .f32 × Vec F S64x1 .f32

/-- Case A at point `t`: the buffers' contents after the body there. -/
def caseA1 (c : Dev nD) (t : Fin cfg1.N) (h0 : t.val % 16 = 0) (h1 : ¬t.val % 16 = 15) : Outs1 F :=
  (VO1_4.read (Elt F) VO1_4.junk,
   VO1_5.read (Elt F) VO1_5.junk,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t))

/-- Case B at point `t`: the buffers' contents after the body there, over the scratch contents the point before left. -/
def caseB1 (c : Dev nD) (t : Fin cfg1.N) (h0 : ¬t.val % 16 = 0) (h1 : ¬t.val % 16 = 15) (xs0 : Vec F S64x512 .f32) (xs1 : Vec F S64x1 .f32) : Outs1 F :=
  (VO1_4.read (Elt F) VO1_4.junk,
   VO1_5.read (Elt F) VO1_5.junk,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1)

/-- Case C at point `t`: the buffers' contents after the body there, over the scratch contents the point before left. -/
def caseC1 (c : Dev nD) (t : Fin cfg1.N) (h0 : ¬t.val % 16 = 0) (h1 : t.val % 16 = 15) (xs0 : Vec F S64x512 .f32) (xs1 : Vec F S64x1 .f32) : Outs1 F :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1)

/-- What the buffers hold after the body at position `n`: the case the closed forms select there, a scratch buffer it
    reads at what this leaves at `n - 1`. -/
def outsAt1 (c : Dev nD) : (n : ℕ) → n < cfg1.N → Outs1 F
  | 0, hn => caseA1 V c ⟨0, hn⟩ (Nat.zero_mod _) (by show ¬(0 % 16 = 15); decide)
  | n + 1, hn =>
    if h0 : (n + 1) % 16 = 0 then caseA1 V c ⟨n + 1, hn⟩ h0 (by show ¬((n + 1) % 16 = 15); omega)
    else if h1 : (n + 1) % 16 = 15 then
      caseC1 V c ⟨n + 1, hn⟩ h0 h1 (outsAt1 c n (Nat.lt_of_succ_lt hn)).2.2.1 (outsAt1 c n (Nat.lt_of_succ_lt hn)).2.2.2
    else
      caseB1 V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 16 = 0) (h1 : ¬t.val % 16 = 15) :
    outsAt1 V c t.val t.isLt = caseA1 V c t h0 h1 := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = caseB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = caseC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region invariant before position `n`: before the first point the class's (every scoped buffer at anything);
    afterwards the same with the two scratch buffers at what the point before left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2.1) ∗ owns (c : Thread nD τ) scM1_1 fullShare ((outsAt1 V c n hn).2.2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

/-- The proof data of this region on core `c`: the arrays as the region finds them; after the body at a point each
    input's buffer at its block and each output's at the recursion's component; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the closed forms say which case the point is in; the
    invariant hands the body the two scratch buffers at what the point before left (at anything at the very first point)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t]]
  rw [show (dat1 V c).leavesExact 1 t = owns (c : Thread nD τ) (ms1_1 t) fullShare ((dat1 V c).after 1 t) from by
    unfold Dat.leavesExact; rw [liveAt1_1 t]]
  rw [show (dat1 V c).leavesExact 2 t = owns (c : Thread nD τ) (ms1_2 t) fullShare ((dat1 V c).after 2 t) from by
    unfold Dat.leavesExact; rw [liveAt1_2 t]]
  rw [show (dat1 V c).leavesExact 3 t = owns (c : Thread nD τ) (ms1_3 t) fullShare ((dat1 V c).after 3 t) from by
    unfold Dat.leavesExact; rw [liveAt1_3 t]]
  rw [after1_0, after1_1, after1_2, after1_3]
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [Dat.leavesExact_idle (dat1 V c) 5 t (idleAt1_5 t (fun h => h1 ((hcond1_1 t).mp h))) (noFlush1_5 t (fun h => h1 ((hcond1_1 t).mp h)))]
    rw [outsAt1_A V c t h0 h1]
    unfold caseA1; dsimp only
    unfold sout1_A_0 sout1_A_1; (try dsimp only)
    by_cases hz : t.val = 0
    ·
      rw [PhiS1_castSucc V c t, PhiS1_zero V c _ _ hz, PhiA1_eq]
      iintro ⟨⟨⟨Hr0, Hr1, Hr2, Hr3, Hr4, Hr5, Hr6, Hr7, Hr8, Hr9, Hr10, Hr11, Hr12, HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hr0 Hr1 Hr2 Hr3 Hr4 Hr5 Hr6 Hr7 Hr8 Hr9 Hr10 Hr11 Hr12 HS0 HS1 Hg]
      · isplitl [Hr0 Hr1 Hr2 Hr3 Hr4 Hr5 Hr6 Hr7 Hr8 Hr9 Hr10 Hr11 Hr12 HS0 HS1]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          isplitl [Hr12]; · iexact Hr12
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    ·
      rw [PhiS1_castSucc V c t, PhiS1_pos V c _ _ hz]
      iintro ⟨⟨⟨Hr0, Hr1, Hr2, Hr3, Hr4, Hr5, Hr6, Hr7, Hr8, Hr9, Hr10, Hr11, Hr12, HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [Hr0 Hr1 Hr2 Hr3 Hr4 Hr5 Hr6 Hr7 Hr8 Hr9 Hr10 Hr11 Hr12 HS0 HS1 Hg]
      · isplitl [Hr0 Hr1 Hr2 Hr3 Hr4 Hr5 Hr6 Hr7 Hr8 Hr9 Hr10 Hr11 Hr12 HS0 HS1]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          isplitl [Hr12]; · iexact Hr12
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · by_cases h1 : t.val % 16 = 15
    ·
      rw [show (dat1 V c).leavesExact 4 t = owns (c : Thread nD τ) (ms1_4 t) fullShare ((dat1 V c).after 4 t) from by
        unfold Dat.leavesExact; rw [liveAt1_4 t ((hcond1_1 t).mpr h1)]]
      rw [show (dat1 V c).leavesExact 5 t = owns (c : Thread nD τ) (ms1_5 t) fullShare ((dat1 V c).after 5 t) from by
        unfold Dat.leavesExact; rw [liveAt1_5 t ((hcond1_1 t).mpr h1)]]
      rw [after1_4, after1_5, outsAt1_C V c t h0 h1]
      unfold caseC1; dsimp only
      unfold out1_C_4 out1_C_5 sout1_C_0 sout1_C_1; (try dsimp only)
      by_cases hz : t.val = 0
      · exfalso; omega
      ·
        rw [PhiS1_castSucc V c t, PhiS1_pos V c _ _ hz]
        iintro ⟨⟨⟨Hr0, Hr1, Hr2, Hr3, Hr4, Hr5, Hr6, Hr7, Hr8, Hr9, Hr10, Hr11, Hr12, HS0, HS1⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [Hr0 Hr1 Hr2 Hr3 Hr4 Hr5 Hr6 Hr7 Hr8 Hr9 Hr10 Hr11 Hr12 HS0 HS1 Hg]
        · isplitl [Hr0 Hr1 Hr2 Hr3 Hr4 Hr5 Hr6 Hr7 Hr8 Hr9 Hr10 Hr11 Hr12 HS0 HS1]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _ _ _ _)
    ·
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold caseB1; dsimp only
      unfold sout1_B_0 sout1_B_1; (try dsimp only)
      by_cases hz : t.val = 0
      · exfalso; omega
      ·
        rw [PhiS1_castSucc V c t, PhiS1_pos V c _ _ hz]
        iintro ⟨⟨⟨Hr0, Hr1, Hr2, Hr3, Hr4, Hr5, Hr6, Hr7, Hr8, Hr9, Hr10, Hr11, Hr12, HS0, HS1⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [Hr0 Hr1 Hr2 Hr3 Hr4 Hr5 Hr6 Hr7 Hr8 Hr9 Hr10 Hr11 Hr12 HS0 HS1 Hg]
        · isplitl [Hr0 Hr1 Hr2 Hr3 Hr4 Hr5 Hr6 Hr7 Hr8 Hr9 Hr10 Hr11 Hr12 HS0 HS1]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, Hr7, Hr8, Hr9, Hr10, Hr11, Hr12, HS0, HS1⟩, Hg⟩
  isplitl [Hr0 Hr1 Hr2 Hr3 Hr4 Hr5 Hr6 Hr7 Hr8 Hr9 Hr10 Hr11 Hr12 HS0 HS1]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [HS0]; · iexists _; iexact HS0
    iexists _; iexact HS1
  iexact Hg

end Cert.Kernel.Hand

end
-- ==== Proof.K.Asm.lean ====
/-
  The whole program as five segments — a host stretch (the reshape of the query to 65536 rows), the first region, a
  host stretch (the two cores' statistics combined), the second region, a host stretch (the cores' partial sums
  combined, normalised and gated; the two read-path results reshaped) — with the contents of every unscoped buffer
  named at each boundary: `W0` the launch memory, `W1` after the first stretch, `W2` with the first region's four
  output arrays at what its pipeline leaves, `W3` after the second stretch, `W4` with the second region's two
  output arrays at what its pipeline leaves, `W5` after the last stretch. The run: every weakly fair execution
  terminates and ends with every unscoped buffer at `W5`.
-/
import proofs.«147958_j26001732010458_2_alg».proof.Proof.K.Frame0
import proofs.«147958_j26001732010458_2_alg».proof.Proof.K.Frame1
import proofs.«147958_j26001732010458_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays
    are split out of the unscoped buffers and put back at the exit contents; the generator register goes into the
    region invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out0 (V1 m) c (Fin.last _) (by rw [Fin.val_last]; have : cfg0.N = 32 := N_0; omega)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers and put back at the exit contents; the generator register goes into the
    region invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi_out1 (V3 m) c (Fin.last _) (by rw [Fin.val_last]; have : cfg1.N = 32 := N_1; omega)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) :=
  main_segs adm (pdats m) () 𝒱₀ L lv _ _ _ (reg0 m) (reg1 m) rfl rfl rfl c

set_option backward.isDefEq.respectTransparency.types false in
/-- THE RUN: from any memory with zero counters every weakly fair execution of @main terminates, nothing faulting, and
    every final state has every unscoped buffer at `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.K.Args.lean ====
/-
  The arguments end as launched. No host stretch writes an argument array, and a region changes only its output
  windows' arrays: the query and the four gate parameters are no window's array at all, and the memory bank is an
  INPUT window's array of both regions, which the pipeline leaves as it found it. So the final valuation at each
  argument walks back to the launch memory, and the run gives the frame claim.
-/
import proofs.«147958_j26001732010458_2_alg».proof.Proof.K.Asm

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_of (c : Dev nD) (r : Ref sig .tc) (h : r ∉ hostOps2_W) : W5 m c (Proc.devRef .tc r) = W4 m c (Proc.devRef .tc r) :=
  StableHlo.after_of_writes_sub hostOps2 _ hostOps2_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W1_of (c : Dev nD) (r : Ref sig .tc) (h : r ∉ hostOps0_W) : W1 m c (Proc.devRef .tc r) = W0 m c (Proc.devRef .tc r) :=
  StableHlo.after_of_writes_sub hostOps0 _ hostOps0_writes h

/-- A buffer no host stretch writes and no window of either region stages ends at its launch contents. -/
theorem W5_plain (c : Dev nD) (r : Ref sig .tc) (h5 : r ∉ hostOps2_W) (h4 : ∀ w, Pipeline.arrRef spec1 w ≠ r) (h3 : r ∉ hostOps1_W)
    (h2 : ∀ w, Pipeline.arrRef spec0 w ≠ r) (h1 : r ∉ hostOps0_W) : W5 m c (Proc.devRef .tc r) = m ((c : Thread nD τ).loc r) :=
  (W5_of m c r h5).trans <| (W4_of_ne m c r h4).trans <| (W3_of m c r h3).trans <| (W2_of_ne m c r h2).trans <| (W1_of m c r h1).trans rfl

/-- The memory bank: an input window's array of both regions. -/
theorem W5_main_arg1 (c : Dev nD) : W5 m c (Proc.devRef .tc main_arg1) = m ((c : Thread nD τ).loc main_arg1) :=
  (W5_of m c main_arg1 (by decide)).trans <|
    ((W4_arr m c 1).trans (((dat1 (V3 m) c).arrAt_in 1 rfl _).trans (A_eq1 (V3 m) c 1))).trans <|
    (W3_of m c main_arg1 (by decide)).trans <|
    ((W2_arr m c 1).trans (((dat0 (V1 m) c).arrAt_in 1 rfl _).trans (A_eq0 (V1 m) c 1))).trans <|
    (W1_of m c main_arg1 (by decide)).trans rfl

/-- THE FRAME, at any float instance: every weakly fair execution terminates, nothing faulting, and the six argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_plain m c main_arg0 (by decide) (by decide) (by decide) (by decide) (by decide)),
     (h c _ (mem_uc main_arg1 (by decide))).trans (W5_main_arg1 m c),
     (h c _ (mem_uc main_arg2 (by decide))).trans (W5_plain m c main_arg2 (by decide) (by decide) (by decide) (by decide) (by decide)),
     (h c _ (mem_uc main_arg3 (by decide))).trans (W5_plain m c main_arg3 (by decide) (by decide) (by decide) (by decide) (by decide)),
     (h c _ (mem_uc main_arg4 (by decide))).trans (W5_plain m c main_arg4 (by decide) (by decide) (by decide) (by decide) (by decide)),
     (h c _ (mem_uc main_arg5 (by decide))).trans (W5_plain m c main_arg5 (by decide) (by decide) (by decide) (by decide) (by decide))⟩)
    (run_main m ρ)

end Cert.Kernel.Hand

end
-- ==== Proof.KI.Kit0.lean ====
/-
  The first region (the statistics-and-read kernel over a 2 x 16 grid): what its three control cases are and where
  they fall. The grid's second coordinate is the chunk number within a core's half of the rows; the body resets
  its two running statistics (a running row maximum and a running sum of exponentials, each a 64 x 1 column kept
  in scratch memory) at chunk 0, and copies them to the two per-core statistics outputs at chunk 15. So a point
  `t = 16 * core + chunk` is in the FIRST case when `t % 16 = 0`, in the LAST case when `t % 16 = 15` and in the
  MIDDLE case otherwise; the two per-core outputs are idle (neither stored nor written back) outside the last case.
-/
import proofs.«147958_j26001732010458_2_alg».proof.Proof.Gen.KernelIdeal.Launch
import proofs.«147958_j26001732010458_2_alg».proof.Proof.Gen.KernelIdeal.Skeleton
import proofs.«147958_j26001732010458_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- "This is a core's first chunk": the body's first conditional, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is a core's last chunk": the body's second conditional. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Outside a core's last chunk the two statistics outputs are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At a core's last chunk they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with at a point -/

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1 .f32 := win0_5.stage (cfg0.slots t 5)
abbrev hs0_5 (t : Fin cfg0.N) : (ms0_5 t).IsWhole := hstage0_5 ((cfg0.slots t 5).cast nbuf0_5)
/-- The running maximum's and the running sum's scratch buffers. -/
abbrev scM0_0 : Memref sig .tc .vmem S64x1 .f32 := Memref.whole cc0_scratch0
abbrev scM0_1 : Memref sig .tc .vmem S64x1 .f32 := Memref.whole cc0_scratch1
abbrev VS0_0 : View sig .tc .vmem S64x1 .f32 := scM0_0.view
abbrev VS0_1 : View sig .tc .vmem S64x1 .f32 := scM0_1.view
/-- One staging buffer of each output window, through which its contents are stated. -/
abbrev VO0_2 : View sig .tc .vmem S2048x1024 .f32 := (Memref.whole cc0_stg2_0 : Memref sig .tc .vmem S2048x1024 .f32).view
abbrev VO0_3 : View sig .tc .vmem S2048x64 .f32 := (Memref.whole cc0_stg3_0 : Memref sig .tc .vmem S2048x64 .f32).view
abbrev VO0_4 : View sig .tc .vmem S1x64x1 .f32 := (Memref.whole cc0_stg4_0 : Memref sig .tc .vmem S1x64x1 .f32).view
abbrev VO0_5 : View sig .tc .vmem S1x64x1 .f32 := (Memref.whole cc0_stg5_0 : Memref sig .tc .vmem S1x64x1 .f32).view

/-- The other region's staging and scratch buffers, each whole at some contents: they ride through this region untouched. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with the two scratch buffers as memrefs owned at some contents, beside the other region's buffers. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

end Cert.KernelIdeal.Hand

end
-- ==== Proof.KI.Run0A.lean ====
/-
  The first region's body in the FIRST case (a core's first chunk): the two running statistics in scratch are
  first reset — the running maximum to minus infinity, the running sum to zero — whatever they held, and then
  updated from this chunk as in the middle case; the two row-block outputs are stored; the two per-core
  statistics outputs are not touched.
-/
import proofs.«147958_j26001732010458_2_alg».proof.Proof.KI.Kit0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) :
    Σ' (L2 : List (View.Piece (Elt F) S2048x1024 .f32)) (L3 : List (View.Piece (Elt F) S2048x64 .f32)) (LS0 : List (View.Piece (Elt F) S64x1 .f32)), { LS1 : List (View.Piece (Elt F) S64x1 .f32) //
      ∀ (xi4 : Vec F S1x64x1 .f32) (xi5 : Vec F S1x64x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_stats_read i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0__kernel_stats_read_eq_skeleton]; unfold cc0__kernel_stats_read_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.Run0B.lean ====
/-
  The first region's body in the MIDDLE case (neither a core's first chunk nor its last): from the query block and
  the memory block in their staging buffers and the two running statistics in scratch, it leaves the read-path
  block (the query block beside the attention-weighted memory rows) and the attention weights in the two row-block
  outputs, and the updated running maximum and running sum in scratch; the two per-core statistics outputs are not
  touched. The pieces each buffer ends with are found by running the body symbolically.
-/
import proofs.«147958_j26001732010458_2_alg».proof.Proof.KI.Kit0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) :
    Σ' (L2 : List (View.Piece (Elt F) S2048x1024 .f32)) (L3 : List (View.Piece (Elt F) S2048x64 .f32)) (LS0 : List (View.Piece (Elt F) S64x1 .f32)), { LS1 : List (View.Piece (Elt F) S64x1 .f32) //
      ∀ (xi4 : Vec F S1x64x1 .f32) (xi5 : Vec F S1x64x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_stats_read i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0__kernel_stats_read_eq_skeleton]; unfold cc0__kernel_stats_read_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.Run0C.lean ====
/-
  The first region's body in the LAST case (a core's last chunk): the running statistics, carried in from the
  chunk before, are updated from this chunk and then copied to the two per-core statistics outputs; the two
  row-block outputs are stored as at every point.
-/
import proofs.«147958_j26001732010458_2_alg».proof.Proof.KI.Kit0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) :
    Σ' (L2 : List (View.Piece (Elt F) S2048x1024 .f32)) (L3 : List (View.Piece (Elt F) S2048x64 .f32)) (L4 : List (View.Piece (Elt F) S1x64x1 .f32)) (L5 : List (View.Piece (Elt F) S1x64x1 .f32)) (LS0 : List (View.Piece (Elt F) S64x1 .f32)), { LS1 : List (View.Piece (Elt F) S64x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_stats_read i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__kernel_stats_read_eq_skeleton]; unfold cc0__kernel_stats_read_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KI.Frame0.lean ====
/-
  The first region, point by point. A point's body leaves, in the two row-block output buffers, the read-path block
  and the attention weights of its 2048 query rows; in the two scratch columns, the running row maximum and running
  sum of exponentials over the chunks of its core seen so far (reset at a core's first chunk); and, at a core's last
  chunk only, copies of those two columns in the per-core statistics outputs. This module names those contents case by
  case (the symbolic run's pieces read back), chains them over the grid by recursion on the point's position, and
  proves the pipeline's body obligation from them: the region invariant is "the two scratch columns hold what the
  point before left", beside the buffers this region never touches.
-/
import proofs.«147958_j26001732010458_2_alg».proof.Proof.KI.Run0A
import proofs.«147958_j26001732010458_2_alg».proof.Proof.KI.Run0B
import proofs.«147958_j26001732010458_2_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What case A leaves in output window 2's staging buffer: the stores' pieces read back. -/
def out0_A_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) : Vec F S2048x1024 .f32 :=
  VO0_2.read (Elt F) (VO0_2.writes (Elt F) VO0_2.junk (kernelRun0_A c i arg2 harg2 arg3 harg3 arg4 harg4 arg5 harg5 arg6 harg6 arg7 harg7 arg8 harg8 arg9 harg9 hc0 hc1 x0 x1).1)
/-- Those pieces tile the block, so they cover it. -/
theorem cover0_A_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) (y : S2048x1024.Idx) :
    ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S2048x512.size (by sl_kernel_rfl) y

/-- What case A leaves in output window 3's staging buffer: the stores' pieces read back. -/
def out0_A_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) : Vec F S2048x64 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1).2.1)
/-- Those pieces tile the block, so they cover it. -/
theorem cover0_A_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) (y : S2048x64.Idx) :
    ∃ pc ∈ (kernelRun0_A c i arg2 harg2 arg3 harg3 arg4 harg4 arg5 harg5 arg6 harg6 arg7 harg7 arg8 harg8 arg9 harg9 hc0 hc1 x0 x1).2.1, y ∈ pc.1.set :=
  View.cover_of_tiledL (kernelRun0_A c i arg2 harg2 arg3 harg3 arg4 harg4 arg5 harg5 arg6 harg6 arg7 harg7 arg8 harg8 arg9 harg9 hc0 hc1 x0 x1).2.1 S2048x64.size (by sl_kernel_rfl) y

/-- What case A leaves in scratch buffer 0, which the kernel carries to the next point. -/
def sout0_A_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) : Vec F S64x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1).2.2.1)
theorem scover0_A_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) (y : S64x1.Idx) :
    ∃ pc ∈ (kernelRun0_A c i arg2 harg2 arg3 harg3 arg4 harg4 arg5 harg5 arg6 harg6 arg7 harg7 arg8 harg8 arg9 harg9 hc0 hc1 x0 x1).2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.1 S64x1.size (by sl_kernel_rfl) y

/-- What case A leaves in scratch buffer 1, which the kernel carries to the next point. -/
def sout0_A_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) : Vec F S64x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1).2.2.2.1)
theorem scover0_A_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) (y : S64x1.Idx) :
    ∃ pc ∈ (kernelRun0_A c i arg2 harg2 arg3 harg3 arg4 harg4 arg5 harg5 arg6 harg6 arg7 harg7 arg8 harg8 arg9 harg9 hc0 hc1 x0 x1).2.2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.2.1 S64x1.size (by sl_kernel_rfl) y

/-- What case B leaves in output window 2's staging buffer: the stores' pieces read back. -/
def out0_B_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) : Vec F S2048x1024 .f32 :=
  VO0_2.read (Elt F) (VO0_2.writes (Elt F) VO0_2.junk (kernelRun0_B c i arg2 harg2 arg3 harg3 arg4 harg4 arg5 harg5 arg6 harg6 arg7 harg7 arg8 harg8 arg9 harg9 hc0 hc1 x0 x1 xs0 xs1).1)
/-- Those pieces tile the block, so they cover it. -/
theorem cover0_B_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) (y : S2048x1024.Idx) :
    ∃ pc ∈ (kernelRun0_B c i arg2 harg2 arg3 harg3 arg4 harg4 arg5 harg5 arg6 harg6 arg7 harg7 arg8 harg8 arg9 harg9 hc0 hc1 x0 x1 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).1 S2048x512.size (by sl_kernel_rfl) y

/-- What case B leaves in output window 3's staging buffer: the stores' pieces read back. -/
def out0_B_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) : Vec F S2048x64 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 xs0 xs1).2.1)
/-- Those pieces tile the block, so they cover it. -/
theorem cover0_B_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) (y : S2048x64.Idx) :
    ∃ pc ∈ (kernelRun0_B c i arg2 harg2 arg3 harg3 arg4 harg4 arg5 harg5 arg6 harg6 arg7 harg7 arg8 harg8 arg9 harg9 hc0 hc1 x0 x1 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).2.1 S2048x64.size (by sl_kernel_rfl) y

/-- What case B leaves in scratch buffer 0, which the kernel carries to the next point. -/
def sout0_B_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) : Vec F S64x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 xs0 xs1).2.2.1)
theorem scover0_B_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) (y : S64x1.Idx) :
    ∃ pc ∈ (kernelRun0_B c i arg2 harg2 arg3 harg3 arg4 harg4 arg5 harg5 arg6 harg6 arg7 harg7 arg8 harg8 arg9 harg9 hc0 hc1 x0 x1 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).2.2.1 S64x1.size (by sl_kernel_rfl) y

/-- What case B leaves in scratch buffer 1, which the kernel carries to the next point. -/
def sout0_B_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) : Vec F S64x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 xs0 xs1).2.2.2.1)
theorem scover0_B_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) (y : S64x1.Idx) :
    ∃ pc ∈ (kernelRun0_B c i arg2 harg2 arg3 harg3 arg4 harg4 arg5 harg5 arg6 harg6 arg7 harg7 arg8 harg8 arg9 harg9 hc0 hc1 x0 x1 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).2.2.2.1 S64x1.size (by sl_kernel_rfl) y

/-- What case C leaves in output window 2's staging buffer: the stores' pieces read back. -/
def out0_C_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S2048x1024 .f32 :=
  VO0_2.read (Elt F) (VO0_2.writes (Elt F) VO0_2.junk (kernelRun0_C c i arg2 harg2 arg3 harg3 arg4 harg4 arg5 harg5 arg6 harg6 arg7 harg7 arg8 harg8 arg9 harg9 hc0 hc1 x0 x1 xs0 xs1).1)
/-- Those pieces tile the block, so they cover it. -/
theorem cover0_C_2 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S2048x1024.Idx) :
    ∃ pc ∈ (kernelRun0_C c i arg2 harg2 arg3 harg3 arg4 harg4 arg5 harg5 arg6 harg6 arg7 harg7 arg8 harg8 arg9 harg9 hc0 hc1 x0 x1 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).1 S2048x512.size (by sl_kernel_rfl) y

/-- What case C leaves in output window 3's staging buffer: the stores' pieces read back. -/
def out0_C_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S2048x64 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 xs0 xs1).2.1)
/-- Those pieces tile the block, so they cover it. -/
theorem cover0_C_3 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S2048x64.Idx) :
    ∃ pc ∈ (kernelRun0_C c i arg2 harg2 arg3 harg3 arg4 harg4 arg5 harg5 arg6 harg6 arg7 harg7 arg8 harg8 arg9 harg9 hc0 hc1 x0 x1 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).2.1 S2048x64.size (by sl_kernel_rfl) y

/-- What case C leaves in output window 4's staging buffer: the stores' pieces read back. -/
def out0_C_4 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S1x64x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 xs0 xs1).2.2.1)
/-- Those pieces tile the block, so they cover it. -/
theorem cover0_C_4 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S1x64x1.Idx) :
    ∃ pc ∈ (kernelRun0_C c i arg2 harg2 arg3 harg3 arg4 harg4 arg5 harg5 arg6 harg6 arg7 harg7 arg8 harg8 arg9 harg9 hc0 hc1 x0 x1 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).2.2.1 S1x64x1.size (by sl_kernel_rfl) y

/-- What case C leaves in output window 5's staging buffer: the stores' pieces read back. -/
def out0_C_5 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S1x64x1 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 xs0 xs1).2.2.2.1)
/-- Those pieces tile the block, so they cover it. -/
theorem cover0_C_5 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S1x64x1.Idx) :
    ∃ pc ∈ (kernelRun0_C c i arg2 harg2 arg3 harg3 arg4 harg4 arg5 harg5 arg6 harg6 arg7 harg7 arg8 harg8 arg9 harg9 hc0 hc1 x0 x1 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).2.2.2.1 S1x64x1.size (by sl_kernel_rfl) y

/-- What case C leaves in scratch buffer 0, which the kernel carries to the next point. -/
def sout0_C_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S64x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 xs0 xs1).2.2.2.2.1)
theorem scover0_C_0 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S64x1.Idx) :
    ∃ pc ∈ (kernelRun0_C c i arg2 harg2 arg3 harg3 arg4 harg4 arg5 harg5 arg6 harg6 arg7 harg7 arg8 harg8 arg9 harg9 hc0 hc1 x0 x1 xs0 xs1).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).2.2.2.2.1 S64x1.size (by sl_kernel_rfl) y

/-- What case C leaves in scratch buffer 1, which the kernel carries to the next point. -/
def sout0_C_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) : Vec F S64x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 xs0 xs1).2.2.2.2.2.1)
theorem scover0_C_1 (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) (y : S64x1.Idx) :
    ∃ pc ∈ (kernelRun0_C c i arg2 harg2 arg3 harg3 arg4 harg4 arg5 harg5 arg6 harg6 arg7 harg7 arg8 harg8 arg9 harg9 hc0 hc1 x0 x1 xs0 xs1).2.2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 xs0 xs1).2.2.2.2.2.1 S64x1.size (by sl_kernel_rfl) y

/-- What the output staging buffers and the two scratch buffers hold after a point (outputs in window order, then the scratch). -/
abbrev Outs0 (F : FTy → Type) [FloatOps F] : Type := Vec F S2048x1024 .f32 × Vec F S2048x64 .f32 × Vec F S1x64x1 .f32 × Vec F S1x64x1 .f32 × Vec F S64x1 .f32 × Vec F S64x1 .f32

/-- Case A at point `t`: the buffers' contents after the body there. -/
def caseA0 (c : Dev nD) (t : Fin cfg0.N) (h0 : t.val % 16 = 0) (h1 : ¬t.val % 16 = 15) : Outs0 F :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t),
   out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t),
   VO0_4.read (Elt F) VO0_4.junk,
   VO0_5.read (Elt F) VO0_5.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t))

/-- Case B at point `t`: the buffers' contents after the body there, over the scratch contents the point before left. -/
def caseB0 (c : Dev nD) (t : Fin cfg0.N) (h0 : ¬t.val % 16 = 0) (h1 : ¬t.val % 16 = 15) (xs0 : Vec F S64x1 .f32) (xs1 : Vec F S64x1 .f32) : Outs0 F :=
  (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) xs0 xs1,
   out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) xs0 xs1,
   VO0_4.read (Elt F) VO0_4.junk,
   VO0_5.read (Elt F) VO0_5.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) xs0 xs1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) xs0 xs1)

/-- Case C at point `t`: the buffers' contents after the body there, over the scratch contents the point before left. -/
def caseC0 (c : Dev nD) (t : Fin cfg0.N) (h0 : ¬t.val % 16 = 0) (h1 : t.val % 16 = 15) (xs0 : Vec F S64x1 .f32) (xs1 : Vec F S64x1 .f32) : Outs0 F :=
  (out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1,
   out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1,
   out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1,
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs0 xs1)

/-- What the buffers hold after the body at position `n`: the case the closed forms select there, a scratch buffer it
    reads at what this leaves at `n - 1`. -/
def outsAt0 (c : Dev nD) : (n : ℕ) → n < cfg0.N → Outs0 F
  | 0, hn => caseA0 V c ⟨0, hn⟩ (Nat.zero_mod _) (by show ¬(0 % 16 = 15); decide)
  | n + 1, hn =>
    if h0 : (n + 1) % 16 = 0 then caseA0 V c ⟨n + 1, hn⟩ h0 (by show ¬((n + 1) % 16 = 15); omega)
    else if h1 : (n + 1) % 16 = 15 then
      caseC0 V c ⟨n + 1, hn⟩ h0 h1 (outsAt0 c n (Nat.lt_of_succ_lt hn)).2.2.2.2.1 (outsAt0 c n (Nat.lt_of_succ_lt hn)).2.2.2.2.2
    else
      caseB0 V c ⟨n + 1, hn⟩ h0 h1 (outsAt0 c n (Nat.lt_of_succ_lt hn)).2.2.2.2.1 (outsAt0 c n (Nat.lt_of_succ_lt hn)).2.2.2.2.2

theorem outsAt0_A (c : Dev nD) (t : Fin cfg0.N) (h0 : t.val % 16 = 0) (h1 : ¬t.val % 16 = 15) :
    outsAt0 V c t.val t.isLt = caseA0 V c t h0 h1 := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = caseB0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 V c t.val t.isLt = caseC0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_pos h1).trans rfl)

/-- The region invariant before position `n`: before the first point the class's (every scoped buffer at anything);
    afterwards the same with the two scratch buffers at what the point before left in them. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.1) ∗ owns (c : Thread nD τ) scM0_1 fullShare ((outsAt0 V c n hn).2.2.2.2.2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.2.2.1) ∗ owns (c : Thread nD τ) scM0_1 fullShare ((outsAt0 V c n hn).2.2.2.2.2) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.2.1) ∗ owns (c : Thread nD τ) scM0_1 fullShare ((outsAt0 V c (n - 1) (by omega)).2.2.2.2.2) ∗ rest0 (F := F) c) ∗ (∃ r, prngReg c r)) := by
  cases n with
  | zero => exact absurd rfl hz
  | succ n => rfl

/-- The proof data of this region on core `c`: the arrays as the region finds them; after the body at a point each
    input's buffer at its block and each output's at the recursion's component; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem after0_5 (c : Dev nD) (t : Fin cfg0.N) : (dat0 V c).after 5 t = (outsAt0 V c t.val t.isLt).2.2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the closed forms say which case the point is in; the
    invariant hands the body the two scratch buffers at what the point before left (at anything at the very first point)
    and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t]]
  rw [show (dat0 V c).leavesExact 1 t = owns (c : Thread nD τ) (ms0_1 t) fullShare ((dat0 V c).after 1 t) from by
    unfold Dat.leavesExact; rw [liveAt0_1 t]]
  rw [show (dat0 V c).leavesExact 2 t = owns (c : Thread nD τ) (ms0_2 t) fullShare ((dat0 V c).after 2 t) from by
    unfold Dat.leavesExact; rw [liveAt0_2 t]]
  rw [show (dat0 V c).leavesExact 3 t = owns (c : Thread nD τ) (ms0_3 t) fullShare ((dat0 V c).after 3 t) from by
    unfold Dat.leavesExact; rw [liveAt0_3 t]]
  rw [after0_0, after0_1]
  by_cases h0 : t.val % 16 = 0
  · have h1 : ¬t.val % 16 = 15 := by omega
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [after0_2, after0_3, outsAt0_A V c t h0 h1]
    unfold caseA0; dsimp only
    unfold out0_A_2 out0_A_3 sout0_A_0 sout0_A_1; (try dsimp only)
    by_cases hz : t.val = 0
    ·
      rw [PhiS0_castSucc V c t, PhiS0_zero V c _ _ hz, PhiA0_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t)).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      isplitl [HS1]; · iexact HS1
      iintro ⟨H0, H1, ⟨%e2, H2⟩, ⟨%e3, H3⟩, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _ _)
      isplitl [H4]; · iexists _; iexact H4
      iexists _; iexact H5
    ·
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t)).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexists _; iexact HS0
      isplitl [HS1]; · iexists _; iexact HS1
      iintro ⟨H0, H1, ⟨%e2, H2⟩, ⟨%e3, H3⟩, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _ _)
      isplitl [H4]; · iexists _; iexact H4
      iexists _; iexact H5
  · by_cases h1 : t.val % 16 = 15
    ·
      rw [show (dat0 V c).leavesExact 4 t = owns (c : Thread nD τ) (ms0_4 t) fullShare ((dat0 V c).after 4 t) from by
        unfold Dat.leavesExact; rw [liveAt0_4 t ((hcond0_1 t).mpr h1)]]
      rw [show (dat0 V c).leavesExact 5 t = owns (c : Thread nD τ) (ms0_5 t) fullShare ((dat0 V c).after 5 t) from by
        unfold Dat.leavesExact; rw [liveAt0_5 t ((hcond0_1 t).mpr h1)]]
      rw [after0_2, after0_3, after0_4, after0_5, outsAt0_C V c t h0 h1]
      unfold caseC0; dsimp only
      unfold out0_C_2 out0_C_3 out0_C_4 out0_C_5 sout0_C_0 sout0_C_1; (try dsimp only)
      by_cases hz : t.val = 0
      · exfalso; omega
      ·
        rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) _ _).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        isplitl [HS1]; · iexact HS1
        iintro ⟨H0, H1, ⟨%e2, H2⟩, ⟨%e3, H3⟩, ⟨%e4, H4⟩, ⟨%e5, H5⟩, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _)
    ·
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [after0_2, after0_3, outsAt0_B V c t h0 h1]
      unfold caseB0; dsimp only
      unfold out0_B_2 out0_B_3 sout0_B_0 sout0_B_1; (try dsimp only)
      by_cases hz : t.val = 0
      · exfalso; omega
      ·
        rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) _ _).2.2.2.2 _ _ Set.univ _)
        isplitl [H0]; · iexact H0
        isplitl [H1]; · iexact H1
        isplitl [H2]; · iexists _; iexact H2
        isplitl [H3]; · iexists _; iexact H3
        isplitl [H4]; · iexact H4
        isplitl [H5]; · iexact H5
        isplitl [HS0]; · iexact HS0
        isplitl [HS1]; · iexact HS1
        iintro ⟨H0, H1, ⟨%e2, H2⟩, ⟨%e3, H3⟩, H4, H5, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _ _ _ _)
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _)
        isplitl [H4]; · iexists _; iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: the scratch contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.KernelIdeal.Hand

end
-- ==== Proof.KI.Kit1.lean ====
/-
  The second region (the accumulating kernel over the same 2 x 16 grid): its three control cases and where they
  fall. The body zeroes its two accumulators (a 64 x 512 weighted sum of query rows and a 64 x 1 sum of absolute
  weights, both kept in scratch memory) at a core's first chunk and copies them to the two per-core outputs at its
  last chunk; the outputs are idle elsewhere.
-/
import proofs.«147958_j26001732010458_2_alg».proof.Proof.Gen.KernelIdeal.Launch
import proofs.«147958_j26001732010458_2_alg».proof.Proof.Gen.KernelIdeal.Skeleton
import proofs.«147958_j26001732010458_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is a core's first chunk". -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is a core's last chunk". -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64x1 .f32 := win1_5.stage (cfg1.slots t 5)
abbrev hs1_5 (t : Fin cfg1.N) : (ms1_5 t).IsWhole := hstage1_5 ((cfg1.slots t 5).cast nbuf1_5)
/-- The weighted-sum accumulator's and the weight-sum accumulator's scratch buffers. -/
abbrev scM1_0 : Memref sig .tc .vmem S64x512 .f32 := Memref.whole cc1_scratch0
abbrev scM1_1 : Memref sig .tc .vmem S64x1 .f32 := Memref.whole cc1_scratch1
abbrev VS1_0 : View sig .tc .vmem S64x512 .f32 := scM1_0.view
abbrev VS1_1 : View sig .tc .vmem S64x1 .f32 := scM1_1.view
abbrev VO1_4 : View sig .tc .vmem S1x64x512 .f32 := (Memref.whole cc1_stg4_0 : Memref sig .tc .vmem S1x64x512 .f32).view
abbrev VO1_5 : View sig .tc .vmem S1x64x1 .f32 := (Memref.whole cc1_stg5_0 : Memref sig .tc .vmem S1x64x1 .f32).view

/-- The class invariant spelt out: the first region's thirteen staging and scratch buffers, each whole at some
    contents (they ride through this region untouched), then this region's two accumulators as memrefs owned at some
    contents, beside the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand

end
-- ==== Proof.KI.Run1A.lean ====
/-
  The second region's body at a core's FIRST chunk: both accumulators are zeroed, whatever they held, then this
  chunk's hard-shrunk weights (from the query block, the memory block and the two global statistics) are added —
  their absolute row sums into the 64 x 1 accumulator, their product with the query block into the 64 x 512 one.
-/
import proofs.«147958_j26001732010458_2_alg».proof.Proof.KI.Kit1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) :
    Σ' (LS0 : List (View.Piece (Elt F) S64x512 .f32)), { LS1 : List (View.Piece (Elt F) S64x1 .f32) //
      ∀ (xi4 : Vec F S1x64x512 .f32) (xi5 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kernel_accumulate i arg2 harg2 arg3 harg3 arg4 harg4 arg5 harg5 arg6 harg6 arg7 harg7 arg8 harg8 arg9 harg9) K } := by
  refine ⟨?_, ?_, fun xi4 xi5 E K => ?run⟩
  case run =>
    simp only [cc1__kernel_accumulate_eq_skeleton]; unfold cc1__kernel_accumulate_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.Run1B.lean ====
/-
  The second region's body at a MIDDLE chunk: the accumulators carried in from the chunk before take this chunk's
  contribution; the two per-core outputs are not touched.
-/
import proofs.«147958_j26001732010458_2_alg».proof.Proof.KI.Kit1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) :
    Σ' (LS0 : List (View.Piece (Elt F) S64x512 .f32)), { LS1 : List (View.Piece (Elt F) S64x1 .f32) //
      ∀ (xi4 : Vec F S1x64x512 .f32) (xi5 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kernel_accumulate i arg2 harg2 arg3 harg3 arg4 harg4 arg5 harg5 arg6 harg6 arg7 harg7 arg8 harg8 arg9 harg9) K } := by
  refine ⟨?_, ?_, fun xi4 xi5 E K => ?run⟩
  case run =>
    simp only [cc1__kernel_accumulate_eq_skeleton]; unfold cc1__kernel_accumulate_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.Run1C.lean ====
/-
  The second region's body at a core's LAST chunk: the accumulators carried in from the chunk before take this
  chunk's contribution and are then copied to the two per-core outputs.
-/
import proofs.«147958_j26001732010458_2_alg».proof.Proof.KI.Kit1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) :
    Σ' (L4 : List (View.Piece (Elt F) S1x64x512 .f32)) (L5 : List (View.Piece (Elt F) S1x64x1 .f32)) (LS0 : List (View.Piece (Elt F) S64x512 .f32)), { LS1 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__kernel_accumulate i arg2 harg2 arg3 harg3 arg4 harg4 arg5 harg5 arg6 harg6 arg7 harg7 arg8 harg8 arg9 harg9) K } := by
  refine ⟨?_, ?_, ?_, ?_, fun E K => ?run⟩
  case run =>
    simp only [cc1__kernel_accumulate_eq_skeleton]; unfold cc1__kernel_accumulate_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.Frame1.lean ====
/-
  The second region, point by point. A point's body adds its chunk's contribution to the two accumulators kept in
  scratch memory (zeroed at a core's first chunk) and, at a core's last chunk only, copies them to the two per-core
  outputs. This module names the buffers' contents case by case (the symbolic run's pieces read back), chains them
  over the grid by recursion on the point's position, and proves the pipeline's body obligation from them: the region
  invariant is "the two accumulators hold what the point before left", beside the buffers this region never touches.
-/
import proofs.«147958_j26001732010458_2_alg».proof.Proof.KI.Run1A
import proofs.«147958_j26001732010458_2_alg».proof.Proof.KI.Run1B
import proofs.«147958_j26001732010458_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What case A leaves in scratch buffer 0, which the kernel carries to the next point. -/
def sout1_A_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) : Vec F S64x512 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).1)
theorem scover1_A_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) (y : S64x512.Idx) :
    ∃ pc ∈ (kernelRun1_A c i arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg2 harg2 arg3 harg3 arg4 harg4 arg5 harg5 arg6 harg6 arg7 harg7 arg8 harg8 arg9 harg9 hc0 hc1 x0 x1 x2 x3).1 S64x512.size (by sl_kernel_rfl) y

/-- What case A leaves in scratch buffer 1, which the kernel carries to the next point. -/
def sout1_A_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) : Vec F S64x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.1)
theorem scover1_A_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) (y : S64x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S64x1.size (by sl_kernel_rfl) y

/-- What case B leaves in scratch buffer 0, which the kernel carries to the next point. -/
def sout1_B_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S64x512 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1).1)
theorem scover1_B_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S64x512.Idx) :
    ∃ pc ∈ (kernelRun1_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).1 S64x512.size (by sl_kernel_rfl) y

/-- What case B leaves in scratch buffer 1, which the kernel carries to the next point. -/
def sout1_B_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S64x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1).2.1)
theorem scover1_B_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S64x1.Idx) :
    ∃ pc ∈ (kernelRun1_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).2.1 S64x1.size (by sl_kernel_rfl) y

/-- What case C leaves in output window 4's staging buffer: the stores' pieces read back. -/
def out1_C_4 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S1x64x512 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1).1)
/-- Those pieces tile the block, so they cover it. -/
theorem cover1_C_4 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S1x64x512.Idx) :
    ∃ pc ∈ (kernelRun1_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).1 S1x64x512.size (by sl_kernel_rfl) y

/-- What case C leaves in output window 5's staging buffer: the stores' pieces read back. -/
def out1_C_5 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S1x64x1 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 xs0 xs1).2.1)
/-- Those pieces tile the block, so they cover it. -/
theorem cover1_C_5 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S1x64x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.1 S1x64x1.size (by sl_kernel_rfl) y

/-- What case C leaves in scratch buffer 0, which the kernel carries to the next point. -/
def sout1_C_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S64x512 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1).2.2.1)
theorem scover1_C_0 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S64x512.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.1 S64x512.size (by sl_kernel_rfl) y

/-- What case C leaves in scratch buffer 1, which the kernel carries to the next point. -/
def sout1_C_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) : Vec F S64x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1).2.2.2.1)
theorem scover1_C_1 (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) (y : S64x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.2.1 S64x1.size (by sl_kernel_rfl) y

/-- What the output staging buffers and the two scratch buffers hold after a point (outputs in window order, then the scratch). -/
abbrev Outs1 (F : FTy → Type) [FloatOps F] : Type := Vec F S1x64x512 .f32 × Vec F S1x64x1 .f32 × Vec F S64x512 .f32 × Vec F S64x1 .f32

/-- Case A at point `t`: the buffers' contents after the body there. -/
def caseA1 (c : Dev nD) (t : Fin cfg1.N) (h0 : t.val % 16 = 0) (h1 : ¬t.val % 16 = 15) : Outs1 F :=
  (VO1_4.read (Elt F) VO1_4.junk,
   VO1_5.read (Elt F) VO1_5.junk,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t))

/-- Case B at point `t`: the buffers' contents after the body there, over the scratch contents the point before left. -/
def caseB1 (c : Dev nD) (t : Fin cfg1.N) (h0 : ¬t.val % 16 = 0) (h1 : ¬t.val % 16 = 15) (xs0 : Vec F S64x512 .f32) (xs1 : Vec F S64x1 .f32) : Outs1 F :=
  (VO1_4.read (Elt F) VO1_4.junk,
   VO1_5.read (Elt F) VO1_5.junk,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1)

/-- Case C at point `t`: the buffers' contents after the body there, over the scratch contents the point before left. -/
def caseC1 (c : Dev nD) (t : Fin cfg1.N) (h0 : ¬t.val % 16 = 0) (h1 : t.val % 16 = 15) (xs0 : Vec F S64x512 .f32) (xs1 : Vec F S64x1 .f32) : Outs1 F :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1)

/-- What the buffers hold after the body at position `n`: the case the closed forms select there, a scratch buffer it
    reads at what this leaves at `n - 1`. -/
def outsAt1 (c : Dev nD) : (n : ℕ) → n < cfg1.N → Outs1 F
  | 0, hn => caseA1 V c ⟨0, hn⟩ (Nat.zero_mod _) (by show ¬(0 % 16 = 15); decide)
  | n + 1, hn =>
    if h0 : (n + 1) % 16 = 0 then caseA1 V c ⟨n + 1, hn⟩ h0 (by show ¬((n + 1) % 16 = 15); omega)
    else if h1 : (n + 1) % 16 = 15 then
      caseC1 V c ⟨n + 1, hn⟩ h0 h1 (outsAt1 c n (Nat.lt_of_succ_lt hn)).2.2.1 (outsAt1 c n (Nat.lt_of_succ_lt hn)).2.2.2
    else
      caseB1 V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 16 = 0) (h1 : ¬t.val % 16 = 15) :
    outsAt1 V c t.val t.isLt = caseA1 V c t h0 h1 := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = caseB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = caseC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region invariant before position `n`: before the first point the class's (every scoped buffer at anything);
    afterwards the same with the two scratch buffers at what the point before left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2.1) ∗ owns (c : Thread nD τ) scM1_1 fullShare ((outsAt1 V c n hn).2.2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

/-- The proof data of this region on core `c`: the arrays as the region finds them; after the body at a point each
    input's buffer at its block and each output's at the recursion's component; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the closed forms say which case the point is in; the
    invariant hands the body the two scratch buffers at what the point before left (at anything at the very first point)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t]]
  rw [show (dat1 V c).leavesExact 1 t = owns (c : Thread nD τ) (ms1_1 t) fullShare ((dat1 V c).after 1 t) from by
    unfold Dat.leavesExact; rw [liveAt1_1 t]]
  rw [show (dat1 V c).leavesExact 2 t = owns (c : Thread nD τ) (ms1_2 t) fullShare ((dat1 V c).after 2 t) from by
    unfold Dat.leavesExact; rw [liveAt1_2 t]]
  rw [show (dat1 V c).leavesExact 3 t = owns (c : Thread nD τ) (ms1_3 t) fullShare ((dat1 V c).after 3 t) from by
    unfold Dat.leavesExact; rw [liveAt1_3 t]]
  rw [after1_0, after1_1, after1_2, after1_3]
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [Dat.leavesExact_idle (dat1 V c) 5 t (idleAt1_5 t (fun h => h1 ((hcond1_1 t).mp h))) (noFlush1_5 t (fun h => h1 ((hcond1_1 t).mp h)))]
    rw [outsAt1_A V c t h0 h1]
    unfold caseA1; dsimp only
    unfold sout1_A_0 sout1_A_1; (try dsimp only)
    by_cases hz : t.val = 0
    ·
      rw [PhiS1_castSucc V c t, PhiS1_zero V c _ _ hz, PhiA1_eq]
      iintro ⟨⟨⟨Hr0, Hr1, Hr2, Hr3, Hr4, Hr5, Hr6, Hr7, Hr8, Hr9, Hr10, Hr11, Hr12, HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hr0 Hr1 Hr2 Hr3 Hr4 Hr5 Hr6 Hr7 Hr8 Hr9 Hr10 Hr11 Hr12 HS0 HS1 Hg]
      · isplitl [Hr0 Hr1 Hr2 Hr3 Hr4 Hr5 Hr6 Hr7 Hr8 Hr9 Hr10 Hr11 Hr12 HS0 HS1]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          isplitl [Hr12]; · iexact Hr12
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    ·
      rw [PhiS1_castSucc V c t, PhiS1_pos V c _ _ hz]
      iintro ⟨⟨⟨Hr0, Hr1, Hr2, Hr3, Hr4, Hr5, Hr6, Hr7, Hr8, Hr9, Hr10, Hr11, Hr12, HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [Hr0 Hr1 Hr2 Hr3 Hr4 Hr5 Hr6 Hr7 Hr8 Hr9 Hr10 Hr11 Hr12 HS0 HS1 Hg]
      · isplitl [Hr0 Hr1 Hr2 Hr3 Hr4 Hr5 Hr6 Hr7 Hr8 Hr9 Hr10 Hr11 Hr12 HS0 HS1]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          isplitl [Hr12]; · iexact Hr12
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · by_cases h1 : t.val % 16 = 15
    ·
      rw [show (dat1 V c).leavesExact 4 t = owns (c : Thread nD τ) (ms1_4 t) fullShare ((dat1 V c).after 4 t) from by
        unfold Dat.leavesExact; rw [liveAt1_4 t ((hcond1_1 t).mpr h1)]]
      rw [show (dat1 V c).leavesExact 5 t = owns (c : Thread nD τ) (ms1_5 t) fullShare ((dat1 V c).after 5 t) from by
        unfold Dat.leavesExact; rw [liveAt1_5 t ((hcond1_1 t).mpr h1)]]
      rw [after1_4, after1_5, outsAt1_C V c t h0 h1]
      unfold caseC1; dsimp only
      unfold out1_C_4 out1_C_5 sout1_C_0 sout1_C_1; (try dsimp only)
      by_cases hz : t.val = 0
      · exfalso; omega
      ·
        rw [PhiS1_castSucc V c t, PhiS1_pos V c _ _ hz]
        iintro ⟨⟨⟨Hr0, Hr1, Hr2, Hr3, Hr4, Hr5, Hr6, Hr7, Hr8, Hr9, Hr10, Hr11, Hr12, HS0, HS1⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [Hr0 Hr1 Hr2 Hr3 Hr4 Hr5 Hr6 Hr7 Hr8 Hr9 Hr10 Hr11 Hr12 HS0 HS1 Hg]
        · isplitl [Hr0 Hr1 Hr2 Hr3 Hr4 Hr5 Hr6 Hr7 Hr8 Hr9 Hr10 Hr11 Hr12 HS0 HS1]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _ _ _ _)
    ·
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold caseB1; dsimp only
      unfold sout1_B_0 sout1_B_1; (try dsimp only)
      by_cases hz : t.val = 0
      · exfalso; omega
      ·
        rw [PhiS1_castSucc V c t, PhiS1_pos V c _ _ hz]
        iintro ⟨⟨⟨Hr0, Hr1, Hr2, Hr3, Hr4, Hr5, Hr6, Hr7, Hr8, Hr9, Hr10, Hr11, Hr12, HS0, HS1⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [Hr0 Hr1 Hr2 Hr3 Hr4 Hr5 Hr6 Hr7 Hr8 Hr9 Hr10 Hr11 Hr12 HS0 HS1 Hg]
        · isplitl [Hr0 Hr1 Hr2 Hr3 Hr4 Hr5 Hr6 Hr7 Hr8 Hr9 Hr10 Hr11 Hr12 HS0 HS1]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, Hr7, Hr8, Hr9, Hr10, Hr11, Hr12, HS0, HS1⟩, Hg⟩
  isplitl [Hr0 Hr1 Hr2 Hr3 Hr4 Hr5 Hr6 Hr7 Hr8 Hr9 Hr10 Hr11 Hr12 HS0 HS1]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [HS0]; · iexists _; iexact HS0
    iexists _; iexact HS1
  iexact Hg

end Cert.KernelIdeal.Hand

end
-- ==== Proof.KI.Asm.lean ====
/-
  The whole program as five segments — a host stretch (the reshape of the query to 65536 rows), the first region, a
  host stretch (the two cores' statistics combined), the second region, a host stretch (the cores' partial sums
  combined, normalised and gated; the two read-path results reshaped) — with the contents of every unscoped buffer
  named at each boundary: `W0` the launch memory, `W1` after the first stretch, `W2` with the first region's four
  output arrays at what its pipeline leaves, `W3` after the second stretch, `W4` with the second region's two
  output arrays at what its pipeline leaves, `W5` after the last stretch. The run: every weakly fair execution
  terminates and ends with every unscoped buffer at `W5`.
-/
import proofs.«147958_j26001732010458_2_alg».proof.Proof.KI.Frame0
import proofs.«147958_j26001732010458_2_alg».proof.Proof.KI.Frame1
import proofs.«147958_j26001732010458_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays
    are split out of the unscoped buffers and put back at the exit contents; the generator register goes into the
    region invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out0 (V1 m) c (Fin.last _) (by rw [Fin.val_last]; have : cfg0.N = 32 := N_0; omega)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers and put back at the exit contents; the generator register goes into the
    region invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi_out1 (V3 m) c (Fin.last _) (by rw [Fin.val_last]; have : cfg1.N = 32 := N_1; omega)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) :=
  main_segs adm (pdats m) () 𝒱₀ L lv _ _ _ (reg0 m) (reg1 m) rfl rfl rfl c

set_option backward.isDefEq.respectTransparency.types false in
/-- THE RUN: from any memory with zero counters every weakly fair execution of @main terminates, nothing faulting, and
    every final state has every unscoped buffer at `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KI.Args.lean ====
/-
  The arguments end as launched. No host stretch writes an argument array, and a region changes only its output
  windows' arrays: the query and the four gate parameters are no window's array at all, and the memory bank is an
  INPUT window's array of both regions, which the pipeline leaves as it found it. So the final valuation at each
  argument walks back to the launch memory, and the run gives the frame claim.
-/
import proofs.«147958_j26001732010458_2_alg».proof.Proof.KI.Asm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_of (c : Dev nD) (r : Ref sig .tc) (h : r ∉ hostOps2_W) : W5 m c (Proc.devRef .tc r) = W4 m c (Proc.devRef .tc r) :=
  StableHlo.after_of_writes_sub hostOps2 _ hostOps2_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W1_of (c : Dev nD) (r : Ref sig .tc) (h : r ∉ hostOps0_W) : W1 m c (Proc.devRef .tc r) = W0 m c (Proc.devRef .tc r) :=
  StableHlo.after_of_writes_sub hostOps0 _ hostOps0_writes h

/-- A buffer no host stretch writes and no window of either region stages ends at its launch contents. -/
theorem W5_plain (c : Dev nD) (r : Ref sig .tc) (h5 : r ∉ hostOps2_W) (h4 : ∀ w, Pipeline.arrRef spec1 w ≠ r) (h3 : r ∉ hostOps1_W)
    (h2 : ∀ w, Pipeline.arrRef spec0 w ≠ r) (h1 : r ∉ hostOps0_W) : W5 m c (Proc.devRef .tc r) = m ((c : Thread nD τ).loc r) :=
  (W5_of m c r h5).trans <| (W4_of_ne m c r h4).trans <| (W3_of m c r h3).trans <| (W2_of_ne m c r h2).trans <| (W1_of m c r h1).trans rfl

/-- The memory bank: an input window's array of both regions. -/
theorem W5_main_arg1 (c : Dev nD) : W5 m c (Proc.devRef .tc main_arg1) = m ((c : Thread nD τ).loc main_arg1) :=
  (W5_of m c main_arg1 (by decide)).trans <|
    ((W4_arr m c 1).trans (((dat1 (V3 m) c).arrAt_in 1 rfl _).trans (A_eq1 (V3 m) c 1))).trans <|
    (W3_of m c main_arg1 (by decide)).trans <|
    ((W2_arr m c 1).trans (((dat0 (V1 m) c).arrAt_in 1 rfl _).trans (A_eq0 (V1 m) c 1))).trans <|
    (W1_of m c main_arg1 (by decide)).trans rfl

/-- THE FRAME, at any float instance: every weakly fair execution terminates, nothing faulting, and the six argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_plain m c main_arg0 (by decide) (by decide) (by decide) (by decide) (by decide)),
     (h c _ (mem_uc main_arg1 (by decide))).trans (W5_main_arg1 m c),
     (h c _ (mem_uc main_arg2 (by decide))).trans (W5_plain m c main_arg2 (by decide) (by decide) (by decide) (by decide) (by decide)),
     (h c _ (mem_uc main_arg3 (by decide))).trans (W5_plain m c main_arg3 (by decide) (by decide) (by decide) (by decide) (by decide)),
     (h c _ (mem_uc main_arg4 (by decide))).trans (W5_plain m c main_arg4 (by decide) (by decide) (by decide) (by decide) (by decide)),
     (h c _ (mem_uc main_arg5 (by decide))).trans (W5_plain m c main_arg5 (by decide) (by decide) (by decide) (by decide) (by decide))⟩)
    (run_main m ρ)

end Cert.KernelIdeal.Hand

end
-- ==== Proof.KI.Pieces0.lean ====
/-
  What each control case of the first region leaves in each buffer, as a plain function of what the body loaded:
  the symbolic run's pieces for a buffer are one store through the whole buffer (at a core's first chunk two, the
  reset store first and the update last, which wins), so reading them back gives the stored payload; a value the body
  loads from a scratch buffer after storing into it is the stored payload again.
-/
import proofs.«147958_j26001732010458_2_alg».proof.Proof.KI.Frame0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := funext fun a => by fin_cases a <;> rfl
theorem hz3' : (![0, 0, 0] : Fin 3 → Nat) = fun _ => 0 := funext fun a => by fin_cases a <;> rfl

theorem out0_A_3_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) :
    out0_A_3 c i arg2 harg2 arg3 harg3 arg4 harg4 arg5 harg5 arg6 harg6 arg7 harg7 arg8 harg8 arg9 harg9 hc0 hc1 x0 x1 = k0_pay1 (k0_pay13 x0 x1) (k0_pay14 x0 x1) := by
  unfold out0_A_3
  rw [View.read_writes_eq_canon _ _ _ (cover0_A_3 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero hz2']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

theorem sout0_A_0_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) :
    sout0_A_0 c i arg2 harg2 arg3 harg3 arg4 harg4 arg5 harg5 arg6 harg6 arg7 harg7 arg8 harg8 arg9 harg9 hc0 hc1 x0 x1 = k0_pay10 x0 x1 (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero hz2']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

theorem sout0_A_1_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) :
    sout0_A_1 c i arg2 harg2 arg3 harg3 arg4 harg4 arg5 harg5 arg6 harg6 arg7 harg7 arg8 harg8 arg9 harg9 hc0 hc1 x0 x1 = k0_pay9 x0 x1 (k0_pay6 (F := F)) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero hz2']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

theorem out0_B_3_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) :
    out0_B_3 c i arg2 harg2 arg3 harg3 arg4 harg4 arg5 harg5 arg6 harg6 arg7 harg7 arg8 harg8 arg9 harg9 hc0 hc1 x0 x1 xs0 xs1 = k0_pay1 (k0_pay13 x0 x1) (k0_pay14 x0 x1) := by
  unfold out0_B_3
  rw [View.read_writes_eq_canon _ _ _ (cover0_B_3 c i arg2 harg2 arg3 harg3 arg4 harg4 arg5 harg5 arg6 harg6 arg7 harg7 arg8 harg8 arg9 harg9 hc0 hc1 x0 x1 xs0 xs1)]
  unfold kernelRun0_B
  dsimp only
  sl_unfold_words
  rw [View.canon_cons_unit_zero hz2']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

theorem sout0_B_0_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) :
    sout0_B_0 c i arg2 harg2 arg3 harg3 arg4 harg4 arg5 harg5 arg6 harg6 arg7 harg7 arg8 harg8 arg9 harg9 hc0 hc1 x0 x1 xs0 xs1 = k0_pay10 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1)]
  unfold kernelRun0_B
  dsimp only
  sl_unfold_words
  rw [View.canon_cons_unit_zero hz2']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

theorem sout0_B_1_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) :
    sout0_B_1 c i arg2 harg2 arg3 harg3 arg4 harg4 arg5 harg5 arg6 harg6 arg7 harg7 arg8 harg8 arg9 harg9 hc0 hc1 x0 x1 xs0 xs1 = k0_pay9 x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1)]
  unfold kernelRun0_B
  dsimp only
  sl_unfold_words
  rw [View.canon_cons_unit_zero hz2']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

theorem out0_C_3_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) :
    out0_C_3 c i arg2 harg2 arg3 harg3 arg4 harg4 arg5 harg5 arg6 harg6 arg7 harg7 arg8 harg8 arg9 harg9 hc0 hc1 x0 x1 xs0 xs1 = k0_pay1 (k0_pay13 x0 x1) (k0_pay14 x0 x1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1)]
  unfold kernelRun0_C
  dsimp only
  sl_unfold_words
  rw [View.canon_cons_unit_zero hz2']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

theorem sout0_C_0_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) :
    sout0_C_0 c i arg2 harg2 arg3 harg3 arg4 harg4 arg5 harg5 arg6 harg6 arg7 harg7 arg8 harg8 arg9 harg9 hc0 hc1 x0 x1 xs0 xs1 = k0_pay10 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1)]
  unfold kernelRun0_C
  dsimp only
  sl_unfold_words
  rw [View.canon_cons_unit_zero hz2']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

theorem sout0_C_1_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) :
    sout0_C_1 c i arg2 harg2 arg3 harg3 arg4 harg4 arg5 harg5 arg6 harg6 arg7 harg7 arg8 harg8 arg9 harg9 hc0 hc1 x0 x1 xs0 xs1 = k0_pay9 x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1)]
  unfold kernelRun0_C
  dsimp only
  sl_unfold_words
  rw [View.canon_cons_unit_zero hz2']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

theorem out0_C_4_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) :
    out0_C_4 c i arg2 harg2 arg3 harg3 arg4 harg4 arg5 harg5 arg6 harg6 arg7 harg7 arg8 harg8 arg9 harg9 hc0 hc1 x0 x1 xs0 xs1 = k0_pay11 (k0_pay10 x0 x1 xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1)]
  unfold kernelRun0_C
  dsimp only
  sl_unfold_words
  rw [View.canon_cons_unit_zero hz3']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

theorem out0_C_5_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) :
    out0_C_5 c i arg2 harg2 arg3 harg3 arg4 harg4 arg5 harg5 arg6 harg6 arg7 harg7 arg8 harg8 arg9 harg9 hc0 hc1 x0 x1 xs0 xs1 = k0_pay12 (k0_pay9 x0 x1 xs0 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 xs0 xs1)]
  unfold kernelRun0_C
  dsimp only
  sl_unfold_words
  rw [View.canon_cons_unit_zero hz3']
  simp only [View.readAt_eq_ld, harg2.read_unread, harg3.read_unread, harg8.read_unread, harg9.read_unread, View.ld_unit_zero (S := S2048x512) hz2', View.ld_unit_zero (S := S64x512) hz2', View.ld_unit_zero (S := S64x1) hz2', View.ld_unit_zero (S := S1x64x1) hz3', View.readCov_unit_zero (S := S64x1) _ hz2', View.readCov_unit_zero (S := S64x512) _ hz2']
  all_goals (try rfl)

end Cert.KernelIdeal.Hand

end
-- ==== Proof.KI.Pieces0b.lean ====
/-
  The read-path output block. Every case of the first region stores it in two column halves: the query block in
  columns 0 to 511 and the attention-weighted memory rows in columns 512 to 1023. Read back, the two stores are the
  concatenation of the two halves along the column axis.
-/
import proofs.«147958_j26001732010458_2_alg».proof.Proof.KI.Pieces0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcat2 : Shape.Concatenates [S2048x512, S2048x512] S2048x1024 1 := by decide

/-- The read-path block: the query block beside the weighted memory rows. -/
def blk2 (x0 : Vec F S2048x512 .f32) (w : Vec F S2048x512 .f32) : Vec F S2048x1024 .f32 :=
  concatenate S2048x1024 1 [⟨S2048x512, x0⟩, ⟨S2048x512, w⟩] hcat2

theorem pay3_id (x0 : Vec F S2048x512 .f32) : k0_pay3 x0 = x0 := by
  unfold k0_pay3; exact shapeCast_self _ _

/-- Two full-height stores, one per column half, read back as the concatenation of the halves. -/
theorem canon_two_halves [∀ e, Nonempty (Elt F e)] (x0 : Vec F S2048x512 .f32) (w : Vec F S2048x512 .f32) :
    View.canon
      [(⟨Rect.unit (s := S2048x1024) ![0, 512] S2048x512.size inb_S2048x1024_S2048x512_0_512, w⟩ : View.Piece (Elt F) S2048x1024 .f32),
        ⟨Rect.unit (s := S2048x1024) ![0, 0] S2048x512.size inb_S2048x1024_S2048x512_0_0, k0_pay3 x0⟩] = blk2 x0 w := by
  rw [pay3_id]
  funext y
  refine View.canon_apply_of_pieces (blk2 x0 w) _ ?_ y (View.cover_of_tiledL (s := S2048x1024) _ S2048x512.size (by sl_kernel_rfl) y)
  intro p hp x
  simp only [List.mem_cons, List.mem_nil_iff, or_false] at hp
  rcases hp with rfl | rfl
  · refine (concatenate_pair_apply_right 1 x0 w hcat2 _ rfl rfl x (fun b hb => ?_) ?_).symm
    · match b with
      | ⟨0, _⟩ => show (x 0).val = 0 + 1 * (x 0).val; omega
      | ⟨1, _⟩ => exact absurd rfl hb
    · show (x 1).val + 512 = 512 + 1 * (x 1).val; omega
  · refine (concatenate_pair_apply_left 1 x0 w hcat2 _ rfl x (fun b => ?_)).symm
    match b with
    | ⟨0, _⟩ => show (x 0).val = 0 + 1 * (x 0).val; omega
    | ⟨1, _⟩ => show (x 1).val = 0 + 1 * (x 1).val; omega

theorem out0_A_2_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond0_0 i) (hc1 : ¬cond0_1 i)
    (x0 : Vec F S2048x512 .f32) (x1 : Vec F S64x512 .f32) :
    out0_A_2 c i arg2 harg2 arg3 harg3 arg4 harg4 arg5 harg5 arg6 harg6 arg7 harg7 arg8 harg8 arg9 harg9 hc0 hc1 x0 x1 = blk2 x0 (k0_pay2 (k0_pay4 x1) (k0_pay13 x0 x1) (k0_pay14 x0 x1)) := by
  unfold out0_A_2
  rw [View.read_writes_eq_canon _ _ _ (cover0_A_2 c i arg2 harg2 arg3 harg3 arg4 harg4 arg5 harg5 arg6 harg6 arg7 harg7 arg8 harg8 arg9 harg9 hc0 hc1 x0 x1)]
  unfold kernelRun0_A
  dsimp only
  sl_unfold_words
  simp only [View.readAt_eq_ld, harg2.read_unread, harg3.read_unread, View.ld_unit_zero (S := S2048x512) hz2', View.ld_unit_zero (S := S64x512) hz2']
  exact canon_two_halves x0 _

theorem out0_B_2_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : ¬cond0_1 i)
    (x0 : Vec F S2048x512 .f32) (x1 : Vec F S64x512 .f32) (xs0 : Vec F S64x1 .f32) (xs1 : Vec F S64x1 .f32) :
    out0_B_2 c i arg2 harg2 arg3 harg3 arg4 harg4 arg5 harg5 arg6 harg6 arg7 harg7 arg8 harg8 arg9 harg9 hc0 hc1 x0 x1 xs0 xs1 = blk2 x0 (k0_pay2 (k0_pay4 x1) (k0_pay13 x0 x1) (k0_pay14 x0 x1)) := by
  unfold out0_B_2
  rw [View.read_writes_eq_canon _ _ _ (cover0_B_2 c i arg2 harg2 arg3 harg3 arg4 harg4 arg5 harg5 arg6 harg6 arg7 harg7 arg8 harg8 arg9 harg9 hc0 hc1 x0 x1 xs0 xs1)]
  unfold kernelRun0_B
  dsimp only
  sl_unfold_words
  simp only [View.readAt_eq_ld, harg2.read_unread, harg3.read_unread, View.ld_unit_zero (S := S2048x512) hz2', View.ld_unit_zero (S := S64x512) hz2']
  exact canon_two_halves x0 _

theorem out0_C_2_eq (c : Dev nD) (i : grid0.Coords) (arg2 : Memref sig .tc .vmem S2048x512 .f32) (harg2 : arg2.IsWhole) (arg3 : Memref sig .tc .vmem S64x512 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond0_0 i) (hc1 : cond0_1 i)
    (x0 : Vec F S2048x512 .f32) (x1 : Vec F S64x512 .f32) (xs0 : Vec F S64x1 .f32) (xs1 : Vec F S64x1 .f32) :
    out0_C_2 c i arg2 harg2 arg3 harg3 arg4 harg4 arg5 harg5 arg6 harg6 arg7 harg7 arg8 harg8 arg9 harg9 hc0 hc1 x0 x1 xs0 xs1 = blk2 x0 (k0_pay2 (k0_pay4 x1) (k0_pay13 x0 x1) (k0_pay14 x0 x1)) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1)]
  unfold kernelRun0_C
  dsimp only
  sl_unfold_words
  simp only [View.readAt_eq_ld, harg2.read_unread, harg3.read_unread, View.ld_unit_zero (S := S2048x512) hz2', View.ld_unit_zero (S := S64x512) hz2']
  exact canon_two_halves x0 _

end Cert.KernelIdeal.Hand

end
-- ==== Proof.KI.At0.lean ====
/-
  The first region's buffers after each point, as payloads of the point's own blocks: the two row-block outputs are
  the same function of the query block and the memory block at every point; the two scratch columns satisfy a
  recurrence along a core's chunks, restarted at each core's first chunk; the two per-core outputs are, at a core's
  last chunk, copies of the scratch columns.
-/
import proofs.«147958_j26001732010458_2_alg».proof.Proof.KI.Pieces0b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace At0

variable (V : (c : Dev nD) → (b : Ref sig .tc) → Buf (Elt F) ((c : Thread nD τ).loc b))

/-- The attention-weights block after any point. -/
theorem o3_at (c : Dev nD) (t : Fin cfg0.N) :
    (outsAt0 V c t.val t.isLt).2.1 = k0_pay1 (k0_pay13 (iblk0 V c 0 t) (iblk0 V c 1 t)) (k0_pay14 (iblk0 V c 0 t) (iblk0 V c 1 t)) := by
  by_cases h0 : t.val % 16 = 0
  · have h1 : ¬t.val % 16 = 15 := by omega
    rw [outsAt0_A V c t h0 h1]; unfold caseA0; dsimp only
    exact out0_A_3_eq (F := F) c _ _ _ _ _ _ _ _ _ _ _ _ _ _ _ _ _ _ _ _ _
  · by_cases h1 : t.val % 16 = 15
    · rw [outsAt0_C V c t h0 h1]; unfold caseC0; dsimp only
      exact out0_C_3_eq (F := F) c _ _ _ _ _ _ _ _ _ _ _ _ _ _ _ _ _ _ _ _ _ _ _
    · rw [outsAt0_B V c t h0 h1]; unfold caseB0; dsimp only
      exact out0_B_3_eq (F := F) c _ _ _ _ _ _ _ _ _ _ _ _ _ _ _ _ _ _ _ _ _ _ _

/-- The read-path block after any point. -/
theorem o2_at (c : Dev nD) (t : Fin cfg0.N) :
    (outsAt0 V c t.val t.isLt).1 = blk2 (iblk0 V c 0 t) (k0_pay2 (k0_pay4 (iblk0 V c 1 t)) (k0_pay13 (iblk0 V c 0 t) (iblk0 V c 1 t)) (k0_pay14 (iblk0 V c 0 t) (iblk0 V c 1 t))) := by
  by_cases h0 : t.val % 16 = 0
  · have h1 : ¬t.val % 16 = 15 := by omega
    rw [outsAt0_A V c t h0 h1]; unfold caseA0; dsimp only
    exact out0_A_2_eq (F := F) c _ _ _ _ _ _ _ _ _ _ _ _ _ _ _ _ _ _ _ _ _
  · by_cases h1 : t.val % 16 = 15
    · rw [outsAt0_C V c t h0 h1]; unfold caseC0; dsimp only
      exact out0_C_2_eq (F := F) c _ _ _ _ _ _ _ _ _ _ _ _ _ _ _ _ _ _ _ _ _ _ _
    · rw [outsAt0_B V c t h0 h1]; unfold caseB0; dsimp only
      exact out0_B_2_eq (F := F) c _ _ _ _ _ _ _ _ _ _ _ _ _ _ _ _ _ _ _ _ _ _ _

/-- The first scratch buffer after a core's first chunk. -/
theorem s0_first (c : Dev nD) (t : Fin cfg0.N) (h0 : t.val % 16 = 0) :
    (outsAt0 V c t.val t.isLt).2.2.2.2.1 = k0_pay10 (iblk0 V c 0 t) (iblk0 V c 1 t) (k0_pay6 (F := F)) := by
  have h1 : ¬t.val % 16 = 15 := by omega
  rw [outsAt0_A V c t h0 h1]; unfold caseA0; dsimp only
  exact sout0_A_0_eq (F := F) c _ _ _ _ _ _ _ _ _ _ _ _ _ _ _ _ _ _ _ _ _
theorem s1_first (c : Dev nD) (t : Fin cfg0.N) (h0 : t.val % 16 = 0) :
    (outsAt0 V c t.val t.isLt).2.2.2.2.2 = k0_pay9 (iblk0 V c 0 t) (iblk0 V c 1 t) (k0_pay6 (F := F)) (k0_pay7 (F := F)) := by
  have h1 : ¬t.val % 16 = 15 := by omega
  rw [outsAt0_A V c t h0 h1]; unfold caseA0; dsimp only
  exact sout0_A_1_eq (F := F) c _ _ _ _ _ _ _ _ _ _ _ _ _ _ _ _ _ _ _ _ _
/-- The first scratch buffer after any later chunk, over what the chunk before left. -/
theorem s0_next (c : Dev nD) (t : Fin cfg0.N) (h0 : ¬t.val % 16 = 0) :
    (outsAt0 V c t.val t.isLt).2.2.2.2.1 = k0_pay10 (iblk0 V c 0 t) (iblk0 V c 1 t) (outsAt0 V c (t.val - 1) (Nat.lt_of_le_of_lt (Nat.sub_le _ _) t.isLt)).2.2.2.2.1 := by
  by_cases h1 : t.val % 16 = 15
  · rw [outsAt0_C V c t h0 h1]; unfold caseC0; dsimp only
    exact sout0_C_0_eq (F := F) c _ _ _ _ _ _ _ _ _ _ _ _ _ _ _ _ _ _ _ _ _ _ _
  · rw [outsAt0_B V c t h0 h1]; unfold caseB0; dsimp only
    exact sout0_B_0_eq (F := F) c _ _ _ _ _ _ _ _ _ _ _ _ _ _ _ _ _ _ _ _ _ _ _
theorem s1_next (c : Dev nD) (t : Fin cfg0.N) (h0 : ¬t.val % 16 = 0) :
    (outsAt0 V c t.val t.isLt).2.2.2.2.2 = k0_pay9 (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  by_cases h1 : t.val % 16 = 15
  · rw [outsAt0_C V c t h0 h1]; unfold caseC0; dsimp only
    exact sout0_C_1_eq (F := F) c _ _ _ _ _ _ _ _ _ _ _ _ _ _ _ _ _ _ _ _ _ _ _
  · rw [outsAt0_B V c t h0 h1]; unfold caseB0; dsimp only
    exact sout0_B_1_eq (F := F) c _ _ _ _ _ _ _ _ _ _ _ _ _ _ _ _ _ _ _ _ _ _ _
/-- At a core's last chunk the two per-core outputs are copies of the scratch buffers as the chunk leaves them. -/
theorem o4_last (c : Dev nD) (t : Fin cfg0.N) (h1 : t.val % 16 = 15) :
    (outsAt0 V c t.val t.isLt).2.2.1 = k0_pay11 ((outsAt0 V c t.val t.isLt).2.2.2.2.1) := by
  have h0 : ¬t.val % 16 = 0 := by omega
  rw [outsAt0_C V c t h0 h1]; unfold caseC0
  dsimp only
  rw [out0_C_4_eq, sout0_C_0_eq]
theorem o5_last (c : Dev nD) (t : Fin cfg0.N) (h1 : t.val % 16 = 15) :
    (outsAt0 V c t.val t.isLt).2.2.2.1 = k0_pay12 ((outsAt0 V c t.val t.isLt).2.2.2.2.2) := by
  have h0 : ¬t.val % 16 = 0 := by omega
  rw [outsAt0_C V c t h0 h1]; unfold caseC0
  dsimp only
  rw [out0_C_5_eq, sout0_C_1_eq]

end At0

end Cert.KernelIdeal.Hand

end
-- ==== Proof.KI.PayMM.lean ====
/-
  The kernels' four matrix products, read at an index of the result at the exact (extended-real) instance: each is
  the plain sum, over the one contracted axis, of the left operand's entry times the right operand's entry — the
  score products contract the feature axis of both operands (a product with a transpose, never materialised), the
  weighted sums contract the left operand's second axis against the right operand's first.
-/
import proofs.«147958_j26001732010458_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ### `dot_S64x512_S2048x512_S64x2048_1_1_0_0_n_n` -/
theorem mm_memqT_lhs_n (i : S64x2048.Idx) (q : dot_S64x512_S2048x512_S64x2048_1_1_0_0_n_n.contr.Idx) : (dot_S64x512_S2048x512_S64x2048_1_1_0_0_n_n.lhsIdx i q 0).val = (i 0).val := by
  unfold DotDims.lhsIdx
  rw [dif_neg (show ¬(0 : Fin S64x512.rank) ∈ dot_S64x512_S2048x512_S64x2048_1_1_0_0_n_n.lhsBatch by decide), dif_pos (show (0 : Fin S64x512.rank) ∈ dot_S64x512_S2048x512_S64x2048_1_1_0_0_n_n.lhsNonContracting by decide)]
  rfl
theorem mm_memqT_rhs_n (i : S64x2048.Idx) (q : dot_S64x512_S2048x512_S64x2048_1_1_0_0_n_n.contr.Idx) : (dot_S64x512_S2048x512_S64x2048_1_1_0_0_n_n.rhsIdx i q 0).val = (i 1).val := by
  unfold DotDims.rhsIdx
  rw [dif_neg (show ¬(0 : Fin S2048x512.rank) ∈ dot_S64x512_S2048x512_S64x2048_1_1_0_0_n_n.rhsBatch by decide), dif_pos (show (0 : Fin S2048x512.rank) ∈ dot_S64x512_S2048x512_S64x2048_1_1_0_0_n_n.rhsNonContracting by decide)]
  rfl
/-- The product read at `(a, b)`: the sum over the contracted axis of the left operand's entry times the right's. -/
theorem mm_memqT {φ₁ φ₂ : FTy} (prec : Option ContractPrecision) (l : FVec Ideal S64x512 φ₁) (r : FVec Ideal S2048x512 φ₂) (a : Fin 64) (b : Fin 2048) :
    FloatOps.matmul dot_S64x512_S2048x512_S64x2048_1_1_0_0_n_n prec l r (constant S64x2048 .f32 0x00000000#32) (ix2 a b) = ∑ k : Fin 512, l (ix2 a k) * r (ix2 b k) := by
  rw [Ideal.matmul_constant_zero_apply, ← Equiv.sum_comp (contrEquiv1 dot_S64x512_S2048x512_S64x2048_1_1_0_0_n_n 512 rfl rfl).symm]
  refine Finset.sum_congr rfl fun k _ => ?_
  have hk := contrEquiv1_symm_val dot_S64x512_S2048x512_S64x2048_1_1_0_0_n_n 512 rfl rfl k
  have el : dot_S64x512_S2048x512_S64x2048_1_1_0_0_n_n.lhsIdx (ix2 a b) ((contrEquiv1 dot_S64x512_S2048x512_S64x2048_1_1_0_0_n_n 512 rfl rfl).symm k) = ix2 a k := funext fun x => Fin.ext (by
    match x with
    | ⟨1, _⟩ => exact (dot_S64x512_S2048x512_S64x2048_1_1_0_0_n_n.lhsIdx_val_of_single rfl _ _).trans hk
    | ⟨0, _⟩ => exact mm_memqT_lhs_n _ _)
  have er : dot_S64x512_S2048x512_S64x2048_1_1_0_0_n_n.rhsIdx (ix2 a b) ((contrEquiv1 dot_S64x512_S2048x512_S64x2048_1_1_0_0_n_n 512 rfl rfl).symm k) = ix2 b k := funext fun x => Fin.ext (by
    match x with
    | ⟨1, _⟩ => exact (dot_S64x512_S2048x512_S64x2048_1_1_0_0_n_n.rhsIdx_val_of_single rfl _ _).trans hk
    | ⟨0, _⟩ => exact mm_memqT_rhs_n _ _)
  rw [el, er]

/-! ### `dot_S2048x512_S64x512_S2048x64_1_1_0_0_n_n` -/
theorem mm_qmemT_lhs_n (i : S2048x64.Idx) (q : dot_S2048x512_S64x512_S2048x64_1_1_0_0_n_n.contr.Idx) : (dot_S2048x512_S64x512_S2048x64_1_1_0_0_n_n.lhsIdx i q 0).val = (i 0).val := by
  unfold DotDims.lhsIdx
  rw [dif_neg (show ¬(0 : Fin S2048x512.rank) ∈ dot_S2048x512_S64x512_S2048x64_1_1_0_0_n_n.lhsBatch by decide), dif_pos (show (0 : Fin S2048x512.rank) ∈ dot_S2048x512_S64x512_S2048x64_1_1_0_0_n_n.lhsNonContracting by decide)]
  rfl
theorem mm_qmemT_rhs_n (i : S2048x64.Idx) (q : dot_S2048x512_S64x512_S2048x64_1_1_0_0_n_n.contr.Idx) : (dot_S2048x512_S64x512_S2048x64_1_1_0_0_n_n.rhsIdx i q 0).val = (i 1).val := by
  unfold DotDims.rhsIdx
  rw [dif_neg (show ¬(0 : Fin S64x512.rank) ∈ dot_S2048x512_S64x512_S2048x64_1_1_0_0_n_n.rhsBatch by decide), dif_pos (show (0 : Fin S64x512.rank) ∈ dot_S2048x512_S64x512_S2048x64_1_1_0_0_n_n.rhsNonContracting by decide)]
  rfl
/-- The product read at `(a, b)`: the sum over the contracted axis of the left operand's entry times the right's. -/
theorem mm_qmemT {φ₁ φ₂ : FTy} (prec : Option ContractPrecision) (l : FVec Ideal S2048x512 φ₁) (r : FVec Ideal S64x512 φ₂) (a : Fin 2048) (b : Fin 64) :
    FloatOps.matmul dot_S2048x512_S64x512_S2048x64_1_1_0_0_n_n prec l r (constant S2048x64 .f32 0x00000000#32) (ix2 a b) = ∑ k : Fin 512, l (ix2 a k) * r (ix2 b k) := by
  rw [Ideal.matmul_constant_zero_apply, ← Equiv.sum_comp (contrEquiv1 dot_S2048x512_S64x512_S2048x64_1_1_0_0_n_n 512 rfl rfl).symm]
  refine Finset.sum_congr rfl fun k _ => ?_
  have hk := contrEquiv1_symm_val dot_S2048x512_S64x512_S2048x64_1_1_0_0_n_n 512 rfl rfl k
  have el : dot_S2048x512_S64x512_S2048x64_1_1_0_0_n_n.lhsIdx (ix2 a b) ((contrEquiv1 dot_S2048x512_S64x512_S2048x64_1_1_0_0_n_n 512 rfl rfl).symm k) = ix2 a k := funext fun x => Fin.ext (by
    match x with
    | ⟨1, _⟩ => exact (dot_S2048x512_S64x512_S2048x64_1_1_0_0_n_n.lhsIdx_val_of_single rfl _ _).trans hk
    | ⟨0, _⟩ => exact mm_qmemT_lhs_n _ _)
  have er : dot_S2048x512_S64x512_S2048x64_1_1_0_0_n_n.rhsIdx (ix2 a b) ((contrEquiv1 dot_S2048x512_S64x512_S2048x64_1_1_0_0_n_n 512 rfl rfl).symm k) = ix2 b k := funext fun x => Fin.ext (by
    match x with
    | ⟨1, _⟩ => exact (dot_S2048x512_S64x512_S2048x64_1_1_0_0_n_n.rhsIdx_val_of_single rfl _ _).trans hk
    | ⟨0, _⟩ => exact mm_qmemT_rhs_n _ _)
  rw [el, er]

/-! ### `dot_S2048x64_S64x512_S2048x512_1_0_0_1_n_n` -/
theorem mm_wmem_lhs_n (i : S2048x512.Idx) (q : dot_S2048x64_S64x512_S2048x512_1_0_0_1_n_n.contr.Idx) : (dot_S2048x64_S64x512_S2048x512_1_0_0_1_n_n.lhsIdx i q 0).val = (i 0).val := by
  unfold DotDims.lhsIdx
  rw [dif_neg (show ¬(0 : Fin S2048x64.rank) ∈ dot_S2048x64_S64x512_S2048x512_1_0_0_1_n_n.lhsBatch by decide), dif_pos (show (0 : Fin S2048x64.rank) ∈ dot_S2048x64_S64x512_S2048x512_1_0_0_1_n_n.lhsNonContracting by decide)]
  rfl
theorem mm_wmem_rhs_n (i : S2048x512.Idx) (q : dot_S2048x64_S64x512_S2048x512_1_0_0_1_n_n.contr.Idx) : (dot_S2048x64_S64x512_S2048x512_1_0_0_1_n_n.rhsIdx i q 1).val = (i 1).val := by
  unfold DotDims.rhsIdx
  rw [dif_neg (show ¬(1 : Fin S64x512.rank) ∈ dot_S2048x64_S64x512_S2048x512_1_0_0_1_n_n.rhsBatch by decide), dif_pos (show (1 : Fin S64x512.rank) ∈ dot_S2048x64_S64x512_S2048x512_1_0_0_1_n_n.rhsNonContracting by decide)]
  rfl
/-- The product read at `(a, b)`: the sum over the contracted axis of the left operand's entry times the right's. -/
theorem mm_wmem {φ₁ φ₂ : FTy} (prec : Option ContractPrecision) (l : FVec Ideal S2048x64 φ₁) (r : FVec Ideal S64x512 φ₂) (a : Fin 2048) (b : Fin 512) :
    FloatOps.matmul dot_S2048x64_S64x512_S2048x512_1_0_0_1_n_n prec l r (constant S2048x512 .f32 0x00000000#32) (ix2 a b) = ∑ k : Fin 64, l (ix2 a k) * r (ix2 k b) := by
  rw [Ideal.matmul_constant_zero_apply, ← Equiv.sum_comp (contrEquiv1 dot_S2048x64_S64x512_S2048x512_1_0_0_1_n_n 64 rfl rfl).symm]
  refine Finset.sum_congr rfl fun k _ => ?_
  have hk := contrEquiv1_symm_val dot_S2048x64_S64x512_S2048x512_1_0_0_1_n_n 64 rfl rfl k
  have el : dot_S2048x64_S64x512_S2048x512_1_0_0_1_n_n.lhsIdx (ix2 a b) ((contrEquiv1 dot_S2048x64_S64x512_S2048x512_1_0_0_1_n_n 64 rfl rfl).symm k) = ix2 a k := funext fun x => Fin.ext (by
    match x with
    | ⟨1, _⟩ => exact (dot_S2048x64_S64x512_S2048x512_1_0_0_1_n_n.lhsIdx_val_of_single rfl _ _).trans hk
    | ⟨0, _⟩ => exact mm_wmem_lhs_n _ _)
  have er : dot_S2048x64_S64x512_S2048x512_1_0_0_1_n_n.rhsIdx (ix2 a b) ((contrEquiv1 dot_S2048x64_S64x512_S2048x512_1_0_0_1_n_n 64 rfl rfl).symm k) = ix2 k b := funext fun x => Fin.ext (by
    match x with
    | ⟨0, _⟩ => exact (dot_S2048x64_S64x512_S2048x512_1_0_0_1_n_n.rhsIdx_val_of_single rfl _ _).trans hk
    | ⟨1, _⟩ => exact mm_wmem_rhs_n _ _)
  rw [el, er]

/-! ### `dot_S64x2048_S2048x512_S64x512_1_0_0_1_n_n` -/
theorem mm_wq_lhs_n (i : S64x512.Idx) (q : dot_S64x2048_S2048x512_S64x512_1_0_0_1_n_n.contr.Idx) : (dot_S64x2048_S2048x512_S64x512_1_0_0_1_n_n.lhsIdx i q 0).val = (i 0).val := by
  unfold DotDims.lhsIdx
  rw [dif_neg (show ¬(0 : Fin S64x2048.rank) ∈ dot_S64x2048_S2048x512_S64x512_1_0_0_1_n_n.lhsBatch by decide), dif_pos (show (0 : Fin S64x2048.rank) ∈ dot_S64x2048_S2048x512_S64x512_1_0_0_1_n_n.lhsNonContracting by decide)]
  rfl
theorem mm_wq_rhs_n (i : S64x512.Idx) (q : dot_S64x2048_S2048x512_S64x512_1_0_0_1_n_n.contr.Idx) : (dot_S64x2048_S2048x512_S64x512_1_0_0_1_n_n.rhsIdx i q 1).val = (i 1).val := by
  unfold DotDims.rhsIdx
  rw [dif_neg (show ¬(1 : Fin S2048x512.rank) ∈ dot_S64x2048_S2048x512_S64x512_1_0_0_1_n_n.rhsBatch by decide), dif_pos (show (1 : Fin S2048x512.rank) ∈ dot_S64x2048_S2048x512_S64x512_1_0_0_1_n_n.rhsNonContracting by decide)]
  rfl
/-- The product read at `(a, b)`: the sum over the contracted axis of the left operand's entry times the right's. -/
theorem mm_wq {φ₁ φ₂ : FTy} (prec : Option ContractPrecision) (l : FVec Ideal S64x2048 φ₁) (r : FVec Ideal S2048x512 φ₂) (a : Fin 64) (b : Fin 512) :
    FloatOps.matmul dot_S64x2048_S2048x512_S64x512_1_0_0_1_n_n prec l r (constant S64x512 .f32 0x00000000#32) (ix2 a b) = ∑ k : Fin 2048, l (ix2 a k) * r (ix2 k b) := by
  rw [Ideal.matmul_constant_zero_apply, ← Equiv.sum_comp (contrEquiv1 dot_S64x2048_S2048x512_S64x512_1_0_0_1_n_n 2048 rfl rfl).symm]
  refine Finset.sum_congr rfl fun k _ => ?_
  have hk := contrEquiv1_symm_val dot_S64x2048_S2048x512_S64x512_1_0_0_1_n_n 2048 rfl rfl k
  have el : dot_S64x2048_S2048x512_S64x512_1_0_0_1_n_n.lhsIdx (ix2 a b) ((contrEquiv1 dot_S64x2048_S2048x512_S64x512_1_0_0_1_n_n 2048 rfl rfl).symm k) = ix2 a k := funext fun x => Fin.ext (by
    match x with
    | ⟨1, _⟩ => exact (dot_S64x2048_S2048x512_S64x512_1_0_0_1_n_n.lhsIdx_val_of_single rfl _ _).trans hk
    | ⟨0, _⟩ => exact mm_wq_lhs_n _ _)
  have er : dot_S64x2048_S2048x512_S64x512_1_0_0_1_n_n.rhsIdx (ix2 a b) ((contrEquiv1 dot_S64x2048_S2048x512_S64x512_1_0_0_1_n_n 2048 rfl rfl).symm k) = ix2 k b := funext fun x => Fin.ext (by
    match x with
    | ⟨0, _⟩ => exact (dot_S64x2048_S2048x512_S64x512_1_0_0_1_n_n.rhsIdx_val_of_single rfl _ _).trans hk
    | ⟨1, _⟩ => exact mm_wq_rhs_n _ _)
  rw [el, er]

end Cert.KernelIdeal.Hand

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Spec.lean ====
/-
  The shared arithmetic of both attention paths, on the extended reals.

  A row of scores `s` is turned into attention weights in four steps: the softmax `exp (s k - M) / D` with `M` the row
  maximum (folded from minus infinity) and `D` the sum of the exponentials; the hard shrink
  `(max (a - λ) 0 * a) / (|a - λ| + ε)` of each weight `a`; and the L1 normalisation by `max (∑ |·|) ε`. The three
  literals (the shrink threshold `λ`, the guard `ε`, zero) are kept as the words both programs print: the same word
  reads the same on both sides and is never evaluated.
-/
import Idealize.ShloMosaic.PureOps.Ideal.Laws

noncomputable section

namespace Cert.Spec

open Idealize.ShloMosaic

abbrev SHR : EReal := Ideal.ofBits .f32 0x3B23D70A#32
abbrev EPS : EReal := Ideal.ofBits .f32 0x2B8CBCCC#32
abbrev ZERO : EReal := Ideal.ofBits .f32 0x00000000#32
abbrev NINF : EReal := Ideal.ofBits .f32 0xFF800000#32

/-- The hard shrink of one softmax weight. -/
def hshrink (a : EReal) : EReal := Ideal.div (max (a - SHR) ZERO * a) (max (a - SHR) (-(a - SHR)) + EPS)

variable {K : Type*} [Fintype K]

/-- A row's maximum, folded from minus infinity. -/
def rowMax (s : K → EReal) : EReal := Finset.univ.fold max NINF s
/-- The softmax denominator of a row at the maximum `M`. -/
def rowDen (s : K → EReal) (M : EReal) : EReal := ∑ k, Ideal.exp (s k - M)
/-- One softmax weight. -/
def soft (s : K → EReal) (M D : EReal) (k : K) : EReal := Ideal.div (Ideal.exp (s k - M)) D
/-- The L1 normaliser of a row of shrunk weights. -/
def rowNorm (ap : K → EReal) : EReal := max (∑ k, max (ap k) (-(ap k))) EPS
/-- The whole chain: entry `j` of the normalised hard-shrunk softmax of the row `s`. -/
def rowAttn (s : K → EReal) (j : K) : EReal :=
  Ideal.div (hshrink (soft s (rowMax s) (rowDen s (rowMax s)) j))
    (rowNorm fun k => hshrink (soft s (rowMax s) (rowDen s (rowMax s)) k))

end Cert.Spec

end
-- ==== Proof.KI.PayRow0.lean ====
/-
  The first region's read-path payloads at an index. The attention weights the body stores for row `p` of its query
  block are the shared chain (softmax, hard shrink, L1 normalisation) of that row's 64 scores; a score is the inner
  product of the query row with a memory row.
-/
import proofs.«147958_j26001732010458_2_alg».proof.Proof.KI.PayMM
import proofs.«147958_j26001732010458_2_alg».proof.Proof.LibColumn
import proofs.«147958_j26001732010458_2_alg».proof.Proof.Spec

noncomputable section

namespace Cert.KernelIdeal.Hand

open Cert.KernelIdeal Cert.KernelIdeal.Gen
open Idealize.ShloMosaic Idealize.ShloMosaic.ValueIdx

/-- A length-2048 vector written as a column and broadcast along 64 lanes reads, at `(p, k)`, its entry `p`. -/
theorem colbcast64 {φ : FTy} (c : FVec Ideal S2048 φ) (p : Fin 2048) (k : Fin 64) :
    broadcastTo S2048x64 (shapeCast S2048x1 c shapeCasts_S2048_S2048x1) broadcasts_S2048x1_S2048x64 (ix2 p k) = c (ix1 p) :=
  (Cert.LibColumn.broadcastTo_a1_ab_apply _ broadcasts_S2048x1_S2048x64 p k).trans
    (Cert.LibColumn.shapeCast_a_a1_apply c shapeCasts_S2048_S2048x1 p 0)

/-- A lane sum of a 2048 x 64 block, at row `r`. -/
theorem rsum64 (src : FVec Ideal S2048x64 .f32) (r : Fin 2048) :
    multiReduction .add [1] S2048 src 0x00000000#32 reduces_S2048x64_S2048 (.inl rfl) rfl (ix1 r) = ∑ k : Fin 64, src (ix2 r k) := by
  refine (Ideal.multiReduction_add_single src 0x00000000#32 reduces_S2048x64_S2048 (.inl rfl) rfl (ix1 r)).trans ?_
  refine Finset.sum_congr rfl fun k _ => congrArg src ?_
  exact funext fun a => Fin.ext (by match a with | ⟨0, _⟩ => rfl | ⟨1, _⟩ => rfl)

/-- A lane maximum of a 2048 x 64 block, at row `r`: the fold of `max` from minus infinity. -/
theorem rmax64 (src : FVec Ideal S2048x64 .f32) (r : Fin 2048) :
    multiReduction .maximumf [1] S2048 src 0xFF800000#32 reduces_S2048x64_S2048 (.inl rfl) rfl (ix1 r)
      = Cert.Spec.rowMax (fun k : Fin 64 => src (ix2 r k)) := by
  refine (Ideal.multiReduction_maximumf_single src 0xFF800000#32 reduces_S2048x64_S2048 (.inl rfl) rfl (ix1 r)).trans ?_
  unfold Cert.Spec.rowMax
  refine congrArg (fun f => Finset.univ.fold max _ f) (funext fun k => congrArg src ?_)
  exact funext fun a => Fin.ext (by match a with | ⟨0, _⟩ => rfl | ⟨1, _⟩ => rfl)

/-- An `[2048, 1]` column broadcast along 64 lanes reads, at `(p, k)`, the column's entry of row `p`. -/
theorem colb64 {φ : FTy} (v : FVec Ideal S2048x1 φ) (p : Fin 2048) (k : Fin 64) :
    broadcastTo S2048x64 v broadcasts_S2048x1_S2048x64 (ix2 p k) = v (ix2 p (0 : Fin 1)) :=
  Cert.LibColumn.broadcastTo_a1_ab_apply v broadcasts_S2048x1_S2048x64 p k
theorem col2048 {φ : FTy} (c : FVec Ideal S2048 φ) (p : Fin 2048) (u : Fin 1) :
    shapeCast S2048x1 c shapeCasts_S2048_S2048x1 (ix2 p u) = c (ix1 p) :=
  Cert.LibColumn.shapeCast_a_a1_apply c shapeCasts_S2048_S2048x1 p u

/-- THE ATTENTION WEIGHTS OF A ROW: the stored payload at `(p, j)`, from the row's scores and the row maximum `M`. -/
theorem pay1_apply (v31 : FVec Ideal S2048x64 .f32) (v32 : FVec Ideal S2048 .f32) (p : Fin 2048) (j : Fin 64) :
    k0_pay1 v31 v32 (ix2 p j)
      = Ideal.div (Cert.Spec.hshrink (Cert.Spec.soft (fun k : Fin 64 => v31 (ix2 p k)) (v32 (ix1 p)) (Cert.Spec.rowDen (fun k : Fin 64 => v31 (ix2 p k)) (v32 (ix1 p))) j))
          (Cert.Spec.rowNorm fun k => Cert.Spec.hshrink (Cert.Spec.soft (fun k : Fin 64 => v31 (ix2 p k)) (v32 (ix1 p)) (Cert.Spec.rowDen (fun k : Fin 64 => v31 (ix2 p k)) (v32 (ix1 p))) k)) := by
  unfold k0_pay1
  dsimp only
  simp only [divf, mulf, subf, addf, maximumf, absf, Idealize.ShloMosaic.exp, broadcast, colb64, col2048]
  repeat (rw [rsum64]; try simp only [divf, mulf, subf, addf, maximumf, absf, Idealize.ShloMosaic.exp, broadcast, colb64, col2048])
  unfold Cert.Spec.rowNorm Cert.Spec.hshrink Cert.Spec.soft Cert.Spec.rowDen
  rfl

/-- A score: the inner product of query row `p` of the block with memory row `j`. -/
theorem pay13_apply (v0 : Vec Ideal S2048x512 .f32) (v2 : Vec Ideal S64x512 .f32) (p : Fin 2048) (j : Fin 64) :
    k0_pay13 v0 v2 (ix2 p j) = ∑ d : Fin 512, v0 (ix2 p d) * v2 (ix2 j d) := by
  unfold k0_pay13 k0_pay3
  dsimp only
  rw [shapeCast_self]
  exact mm_qmemT _ v0 v2 p j

/-- The row maximum the body takes of its scores. -/
theorem pay14_apply (v0 : Vec Ideal S2048x512 .f32) (v2 : Vec Ideal S64x512 .f32) (p : Fin 2048) :
    k0_pay14 v0 v2 (ix1 p) = Cert.Spec.rowMax (fun k : Fin 64 => k0_pay13 v0 v2 (ix2 p k)) := by
  unfold k0_pay14
  dsimp only
  exact rmax64 _ p

/-- The scores of row `p` of a query block against the memory bank. -/
def scoreRow (v0 : Vec Ideal S2048x512 .f32) (v2 : Vec Ideal S64x512 .f32) (p : Fin 2048) : Fin 64 → EReal :=
  fun k => ∑ d : Fin 512, v0 (ix2 p d) * v2 (ix2 k d)

/-- THE STORED ATTENTION WEIGHTS: the shared chain of the row's scores. -/
theorem attn_pay_apply (v0 : Vec Ideal S2048x512 .f32) (v2 : Vec Ideal S64x512 .f32) (p : Fin 2048) (j : Fin 64) :
    k0_pay1 (k0_pay13 v0 v2) (k0_pay14 v0 v2) (ix2 p j) = Cert.Spec.rowAttn (scoreRow v0 v2 p) j := by
  rw [pay1_apply, pay14_apply]
  have hs : (fun k : Fin 64 => k0_pay13 v0 v2 (ix2 p k)) = scoreRow v0 v2 p := funext fun k => pay13_apply v0 v2 p k
  rw [hs]
  rfl

/-- THE STORED READ RESULT's second half: the attention weights of the row times the memory bank. -/
theorem addmem_pay_apply (v0 : Vec Ideal S2048x512 .f32) (v2 : Vec Ideal S64x512 .f32) (p : Fin 2048) (d : Fin 512) :
    k0_pay2 (k0_pay4 v2) (k0_pay13 v0 v2) (k0_pay14 v0 v2) (ix2 p d)
      = ∑ j : Fin 64, Cert.Spec.rowAttn (scoreRow v0 v2 p) j * v2 (ix2 j d) := by
  unfold k0_pay2 k0_pay4
  dsimp only
  refine (mm_wmem none _ _ p d).trans ?_
  refine Finset.sum_congr rfl fun j _ => ?_
  rw [truncf_apply, truncf_apply, attn_pay_apply]

end Cert.KernelIdeal.Hand

end
-- ==== Proof.RefRow.lean ====
/-
  The reference's attention weights at an index: entry `(n, j)` of its normalised hard-shrunk softmax is the shared
  chain of row `n`'s 64 scores. Read off the generated stage-by-stage lemmas; the two differences from the chain as
  the kernel computes it are harmless — a sum started from the zero word (`0 + ∑`) and a maximum taken once more
  against minus infinity, which a fold that started there already dominates.
-/
import proofs.«147958_j26001732010458_2_alg».proof.Proof.RefReadP
import proofs.«147958_j26001732010458_2_alg».proof.Proof.Spec

noncomputable section

namespace Cert.RefRow

open Cert.ReferenceIdeal Cert.ReferenceIdeal.Gen Cert.ReferenceIdeal.ReadP
open Idealize.ShloMosaic Idealize.ShloMosaic.ValueIdx

/-! ## Index identities of the generated read lemmas -/
theorem i_col (n : Fin 65536) (j : Fin 64) : idx_main_v78 (ix2 n j) = ix2 n (0 : Fin 1) :=
  funext fun a => Fin.ext (by match a with | ⟨0, _⟩ => rfl | ⟨1, _⟩ => rfl)
theorem i_col63 (n : Fin 65536) (j : Fin 64) : idx_main_v63 (ix2 n j) = ix2 n (0 : Fin 1) :=
  funext fun a => Fin.ext (by match a with | ⟨0, _⟩ => rfl | ⟨1, _⟩ => rfl)
theorem i_col58 (n : Fin 65536) (j : Fin 64) : idx_main_v58 (ix2 n j) = ix2 n (0 : Fin 1) :=
  funext fun a => Fin.ext (by match a with | ⟨0, _⟩ => rfl | ⟨1, _⟩ => rfl)
theorem i_vec75 (n : Fin 65536) (u : Fin 1) : idx_main_v75 (ix2 n u) = ix1 n :=
  funext fun a => Fin.ext (by match a with | ⟨0, _⟩ => rfl)
theorem i_vec62 (n : Fin 65536) (u : Fin 1) : idx_main_v62 (ix2 n u) = ix1 n :=
  funext fun a => Fin.ext (by match a with | ⟨0, _⟩ => rfl)
theorem i_vec57 (n : Fin 65536) (u : Fin 1) : idx_main_v57 (ix2 n u) = ix1 n :=
  funext fun a => Fin.ext (by match a with | ⟨0, _⟩ => rfl)
theorem i_row74 (n : Fin 65536) (k : Fin 64) : idx_main_v74 (ix1 n) k = ix2 n k :=
  funext fun a => Fin.ext (by match a with | ⟨0, _⟩ => rfl | ⟨1, _⟩ => rfl)
theorem i_row61 (n : Fin 65536) (k : Fin 64) : idx_main_v61 (ix1 n) k = ix2 n k :=
  funext fun a => Fin.ext (by match a with | ⟨0, _⟩ => rfl | ⟨1, _⟩ => rfl)

/-- A fold of `max` dominates the value it starts from. -/
theorem max_init_fold {K : Type*} [Fintype K] (b : EReal) (f : K → EReal) :
    max b (Finset.univ.fold max b f) = Finset.univ.fold max b f :=
  max_eq_right ((Finset.le_fold_max b).mpr (Or.inl le_rfl))

/-- The reference's row maximum. -/
theorem ref_v54_apply (x0 : (⟨S32x2048x512, .f32⟩ : BufTy).Contents (Elt Ideal)) (x1 : (⟨S64x512, .f32⟩ : BufTy).Contents (Elt Ideal)) (n : Fin 65536) :
    val_main_v54 (F := Ideal) x0 x1 (ix1 n) = Cert.Spec.rowMax (fun k : Fin 64 => val_main_v53 (F := Ideal) x0 x1 (ix2 n k)) := by
  unfold val_main_v54
  generalize val_main_v53 (F := Ideal) x0 x1 = y
  refine (Host.reduce_eq_fold_single (α := EReal) max y _ reducesTo_S65536x64_S65536_d1 (by decide) h_S_ (ix1 n)).trans ?_
  unfold Cert.Spec.rowMax
  refine congrArg (fun f => Finset.univ.fold max _ f) (funext fun k => congrArg y ?_)
  exact funext fun a => Fin.ext (by match a with | ⟨0, _⟩ => rfl | ⟨1, _⟩ => rfl)

/-- The row maximum as the reference broadcasts it along the row. -/
theorem ref_Mcol (x0 : (⟨S32x2048x512, .f32⟩ : BufTy).Contents (Elt Ideal)) (x1 : (⟨S64x512, .f32⟩ : BufTy).Contents (Elt Ideal)) (n : Fin 65536) (k : Fin 64) :
    val_main_v58 (F := Ideal) x0 x1 (ix2 n k) = Cert.Spec.rowMax (fun k : Fin 64 => val_main_v53 (F := Ideal) x0 x1 (ix2 n k)) :=
  (val_main_v58_apply x0 x1 (ix2 n k)).trans <| (congrArg (val_main_v57 (F := Ideal) x0 x1) (i_col58 n k)).trans <|
    (val_main_v57_apply x0 x1 (ix2 n (0 : Fin 1))).trans <| (congrArg (val_main_v56 (F := Ideal) x0 x1) (i_vec57 n 0)).trans <|
    (val_main_v56_apply x0 x1 (ix1 n)).trans <| by
      rw [val_main_v55_apply, val_main_cst_10_apply, ref_v54_apply]
      exact max_init_fold _ _

/-- The scores of row `n` as the reference has them. -/
abbrev srow (x0 : (⟨S32x2048x512, .f32⟩ : BufTy).Contents (Elt Ideal)) (x1 : (⟨S64x512, .f32⟩ : BufTy).Contents (Elt Ideal)) (n : Fin 65536) : Fin 64 → EReal :=
  fun k => val_main_v53 (F := Ideal) x0 x1 (ix2 n k)

theorem zero_word_add' (t : EReal) : Ideal.ofBits .f32 0x00000000#32 + t = t := by
  rw [Ideal.ofBits_zero_f32, zero_add]

/-- Stage 1: the softmax weight at `(n, k)`. -/
theorem ref_soft_apply (x0 : (⟨S32x2048x512, .f32⟩ : BufTy).Contents (Elt Ideal)) (x1 : (⟨S64x512, .f32⟩ : BufTy).Contents (Elt Ideal)) (n : Fin 65536) (k : Fin 64) :
    val_main_v64 (F := Ideal) x0 x1 (ix2 n k)
      = Cert.Spec.soft (srow x0 x1 n) (Cert.Spec.rowMax (srow x0 x1 n)) (Cert.Spec.rowDen (srow x0 x1 n) (Cert.Spec.rowMax (srow x0 x1 n))) k := by
  simp only [val_main_v64_apply, val_main_v63_apply, val_main_v62_apply, val_main_v61_apply, val_main_cst_11_apply,
    val_main_v60_apply, val_main_v59_apply, i_col63, i_vec62, i_row61, ref_Mcol]
  simp only [Ideal.hostDivf_def, Ideal.hostUnary_exp_def, Ideal.subf_def, Ideal.ofBits_def]
  rw [zero_word_add']
  unfold Cert.Spec.soft Cert.Spec.rowDen
  with_reducible rfl

theorem zero_word_add (t : EReal) : (FloatOps.ofBits (F := Ideal) .f32 0x00000000#32 : EReal) + t = t := by
  show Ideal.ofBits .f32 0x00000000#32 + t = t
  rw [Ideal.ofBits_zero_f32, zero_add]

/-- Stage 2: the hard-shrunk weight at an index, from the softmax weight at the same index. -/
theorem ref_shrink_apply (x0 : (⟨S32x2048x512, .f32⟩ : BufTy).Contents (Elt Ideal)) (x1 : (⟨S64x512, .f32⟩ : BufTy).Contents (Elt Ideal)) (i : S65536x64.Idx) :
    val_main_v72 (F := Ideal) x0 x1 i = Cert.Spec.hshrink (val_main_v64 (F := Ideal) x0 x1 i) := by
  simp only [val_main_v72_apply, val_main_v71_apply, val_main_v70_apply, val_main_cst_13_apply, val_main_v69_apply, val_main_v68_apply,
    val_main_v67_apply, val_main_call1_v0_apply, val_main_call1_cst_apply, val_main_v66_apply, val_main_v65_apply, val_main_cst_12_apply]
  rfl

/-- Stage 3: the normalised weight at `(n, j)`, from the row's shrunk weights. -/
theorem ref_norm_apply (x0 : (⟨S32x2048x512, .f32⟩ : BufTy).Contents (Elt Ideal)) (x1 : (⟨S64x512, .f32⟩ : BufTy).Contents (Elt Ideal)) (n : Fin 65536) (j : Fin 64) :
    val_main_v79 (F := Ideal) x0 x1 (ix2 n j)
      = Ideal.div (val_main_v72 (F := Ideal) x0 x1 (ix2 n j)) (Cert.Spec.rowNorm fun k : Fin 64 => val_main_v72 (F := Ideal) x0 x1 (ix2 n k)) := by
  simp only [val_main_v79_apply, val_main_v78_apply, val_main_v77_apply, val_main_v76_apply, val_main_cst_15_apply, val_main_v75_apply,
    val_main_v74_apply, val_main_cst_14_apply, val_main_v73_apply, i_col, i_vec75, i_row74]
  rw [zero_word_add]
  rfl

/-- THE REFERENCE'S ATTENTION WEIGHTS: the shared chain of the row's scores. -/
theorem ref_attn_apply (x0 : (⟨S32x2048x512, .f32⟩ : BufTy).Contents (Elt Ideal)) (x1 : (⟨S64x512, .f32⟩ : BufTy).Contents (Elt Ideal)) (n : Fin 65536) (j : Fin 64) :
    val_main_v79 (F := Ideal) x0 x1 (ix2 n j) = Cert.Spec.rowAttn (srow x0 x1 n) j := by
  rw [ref_norm_apply]
  unfold Cert.Spec.rowAttn
  have h : ∀ k : Fin 64, val_main_v72 (F := Ideal) x0 x1 (ix2 n k)
      = Cert.Spec.hshrink (Cert.Spec.soft (srow x0 x1 n) (Cert.Spec.rowMax (srow x0 x1 n)) (Cert.Spec.rowDen (srow x0 x1 n) (Cert.Spec.rowMax (srow x0 x1 n))) k) :=
    fun k => by rw [ref_shrink_apply, ref_soft_apply]
  rw [h j, funext h]

end Cert.RefRow

end
-- ==== Proof.KI.ValAttn.lean ====
/-
  The second result (the attention weights, reshaped to 32 x 2048 x 64) of the idealized kernel is the reference's.

  Row `n = 2048 t + p` of the 65536 x 64 weights array is written by grid point `t` as row `p` of its block; the
  block's row is the shared chain (softmax, hard shrink, L1 normalisation) of the 64 inner products of query row `n`
  with the memory rows, which is what the reference computes for that row. The blocks tile the array, so the array the
  first region leaves is the reference's weights array; neither the second region nor the host stretches between touch
  it, and the last host stretch reshapes it as the reference does.
-/
import proofs.«147958_j26001732010458_2_alg».proof.Proof.KI.Args
import proofs.«147958_j26001732010458_2_alg».proof.Proof.KI.At0
import proofs.«147958_j26001732010458_2_alg».proof.Proof.KI.PayRow0
import proofs.«147958_j26001732010458_2_alg».proof.Proof.RefRow

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- The query and the memory bank as launched, as the reference's staged values take them. -/
abbrev X0 : (⟨Cert.ReferenceIdeal.S32x2048x512, .f32⟩ : BufTy).Contents (Elt Ideal) := m ((c : Thread nD τ).loc main_arg0)
abbrev X1 : (⟨Cert.ReferenceIdeal.S64x512, .f32⟩ : BufTy).Contents (Elt Ideal) := m ((c : Thread nD τ).loc main_arg1)

/-- The first region finds the reshaped query in its first window's array, -/
theorem V1_main_v0 : V1 m c main_v0 = Cert.ReferenceIdeal.ReadP.val_main_v0 (F := Ideal) (X0 m c) := by
  show StableHlo.after hostOps0 (W0 m c) (Proc.devRef .tc main_v0) = _
  after_results
  rfl
/-- and the memory bank in its second window's. -/
theorem V1_main_arg1 : V1 m c main_arg1 = X1 m c := (W1_of m c main_arg1 (by decide)).trans rfl

/-- The printed index maps of the first region, decided over the grid: the row-block windows are at block `t`, the
    memory window at block 0. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The query row that row `p` of point `t`'s block is. -/
def rowOf (t : Fin cfg0.N) (p : Fin 2048) : Fin 65536 :=
  ⟨2048 * t.val + p.val, by have := lt_of_lt_of_eq t.isLt (show cfg0.N = 32 from N_0); have := p.isLt; omega⟩

/-- The query block at a point, at an index. -/
theorem q_blk (t : Fin cfg0.N) (p : Fin 2048) (d : Fin 512) :
    iblk0 (V1 m) c 0 t (ix2 p d) = Cert.ReferenceIdeal.ReadP.val_main_v0 (F := Ideal) (X0 m c) (ix2 (rowOf t p) d) := by
  show V1 m c main_v0 (((cfg0.win 0).blk t).view.emb (ix2 p d)) = _
  rw [V1_main_v0]
  refine congrArg _ (funext fun a => Fin.ext ?_)
  obtain ⟨e0, e1, -⟩ := idx0_facts t
  match a with
  | ⟨0, _⟩ => show win0_0.index t (0 : Fin 2) * 2048 + 1 * p.val = 2048 * t.val + p.val; omega
  | ⟨1, _⟩ => show win0_0.index t (1 : Fin 2) * 512 + 1 * d.val = d.val; omega

/-- The memory block at a point, at an index: the whole bank. -/
theorem mem_blk (t : Fin cfg0.N) (k : Fin 64) (d : Fin 512) :
    iblk0 (V1 m) c 1 t (ix2 k d) = X1 m c (ix2 k d) := by
  show V1 m c main_arg1 (((cfg0.win 1).blk t).view.emb (ix2 k d)) = _
  rw [V1_main_arg1]
  refine congrArg _ (funext fun a => Fin.ext ?_)
  obtain ⟨-, -, e0, e1, -⟩ := idx0_facts t
  match a with
  | ⟨0, _⟩ => show win0_1.index t (0 : Fin 2) * 64 + 1 * k.val = k.val; omega
  | ⟨1, _⟩ => show win0_1.index t (1 : Fin 2) * 512 + 1 * d.val = d.val; omega

/-- The scores the body computes for row `p` at point `t` are the reference's for row `2048 t + p`. -/
theorem score_eq (t : Fin cfg0.N) (p : Fin 2048) :
    scoreRow (iblk0 (V1 m) c 0 t) (iblk0 (V1 m) c 1 t) p = Cert.RefRow.srow (X0 m c) (X1 m c) (rowOf t p) := by
  funext k
  unfold scoreRow
  show _ = Cert.ReferenceIdeal.ReadP.val_main_v53 (F := Ideal) (X0 m c) (X1 m c) (ix2 (rowOf t p) k)
  rw [Cert.ReferenceIdeal.ReadP.val_main_v53_apply]
  refine Finset.sum_congr rfl fun d _ => ?_
  rw [q_blk, mem_blk, Cert.ReferenceIdeal.ReadP.val_main_v52_apply]
  refine congrArg₂ (· * ·) (congrArg _ ?_) (congrArg _ ?_)
  · exact funext fun a => Fin.ext (by match a with | ⟨0, _⟩ => rfl | ⟨1, _⟩ => rfl)
  · exact funext fun a => Fin.ext (by match a with | ⟨0, _⟩ => rfl | ⟨1, _⟩ => rfl)

/-- WHAT POINT `t` WRITES BACK to the weights array is block `t` of the reference's weights. -/
theorem flushed3_eq (t : Fin cfg0.N) :
    (dat0 (V1 m) c).flushed 3 t = ((cfg0.win 3).blk t).view.read (Elt Ideal) (Cert.ReferenceIdeal.ReadP.val_main_v79 (F := Ideal) (X0 m c) (X1 m c)) := by
  show (cfg0.win 3).cut (grid0.coords t) ((dat0 (V1 m) c).after 3 t) = _
  rw [after0_3, At0.o3_at]
  funext y
  obtain ⟨p, j, rfl⟩ : ∃ (p : Fin 2048) (j : Fin 64), y = ix2 p j := ⟨y 0, y 1, eq_ix2 y⟩
  show k0_pay1 (F := Ideal) _ _ (ix2 p j) = Cert.ReferenceIdeal.ReadP.val_main_v79 (F := Ideal) (X0 m c) (X1 m c) (((cfg0.win 3).blk t).view.emb (ix2 p j))
  have he : ((cfg0.win 3).blk t).view.emb (ix2 p j) = ix2 (rowOf t p) j := funext fun a => Fin.ext (by
    obtain ⟨-, -, -, -, -, -, e0, e1⟩ := idx0_facts t
    match a with
    | ⟨0, _⟩ => show win0_3.index t (0 : Fin 2) * 2048 + 1 * p.val = 2048 * t.val + p.val; omega
    | ⟨1, _⟩ => show win0_3.index t (1 : Fin 2) * 64 + 1 * j.val = j.val; omega)
  rw [he, attn_pay_apply, Cert.RefRow.ref_attn_apply, score_eq]

/-- An index of the weights array is in point `t`'s block iff its row is among the block's 2048. -/
theorem mem_blk3 (t : Fin cfg0.N) (i : S65536x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v1_1).slice (win0_3.rect t)).set ↔ _
  rw [View.set_slice_whole, Rect.mem_set_unit]
  exact Iff.rfl

/-- Every row is in the block of the point `row / 2048`, which writes it back. -/
theorem cover3 (i : S65536x64.Idx) : ∃ t : Fin cfg0.N, (cfg0.win 3).flush t = true ∧ i ∈ ((cfg0.win 3).blk t).view.set := by
  have hi0 : (i 0).val < 65536 := (i 0).isLt
  have hi1 : (i 1).val < 64 := (i 1).isLt
  let t : Fin cfg0.N := ⟨(i 0).val / 2048, by rw [show cfg0.N = 32 from N_0]; omega⟩
  refine ⟨t, flush0_3 t, ?_⟩
  rw [mem_blk3]
  obtain ⟨-, -, -, -, -, -, e0, e1⟩ := idx0_facts t
  intro a
  match a with
  | ⟨0, _⟩ => show win0_3.index t (0 : Fin 2) * 2048 ≤ (i 0).val ∧ (i 0).val < win0_3.index t (0 : Fin 2) * 2048 + 2048; rw [e0]; show (i 0).val / 2048 * 2048 ≤ (i 0).val ∧ (i 0).val < (i 0).val / 2048 * 2048 + 2048; omega
  | ⟨1, _⟩ => show win0_3.index t (1 : Fin 2) * 64 ≤ (i 1).val ∧ (i 1).val < win0_3.index t (1 : Fin 2) * 64 + 64; rw [e1]; omega

/-- THE WEIGHTS ARRAY after the first region: the reference's. -/
theorem final3 : (dat0 (V1 m) c).arrAt 3 cfg0.N = Cert.ReferenceIdeal.ReadP.val_main_v79 (F := Ideal) (X0 m c) (X1 m c) :=
  (dat0 (V1 m) c).arrAt_eq_of_cover 3 _ (fun t _ => flushed3_eq m c t) (cover3)

/-- The weights array reaches the last host stretch untouched. -/
theorem W4_v1_1 : W4 m c (Proc.devRef .tc main_v1_1) = Cert.ReferenceIdeal.ReadP.val_main_v79 (F := Ideal) (X0 m c) (X1 m c) :=
  (W4_of_ne m c main_v1_1 (by decide)).trans <| (W3_of m c main_v1_1 (by decide)).trans <| (W2_arr m c 3).trans (final3 m c)

/-- THE SECOND RESULT of the idealized kernel is the reference's second result. -/
theorem W5_v40 : W5 m c (Proc.devRef .tc main_v40) = Cert.ReferenceIdeal.ReadP.val_main_v83 (F := Ideal) (X0 m c) (X1 m c) := by
  have h : W5 m c (Proc.devRef .tc main_v40) = shapeCast S32x2048x64 (W4 m c (Proc.devRef .tc main_v1_1)) shapeCasts_S65536x64_S32x2048x64 := by
    show StableHlo.after hostOps2 (W4 m c) (Proc.devRef .tc main_v40) = _
    after_results_simp
    rfl
  rw [h, W4_v1_1]
  rfl

end Cert.KernelIdeal.Hand

end
-- ==== Proof.KI.ValOut.lean ====
/-
  The first result (the query beside the attention-weighted memory rows, reshaped to 32 x 2048 x 1024) of the idealized
  kernel is the reference's.

  Row `n = 2048 t + p` of the 65536 x 1024 array is written by grid point `t` as row `p` of its block: columns 0 to 511
  hold query row `n`, columns 512 to 1023 hold the sum over the 64 memory rows of the row's attention weight times the
  memory row — on both sides the concatenation, along the columns, of the reshaped query and of the weights' product
  with the memory bank.
-/
import proofs.«147958_j26001732010458_2_alg».proof.Proof.KI.ValAttn

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- WHAT POINT `t` WRITES BACK to the read-path array is block `t` of the reference's concatenation. -/
theorem flushed2_eq (t : Fin cfg0.N) :
    (dat0 (V1 m) c).flushed 2 t = ((cfg0.win 2).blk t).view.read (Elt Ideal) (Cert.ReferenceIdeal.ReadP.val_main_v81 (F := Ideal) (X0 m c) (X1 m c)) := by
  show (cfg0.win 2).cut (grid0.coords t) ((dat0 (V1 m) c).after 2 t) = _
  rw [after0_2, At0.o2_at]
  funext y
  obtain ⟨p, k, rfl⟩ : ∃ (p : Fin 2048) (k : Fin 1024), y = ix2 p k := ⟨y 0, y 1, eq_ix2 y⟩
  show blk2 (F := Ideal) _ _ (ix2 p k) = Cert.ReferenceIdeal.ReadP.val_main_v81 (F := Ideal) (X0 m c) (X1 m c) (((cfg0.win 2).blk t).view.emb (ix2 p k))
  have he : ((cfg0.win 2).blk t).view.emb (ix2 p k) = ix2 (rowOf t p) k := funext fun a => Fin.ext (by
    obtain ⟨-, -, -, -, e0, e1, -⟩ := idx0_facts t
    match a with
    | ⟨0, _⟩ => show win0_2.index t (0 : Fin 2) * 2048 + 1 * p.val = 2048 * t.val + p.val; omega
    | ⟨1, _⟩ => show win0_2.index t (1 : Fin 2) * 1024 + 1 * k.val = k.val; omega)
  rw [he]
  unfold blk2 Cert.ReferenceIdeal.ReadP.val_main_v81
  by_cases hk : k.val < 512
  · refine (concatenate_pair_apply_left 1 _ _ hcat2 (ix2 p k) rfl (ix2 p ⟨k.val, hk⟩)
      (fun b => by match b with | ⟨0, _⟩ => rfl | ⟨1, _⟩ => rfl)).trans ?_
    refine Eq.trans ?_ (concatenate_pair_apply_left 1 _ _ Cert.ReferenceIdeal.Gen.concatenates_S65536x512_S65536x512_S65536x1024_d1 (ix2 (rowOf t p) k) rfl
      (ix2 (rowOf t p) ⟨k.val, hk⟩) (fun b => by match b with | ⟨0, _⟩ => rfl | ⟨1, _⟩ => rfl)).symm
    exact q_blk m c t p ⟨k.val, hk⟩
  · have hk' : k.val - 512 < 512 := by have := k.isLt; omega
    refine (concatenate_pair_apply_right 1 _ _ hcat2 (ix2 p k) rfl rfl (ix2 p ⟨k.val - 512, hk'⟩)
      (fun b hb => by match b with | ⟨0, _⟩ => rfl | ⟨1, _⟩ => exact absurd rfl hb)
      (by show k.val - 512 + 512 = k.val; omega)).trans ?_
    refine Eq.trans ?_ (concatenate_pair_apply_right 1 _ _ Cert.ReferenceIdeal.Gen.concatenates_S65536x512_S65536x512_S65536x1024_d1 (ix2 (rowOf t p) k) rfl rfl
      (ix2 (rowOf t p) ⟨k.val - 512, hk'⟩)
      (fun b hb => by match b with | ⟨0, _⟩ => rfl | ⟨1, _⟩ => exact absurd rfl hb)
      (by show k.val - 512 + 512 = k.val; omega)).symm
    rw [addmem_pay_apply, Cert.ReferenceIdeal.ReadP.val_main_v80_apply]
    refine Finset.sum_congr rfl fun j _ => ?_
    rw [mem_blk, score_eq]
    refine congrArg₂ (· * ·) ?_ (congrArg _ ?_)
    · refine (Cert.RefRow.ref_attn_apply (X0 m c) (X1 m c) (rowOf t p) j).symm.trans (congrArg _ ?_)
      exact funext fun a => Fin.ext (by match a with | ⟨0, _⟩ => rfl | ⟨1, _⟩ => rfl)
    · exact funext fun a => Fin.ext (by match a with | ⟨0, _⟩ => rfl | ⟨1, _⟩ => rfl)

theorem mem_blk2 (t : Fin cfg0.N) (i : S65536x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v1_0).slice (win0_2.rect t)).set ↔ _
  rw [View.set_slice_whole, Rect.mem_set_unit]
  exact Iff.rfl

theorem cover2 (i : S65536x1024.Idx) : ∃ t : Fin cfg0.N, (cfg0.win 2).flush t = true ∧ i ∈ ((cfg0.win 2).blk t).view.set := by
  have hi0 : (i 0).val < 65536 := (i 0).isLt
  have hi1 : (i 1).val < 1024 := (i 1).isLt
  let t : Fin cfg0.N := ⟨(i 0).val / 2048, by rw [show cfg0.N = 32 from N_0]; omega⟩
  refine ⟨t, flush0_2 t, ?_⟩
  rw [mem_blk2]
  obtain ⟨-, -, -, -, e0, e1, -⟩ := idx0_facts t
  intro a
  match a with
  | ⟨0, _⟩ => show win0_2.index t (0 : Fin 2) * 2048 ≤ (i 0).val ∧ (i 0).val < win0_2.index t (0 : Fin 2) * 2048 + 2048; rw [e0]; show (i 0).val / 2048 * 2048 ≤ (i 0).val ∧ (i 0).val < (i 0).val / 2048 * 2048 + 2048; omega
  | ⟨1, _⟩ => show win0_2.index t (1 : Fin 2) * 1024 ≤ (i 1).val ∧ (i 1).val < win0_2.index t (1 : Fin 2) * 1024 + 1024; rw [e1]; omega

/-- THE READ-PATH ARRAY after the first region: the reference's concatenation. -/
theorem final2 : (dat0 (V1 m) c).arrAt 2 cfg0.N = Cert.ReferenceIdeal.ReadP.val_main_v81 (F := Ideal) (X0 m c) (X1 m c) :=
  (dat0 (V1 m) c).arrAt_eq_of_cover 2 _ (fun t _ => flushed2_eq m c t) (cover2)

theorem W4_v1_0 : W4 m c (Proc.devRef .tc main_v1_0) = Cert.ReferenceIdeal.ReadP.val_main_v81 (F := Ideal) (X0 m c) (X1 m c) :=
  (W4_of_ne m c main_v1_0 (by decide)).trans <| (W3_of m c main_v1_0 (by decide)).trans <| (W2_arr m c 2).trans (final2 m c)

/-- THE FIRST RESULT of the idealized kernel is the reference's first result. -/
theorem W5_v39 : W5 m c (Proc.devRef .tc main_v39) = Cert.ReferenceIdeal.ReadP.val_main_v82 (F := Ideal) (X0 m c) (X1 m c) := by
  have h : W5 m c (Proc.devRef .tc main_v39) = shapeCast S32x2048x1024 (W4 m c (Proc.devRef .tc main_v1_0)) shapeCasts_S65536x1024_S32x2048x1024 := by
    show StableHlo.after hostOps2 (W4 m c) (Proc.devRef .tc main_v39) = _
    after_results_simp
    rfl
  rw [h, W4_v1_0]
  rfl

end Cert.KernelIdeal.Hand

end
-- ==== Proof.KI.PayStat.lean ====
/-
  The update-path payloads of both regions at an index. For memory row `j` and a query block: the score of row `j`
  against the block's row `p` is their inner product; the first region's body turns the running maximum `M` and
  running sum `L` of the row into `M' = max M (chunk maximum)` and `L * exp (M - M') + ∑ exp (score - M')`; the second
  region's body forms the hard-shrunk softmax weight of each score from the global maximum and denominator, and adds
  the weights' absolute sum and their product with the query block to its two accumulators.
-/
import proofs.«147958_j26001732010458_2_alg».proof.Proof.KI.PayMM
import proofs.«147958_j26001732010458_2_alg».proof.Proof.LibColumn
import proofs.«147958_j26001732010458_2_alg».proof.Proof.Spec
import Idealize.ShloMosaic.Lib.ValueLayout

noncomputable section

namespace Cert.KernelIdeal.Hand

open Cert.KernelIdeal Cert.KernelIdeal.Gen
open Idealize.ShloMosaic Idealize.ShloMosaic.ValueIdx

/-- A `[64, 1]` column broadcast along 2048 lanes reads, at `(j, p)`, the column's entry of row `j`. -/
theorem colbK {φ : FTy} (v : FVec Ideal S64x1 φ) (j : Fin 64) (p : Fin 2048) :
    broadcastTo S64x2048 v broadcasts_S64x1_S64x2048 (ix2 j p) = v (ix2 j (0 : Fin 1)) :=
  Cert.LibColumn.broadcastTo_a1_ab_apply v broadcasts_S64x1_S64x2048 j p
theorem colK {φ : FTy} (c : FVec Ideal S64 φ) (j : Fin 64) (u : Fin 1) :
    shapeCast S64x1 c shapeCasts_S64_S64x1 (ix2 j u) = c (ix1 j) :=
  Cert.LibColumn.shapeCast_a_a1_apply c shapeCasts_S64_S64x1 j u

/-- A lane sum of a 64 x 2048 block, at row `j`. -/
theorem rsumK (src : FVec Ideal S64x2048 .f32) (j : Fin 64) :
    multiReduction .add [1] S64 src 0x00000000#32 reduces_S64x2048_S64 (.inl rfl) rfl (ix1 j) = ∑ p : Fin 2048, src (ix2 j p) := by
  refine (Ideal.multiReduction_add_single src 0x00000000#32 reduces_S64x2048_S64 (.inl rfl) rfl (ix1 j)).trans ?_
  refine Finset.sum_congr rfl fun p _ => congrArg src ?_
  exact funext fun a => Fin.ext (by match a with | ⟨0, _⟩ => rfl | ⟨1, _⟩ => rfl)
/-- A lane maximum of a 64 x 2048 block, at row `j`. -/
theorem rmaxK (src : FVec Ideal S64x2048 .f32) (j : Fin 64) :
    multiReduction .maximumf [1] S64 src 0xFF800000#32 reduces_S64x2048_S64 (.inl rfl) rfl (ix1 j)
      = Cert.Spec.rowMax (fun p : Fin 2048 => src (ix2 j p)) := by
  refine (Ideal.multiReduction_maximumf_single src 0xFF800000#32 reduces_S64x2048_S64 (.inl rfl) rfl (ix1 j)).trans ?_
  unfold Cert.Spec.rowMax
  refine congrArg (fun f => Finset.univ.fold max _ f) (funext fun p => congrArg src ?_)
  exact funext fun a => Fin.ext (by match a with | ⟨0, _⟩ => rfl | ⟨1, _⟩ => rfl)

/-- The score of memory row `j` against row `p` of a query block. -/
def su (q : Vec Ideal S2048x512 .f32) (mem : Vec Ideal S64x512 .f32) (j : Fin 64) (p : Fin 2048) : EReal :=
  ∑ d : Fin 512, mem (ix2 j d) * q (ix2 p d)

/-! ## The first region -/

theorem pay5_apply (v0 : Vec Ideal S2048x512 .f32) (v2 : Vec Ideal S64x512 .f32) (j : Fin 64) (p : Fin 2048) :
    k0_pay5 v0 v2 (ix2 j p) = su v0 v2 j p := by
  unfold k0_pay5 k0_pay3
  dsimp only
  rw [shapeCast_self]
  exact mm_memqT _ v2 v0 j p

/-- The chunk's row maximum. -/
def cmaxK (v0 : Vec Ideal S2048x512 .f32) (v2 : Vec Ideal S64x512 .f32) (j : Fin 64) : EReal :=
  Cert.Spec.rowMax (fun p : Fin 2048 => su v0 v2 j p)

/-- The new running maximum. -/
theorem pay8_apply (v0 : Vec Ideal S2048x512 .f32) (v2 : Vec Ideal S64x512 .f32) (v10 : Vec Ideal S64x1 .f32) (j : Fin 64) (u : Fin 1) :
    k0_pay8 v0 v2 v10 (ix2 j u) = max (v10 (ix2 j u)) (cmaxK v0 v2 j) := by
  unfold k0_pay8
  dsimp only
  simp only [maximumf, colK]
  rw [rmaxK]
  have hs : (fun p : Fin 2048 => k0_pay5 v0 v2 (ix2 j p)) = fun p => su v0 v2 j p := funext fun p => pay5_apply v0 v2 j p
  rw [hs]
  rfl

theorem pay10_eq (v0 : Vec Ideal S2048x512 .f32) (v2 : Vec Ideal S64x512 .f32) (v10 : Vec Ideal S64x1 .f32) :
    k0_pay10 v0 v2 v10 = k0_pay8 v0 v2 v10 := by
  unfold k0_pay10; exact shapeCast_self _ _

/-- The new running sum. -/
theorem pay9_apply (v0 : Vec Ideal S2048x512 .f32) (v2 : Vec Ideal S64x512 .f32) (v10 v17 : Vec Ideal S64x1 .f32) (j : Fin 64) :
    k0_pay9 v0 v2 v10 v17 (ix2 j (0 : Fin 1))
      = v17 (ix2 j 0) * Ideal.exp (v10 (ix2 j 0) - k0_pay8 v0 v2 v10 (ix2 j 0))
        + ∑ p : Fin 2048, Ideal.exp (su v0 v2 j p - k0_pay8 v0 v2 v10 (ix2 j 0)) := by
  unfold k0_pay9
  dsimp only
  rw [shapeCast_self]
  simp only [divf, mulf, subf, addf, maximumf, absf, Idealize.ShloMosaic.exp, broadcast, colbK, colK]
  repeat (rw [rsumK]; try simp only [divf, mulf, subf, addf, maximumf, absf, Idealize.ShloMosaic.exp, broadcast, colbK, colK])
  have hs : ∀ p : Fin 2048, k0_pay5 v0 v2 (ix2 j p) = su v0 v2 j p := fun p => pay5_apply v0 v2 j p
  simp only [hs]
  rfl

theorem pay6_apply (j : Fin 64) (u : Fin 1) : k0_pay6 (F := Ideal) (ix2 j u) = Cert.Spec.NINF := by
  unfold k0_pay6; rw [shapeCast_self]; rfl
theorem pay7_apply (j : Fin 64) (u : Fin 1) : k0_pay7 (F := Ideal) (ix2 j u) = Cert.Spec.ZERO := by
  unfold k0_pay7; rw [shapeCast_self]; rfl

/-! ## The second region -/

/-- The hard-shrunk softmax weight of memory row `j` on row `p` of the block, from the global maximum and denominator. -/
theorem k1pay8_apply (v3 : Vec Ideal S2048x512 .f32) (v5 : Vec Ideal S64x512 .f32) (v8 v13 : Vec Ideal S64x1 .f32) (j : Fin 64) (p : Fin 2048) :
    k1_pay8 v3 v5 v8 v13 (ix2 j p)
      = Cert.Spec.hshrink (Ideal.div (Ideal.exp (su v3 v5 j p - v8 (ix2 j 0))) (v13 (ix2 j 0))) := by
  unfold k1_pay8 k1_pay6
  dsimp only
  simp only [shapeCast_self]
  simp only [divf, mulf, subf, addf, maximumf, absf, Idealize.ShloMosaic.exp, broadcast, colbK, colK]
  rw [show matmul (F := Ideal) dot_S64x512_S2048x512_S64x2048_1_1_0_0_n_n (some ContractPrecision.fp32) v5 v3 (constant S64x2048 .f32 0x00000000#32) (ix2 j p) = su v3 v5 j p from mm_memqT _ v5 v3 j p]
  rfl

/-- The absolute-sum accumulator's update. -/
theorem k1pay9_apply (v3 : Vec Ideal S2048x512 .f32) (v5 : Vec Ideal S64x512 .f32) (v8 v13 v26 : Vec Ideal S64x1 .f32) (j : Fin 64) :
    k1_pay9 v3 v5 v8 v13 v26 (ix2 j (0 : Fin 1))
      = v26 (ix2 j 0) + ∑ p : Fin 2048, max (k1_pay8 v3 v5 v8 v13 (ix2 j p)) (-(k1_pay8 v3 v5 v8 v13 (ix2 j p))) := by
  unfold k1_pay9
  dsimp only
  rw [shapeCast_self]
  simp only [addf, absf, colK]
  rw [rsumK]
  rfl

/-- The weighted-sum accumulator's update. -/
theorem k1pay1_apply (v3 : Vec Ideal S2048x512 .f32) (v25 : FVec Ideal S64x2048 .f32) (v34 : Vec Ideal S64x512 .f32) (j : Fin 64) (d : Fin 512) :
    k1_pay1 (k1_pay7 v3) v25 v34 (ix2 j d) = v34 (ix2 j d) + ∑ p : Fin 2048, v25 (ix2 j p) * v3 (ix2 p d) := by
  unfold k1_pay1 k1_pay7 k1_pay6
  dsimp only
  simp only [shapeCast_self]
  simp only [addf]
  refine congrArg (v34 (ix2 j d) + ·) ?_
  refine (mm_wq none _ _ j d).trans ?_
  rfl

theorem k1pay4_apply (j : Fin 64) (d : Fin 512) : k1_pay4 (F := Ideal) (ix2 j d) = Cert.Spec.ZERO := by
  unfold k1_pay4; rw [shapeCast_self]; rfl
theorem k1pay5_apply (j : Fin 64) (u : Fin 1) : k1_pay5 (F := Ideal) (ix2 j u) = Cert.Spec.ZERO := by
  unfold k1_pay5; rw [shapeCast_self]; rfl

end Cert.KernelIdeal.Hand

end
-- ==== Proof.LibOnline.lean ====
/-
  General lemmas on the extended reals for a softmax computed chunk by chunk.

  A row of finite scores `s : ι → ℝ` is split into chunks. The ONLINE computation keeps a running maximum `M` and a
  running sum `L` of `exp (s - M)`; a chunk with maximum `m'` and scores `s'` updates them to
  `M' = max M m'` and `L' = L * exp (M - M') + ∑ exp (s' - M')`. Because `exp (x - M) * exp (M - M') = exp (x - M')`
  on the reals, `L'` is again the sum of `exp (· - M')` over everything seen; started from `M = -∞`, `L = 0` (where
  `exp (-∞ - M') = 0` kills the empty prefix), the final pair is the maximum and the softmax denominator of the whole
  row. The same identity combines partial pairs `(M_c, L_c)` of disjoint parts: `∑_c L_c * exp (M_c - G)` with
  `G = max_c M_c` is the denominator at `G`.
-/
import Idealize.ShloMosaic.PureOps.Ideal.Laws

noncomputable section

namespace Cert.LibOnline

open Idealize.ShloMosaic

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals read in the extended reals, folded from `-∞`, is a real when there is at least one. -/
theorem sup_coe_real {ι : Type*} (s : Finset ι) (hs : s.Nonempty) (f : ι → ℝ) :
    ∃ g : ℝ, s.sup (fun i => (f i : EReal)) = (g : EReal) ∧ (∀ i ∈ s, f i ≤ g) := by
  obtain ⟨i, hi, h⟩ := Finset.exists_mem_eq_sup s hs (fun i => (f i : EReal))
  refine ⟨f i, h, fun j hj => ?_⟩
  have : ((f j : ℝ) : EReal) ≤ s.sup (fun i => (f i : EReal)) := Finset.le_sup (f := fun i => (f i : EReal)) hj
  rw [h] at this
  exact EReal.coe_le_coe_iff.mp this

/-- `Finset.fold max ⊥` is the finite supremum. -/
theorem fold_max_eq_sup {ι : Type*} (s : Finset ι) (f : ι → EReal) : s.fold max ⊥ f = s.sup f := rfl

/-- The exponential of a difference of reals, in the extended reals. -/
theorem exp_coe_sub (x y : ℝ) : Ideal.exp ((x : EReal) - (y : EReal)) = ((Real.exp (x - y) : ℝ) : EReal) := by
  rw [← EReal.coe_sub, Ideal.exp_coe]

/-- The exponential of `-∞ - y` is zero. -/
theorem exp_bot_sub (y : ℝ) : Ideal.exp ((⊥ : EReal) - (y : EReal)) = 0 := by
  rw [EReal.bot_sub, Ideal.exp_bot]

/-- ONE ONLINE STEP, from a real running maximum: the rescaled old sum plus the new chunk's sum is the sum over both. -/
theorem online_step {ι κ : Type*} (A : Finset ι) (B : Finset κ) (s : ι → ℝ) (s' : κ → ℝ) (a b : ℝ) :
    (∑ i ∈ A, Ideal.exp ((s i : EReal) - (a : EReal))) * Ideal.exp ((a : EReal) - (b : EReal))
        + ∑ k ∈ B, Ideal.exp ((s' k : EReal) - (b : EReal))
      = ∑ i ∈ A, Ideal.exp ((s i : EReal) - (b : EReal)) + ∑ k ∈ B, Ideal.exp ((s' k : EReal) - (b : EReal)) := by
  congr 1
  simp only [exp_coe_sub]
  rw [← coe_sum, ← coe_sum, ← EReal.coe_mul, Finset.sum_mul]
  congr 1
  refine Finset.sum_congr rfl fun i _ => ?_
  rw [← Real.exp_add]
  congr 1; ring

/-- THE FIRST STEP, from `M = -∞`, `L = 0`: the empty prefix contributes nothing. -/
theorem online_first (b : ℝ) (T : EReal) : (0 : EReal) * Ideal.exp ((⊥ : EReal) - (b : EReal)) + T = T := by
  rw [zero_mul, zero_add]

/-! ## The whole recurrence -/

section Recurrence

variable {P : Type*} [Fintype P] [Nonempty P]

/-- The chunk maximum, folded from `-∞`. -/
def cmax (s : ℕ → P → ℝ) (i : ℕ) : EReal := Finset.univ.sup fun p => (s i p : EReal)

/-- The running maximum after chunk `i`, started from `-∞`. -/
def runM (s : ℕ → P → ℝ) : ℕ → EReal
  | 0 => max ⊥ (cmax s 0)
  | i + 1 => max (runM s i) (cmax s (i + 1))

/-- The running sum after chunk `i`, started from `0` beside the maximum `-∞`. -/
def runL (s : ℕ → P → ℝ) : ℕ → EReal
  | 0 => (0 : EReal) * Ideal.exp ((⊥ : EReal) - runM s 0) + ∑ p, Ideal.exp ((s 0 p : EReal) - runM s 0)
  | i + 1 => runL s i * Ideal.exp (runM s i - runM s (i + 1)) + ∑ p, Ideal.exp ((s (i + 1) p : EReal) - runM s (i + 1))

theorem cmax_real (s : ℕ → P → ℝ) (i : ℕ) : ∃ a : ℝ, cmax s i = (a : EReal) := by
  obtain ⟨g, hg, -⟩ := sup_coe_real (Finset.univ : Finset P) Finset.univ_nonempty (s i)
  exact ⟨g, hg⟩

theorem runM_real (s : ℕ → P → ℝ) : ∀ i, ∃ a : ℝ, runM s i = (a : EReal)
  | 0 => by
    obtain ⟨a, ha⟩ := cmax_real s 0
    exact ⟨a, by show max ⊥ (cmax s 0) = _; rw [ha, max_eq_right bot_le]⟩
  | i + 1 => by
    obtain ⟨a, ha⟩ := runM_real s i
    obtain ⟨b, hb⟩ := cmax_real s (i + 1)
    exact ⟨max a b, by show max (runM s i) (cmax s (i + 1)) = _; rw [ha, hb]; exact (EReal.coe_strictMono.monotone.map_max).symm⟩

/-- The running maximum is the maximum over every chunk seen. -/
theorem runM_eq_sup (s : ℕ → P → ℝ) : ∀ i, runM s i = (Finset.range (i + 1)).sup fun i' => cmax s i'
  | 0 => by
    show max ⊥ (cmax s 0) = _
    rw [max_eq_right bot_le, Finset.range_one, Finset.sup_singleton]
  | i + 1 => by
    show max (runM s i) (cmax s (i + 1)) = _
    rw [runM_eq_sup s i, Finset.range_add_one (n := i + 1), Finset.sup_insert, max_comm]

/-- THE INVARIANT: the running sum is the sum, over every chunk seen, of `exp (score - running maximum)`. -/
theorem runL_eq_sum (s : ℕ → P → ℝ) : ∀ i,
    runL s i = ∑ i' ∈ Finset.range (i + 1), ∑ p, Ideal.exp ((s i' p : EReal) - runM s i)
  | 0 => by
    show (0 : EReal) * Ideal.exp ((⊥ : EReal) - runM s 0) + _ = _
    rw [zero_mul, zero_add, Finset.range_one, Finset.sum_singleton]
  | i + 1 => by
    obtain ⟨a, ha⟩ := runM_real s i
    obtain ⟨b, hb⟩ := runM_real s (i + 1)
    show runL s i * Ideal.exp (runM s i - runM s (i + 1)) + _ = _
    rw [runL_eq_sum s i, Finset.sum_range_succ (n := i + 1), ha, hb]
    congr 1
    -- the seen chunks, rescaled from `a` to `b`
    have hcoe : ∀ (x y : ℝ), Ideal.exp ((x : EReal) - (y : EReal)) = ((Real.exp (x - y) : ℝ) : EReal) := exp_coe_sub
    simp only [hcoe]
    simp only [← coe_sum]
    rw [← EReal.coe_mul, Finset.sum_mul]
    congr 1
    refine Finset.sum_congr rfl fun i' _ => ?_
    rw [Finset.sum_mul]
    refine Finset.sum_congr rfl fun p _ => ?_
    rw [← Real.exp_add]
    congr 1; ring

end Recurrence

end Cert.LibOnline

end
-- ==== Proof.KI.ValStat0.lean ====
/-
  The first region's statistics. For memory row `j` and core `cc`, the two scratch columns hold after chunk `i` the
  running maximum and the running sum of exponentials of the scores of row `j` against the query rows of the core's
  chunks `0 … i`; with finite scores these are the abstract online-softmax pair, so after the core's last chunk the
  maximum and the sum of `exp (score - maximum)` over the core's 32768 query rows. The last chunk copies them to the
  two per-core statistics arrays.
-/
import proofs.«147958_j26001732010458_2_alg».proof.Proof.KI.ValAttn
import proofs.«147958_j26001732010458_2_alg».proof.Proof.KI.PayStat
import proofs.«147958_j26001732010458_2_alg».proof.Proof.LibOnline

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- The score of memory row `j` against query row `n`. -/
def Sc (j : Fin 64) (n : Fin 65536) : EReal :=
  ∑ d : Fin 512, X1 m c (ix2 j d) * Cert.ReferenceIdeal.ReadP.val_main_v0 (F := Ideal) (X0 m c) (ix2 n d)

theorem su_blk (t : Fin cfg0.N) (j : Fin 64) (p : Fin 2048) :
    su (iblk0 (V1 m) c 0 t) (iblk0 (V1 m) c 1 t) j p = Sc m c j (rowOf t p) := by
  unfold su Sc
  exact Finset.sum_congr rfl fun d _ => by rw [q_blk, mem_blk]

/-- The running maximum and the running sum in scratch after the point at position `n`. -/
def M0 (n : ℕ) (hn : n < cfg0.N) (j : Fin 64) : EReal := (outsAt0 (V1 m) c n hn).2.2.2.2.1 (ix2 j (0 : Fin 1))
def L0 (n : ℕ) (hn : n < cfg0.N) (j : Fin 64) : EReal := (outsAt0 (V1 m) c n hn).2.2.2.2.2 (ix2 j (0 : Fin 1))
/-- A chunk's row maximum. -/
def cm0 (t : Fin cfg0.N) (j : Fin 64) : EReal := Cert.Spec.rowMax fun p : Fin 2048 => Sc m c j (rowOf t p)

theorem cmaxK_blk (t : Fin cfg0.N) (j : Fin 64) :
    cmaxK (iblk0 (V1 m) c 0 t) (iblk0 (V1 m) c 1 t) j = cm0 m c t j := by
  unfold cmaxK cm0
  exact congrArg Cert.Spec.rowMax (funext fun p => su_blk m c t j p)

theorem M0_first (t : Fin cfg0.N) (h0 : t.val % 16 = 0) (j : Fin 64) :
    M0 m c t.val t.isLt j = max Cert.Spec.NINF (cm0 m c t j) := by
  unfold M0
  rw [At0.s0_first (V1 m) c t h0, pay10_eq, pay8_apply, pay6_apply, cmaxK_blk]

theorem M0_next (t : Fin cfg0.N) (h0 : ¬t.val % 16 = 0) (j : Fin 64) :
    M0 m c t.val t.isLt j = max (M0 m c (t.val - 1) (Nat.lt_of_le_of_lt (Nat.sub_le _ _) t.isLt) j) (cm0 m c t j) := by
  unfold M0
  rw [At0.s0_next (V1 m) c t h0, pay10_eq, pay8_apply, cmaxK_blk]

theorem L0_first (t : Fin cfg0.N) (h0 : t.val % 16 = 0) (j : Fin 64) :
    L0 m c t.val t.isLt j = Cert.Spec.ZERO * Ideal.exp (Cert.Spec.NINF - M0 m c t.val t.isLt j)
      + ∑ p : Fin 2048, Ideal.exp (Sc m c j (rowOf t p) - M0 m c t.val t.isLt j) := by
  have e : k0_pay8 (iblk0 (V1 m) c 0 t) (iblk0 (V1 m) c 1 t) (k0_pay6 (F := Ideal)) (ix2 j (0 : Fin 1)) = M0 m c t.val t.isLt j := by
    unfold M0; rw [At0.s0_first (V1 m) c t h0, pay10_eq]
  unfold L0
  rw [At0.s1_first (V1 m) c t h0, pay9_apply, e, pay6_apply, pay7_apply]
  exact congrArg (_ + ·) (Finset.sum_congr rfl fun p _ => by rw [su_blk])

theorem L0_next (t : Fin cfg0.N) (h0 : ¬t.val % 16 = 0) (j : Fin 64) :
    L0 m c t.val t.isLt j
      = L0 m c (t.val - 1) (Nat.lt_of_le_of_lt (Nat.sub_le _ _) t.isLt) j
          * Ideal.exp (M0 m c (t.val - 1) (Nat.lt_of_le_of_lt (Nat.sub_le _ _) t.isLt) j - M0 m c t.val t.isLt j)
        + ∑ p : Fin 2048, Ideal.exp (Sc m c j (rowOf t p) - M0 m c t.val t.isLt j) := by
  have e : k0_pay8 (iblk0 (V1 m) c 0 t) (iblk0 (V1 m) c 1 t)
      ((outsAt0 (V1 m) c (t.val - 1) (Nat.lt_of_le_of_lt (Nat.sub_le _ _) t.isLt)).2.2.2.2.1) (ix2 j (0 : Fin 1)) = M0 m c t.val t.isLt j := by
    unfold M0; rw [At0.s0_next (V1 m) c t h0, pay10_eq]
  unfold L0
  rw [At0.s1_next (V1 m) c t h0, pay9_apply, e]
  unfold M0
  exact congrArg (_ + ·) (Finset.sum_congr rfl fun p _ => by rw [su_blk])

end Cert.KernelIdeal.Hand

end
-- ==== Proof.KI.ValStat0b.lean ====
/-
  The first region's statistics under finite scores. Write the score of memory row `j` against query row `n` as a
  real `sc j n`. For core `cc` the scratch pair after the core's chunk `i` is the abstract online pair
  (`LibOnline.runM`, `runL`) of the chunked scores `i, p ↦ sc j (2048 (16 cc + i) + p)`: by induction on `i`, the first
  chunk from the reset values (minus infinity, zero), a later chunk from the pair the chunk before left.
-/
import proofs.«147958_j26001732010458_2_alg».proof.Proof.KI.ValStat0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibOnline

variable (m : (ℓ : Loc nD τ sig) → Buf (Elt Ideal) ℓ) (c : Dev nD)
variable (sc : Fin 64 → Fin 65536 → ℝ)

theorem ninf_bot : Cert.Spec.NINF = (⊥ : EReal) := by simp [Cert.Spec.NINF, Ideal.ofBits, Ideal.ieee]
theorem zero_zero : Cert.Spec.ZERO = (0 : EReal) := Ideal.ofBits_zero_f32

/-- Point `16 cc + i` of the grid (`i` taken modulo 16). -/
def tOf (cc : Fin 2) (i : ℕ) : Fin cfg0.N :=
  ⟨16 * cc.val + i % 16, by rw [show cfg0.N = 32 from N_0]; have := cc.isLt; have := Nat.mod_lt i (by norm_num : 16 > 0); omega⟩

/-- Core `cc`'s scores of memory row `j`, chunk by chunk. -/
def chs (cc : Fin 2) (j : Fin 64) : ℕ → Fin 2048 → ℝ := fun i p => sc j (rowOf (tOf cc i) p)

theorem M0_congr {n n' : ℕ} (h : n = n') (hn : n < cfg0.N) (hn' : n' < cfg0.N) (j : Fin 64) : M0 m c n hn j = M0 m c n' hn' j := by
  subst h; rfl
theorem L0_congr {n n' : ℕ} (h : n = n') (hn : n < cfg0.N) (hn' : n' < cfg0.N) (j : Fin 64) : L0 m c n hn j = L0 m c n' hn' j := by
  subst h; rfl

theorem cm0_eq (hS : ∀ j n, Sc m c j n = (sc j n : EReal)) (cc : Fin 2) (j : Fin 64) (i : ℕ) :
    cm0 m c (tOf cc i) j = cmax (chs sc cc j) i := by
  unfold cm0 Cert.Spec.rowMax cmax chs
  rw [ninf_bot]
  simp only [hS]
  rfl

theorem sumexp_eq (hS : ∀ j n, Sc m c j n = (sc j n : EReal)) (cc : Fin 2) (j : Fin 64) (i : ℕ) (M : EReal) :
    (∑ p : Fin 2048, Ideal.exp (Sc m c j (rowOf (tOf cc i) p) - M)) = ∑ p : Fin 2048, Ideal.exp ((chs sc cc j i p : EReal) - M) := by
  unfold chs; simp only [hS]

/-- THE SCRATCH PAIR IS THE ABSTRACT ONLINE PAIR. -/
theorem ML0_run (hS : ∀ j n, Sc m c j n = (sc j n : EReal)) (cc : Fin 2) (j : Fin 64) :
    ∀ i : ℕ, i < 16 → M0 m c (tOf cc i).val (tOf cc i).isLt j = runM (chs sc cc j) i
        ∧ L0 m c (tOf cc i).val (tOf cc i).isLt j = runL (chs sc cc j) i
  | 0, _ => by
    have h0 : (tOf cc 0).val % 16 = 0 := by show (16 * cc.val + 0 % 16) % 16 = 0; omega
    have hM : M0 m c (tOf cc 0).val (tOf cc 0).isLt j = runM (chs sc cc j) 0 := by
      rw [M0_first m c (tOf cc 0) h0 j, cm0_eq m c sc hS, ninf_bot]; rfl
    refine ⟨hM, ?_⟩
    rw [L0_first m c (tOf cc 0) h0 j, hM, sumexp_eq m c sc hS, ninf_bot, zero_zero]
    rfl
  | i + 1, hi => by
    obtain ⟨ihM, ihL⟩ := ML0_run hS cc j i (by omega)
    have hv : (tOf cc (i + 1)).val = 16 * cc.val + (i + 1) := by show 16 * cc.val + (i + 1) % 16 = _; rw [Nat.mod_eq_of_lt hi]
    have hv' : (tOf cc i).val = 16 * cc.val + i := by show 16 * cc.val + i % 16 = _; rw [Nat.mod_eq_of_lt (by omega)]
    have h0 : ¬(tOf cc (i + 1)).val % 16 = 0 := by rw [hv]; omega
    have hp : (tOf cc (i + 1)).val - 1 = (tOf cc i).val := by rw [hv, hv']; omega
    have hM : M0 m c (tOf cc (i + 1)).val (tOf cc (i + 1)).isLt j = runM (chs sc cc j) (i + 1) := by
      rw [M0_next m c (tOf cc (i + 1)) h0 j, M0_congr m c hp _ (tOf cc i).isLt j, ihM, cm0_eq m c sc hS]; rfl
    refine ⟨hM, ?_⟩
    rw [L0_next m c (tOf cc (i + 1)) h0 j, hM, L0_congr m c hp _ (tOf cc i).isLt j, M0_congr m c hp _ (tOf cc i).isLt j, ihM, ihL,
      sumexp_eq m c sc hS]
    rfl

end Cert.KernelIdeal.Hand

end
-- ==== Proof.KI.ValStat0c.lean ====
/-
  The two per-core statistics arrays after the first region: entry `(cc, j, 0)` of each is what core `cc`'s last chunk
  copied out of its scratch column — the running maximum, respectively the running sum, after all sixteen chunks.
-/
import proofs.«147958_j26001732010458_2_alg».proof.Proof.KI.ValStat0b
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-! ## Window 4 of region 0: the per-core array `main_v1_2` -/

theorem idx0_4_facts : ∀ t : Fin cfg0.N, win0_4.index t (0 : Fin 3) = t.val / 16 ∧ win0_4.index t (1 : Fin 3) = 0 ∧ win0_4.index t (2 : Fin 3) = 0 :=
  (by decide +kernel : ∀ t : Fin grid0.N, _)

/-- What the array holds after the region: entry `(cc, j, 0)` is core `cc`'s value after its last chunk. -/
def G0_4 : S2x64x1.Idx → EReal := fun i => M0 m c (16 * (i 0).val + 15) (by rw [show cfg0.N = 32 from N_0]; show 16 * (i 0).val + 15 < 32; have h2 : (i 0).val < 2 := (i 0).isLt; omega) ⟨(i 1).val, (i 1).isLt⟩

theorem flushed0_4_eq (t : Fin cfg0.N) (hf : (cfg0.win 4).flush t = true) :
    (dat0 (V1 m) c).flushed 4 t = ((cfg0.win 4).blk t).view.read (Elt Ideal) (G0_4 m c) := by
  have h15 : t.val % 16 = 15 := (flush0_4 t).mp hf
  show (cfg0.win 4).cut (grid0.coords t) ((dat0 (V1 m) c).after 4 t) = _
  rw [after0_4, At0.o4_last (V1 m) c t h15]
  funext y
  obtain ⟨u, j, k, rfl⟩ : ∃ (u : Fin 1) (j : Fin 64) (k : Fin 1), y = ix3 u j k := ⟨y 0, y 1, y 2, eq_ix3 y⟩
  show k0_pay11 (F := Ideal) _ (ix3 u j k) = G0_4 m c (((cfg0.win 4).blk t).view.emb (ix3 u j k))
  have he : ((cfg0.win 4).blk t).view.emb (ix3 u j k) = ix3 (⟨t.val / 16, by have := lt_of_lt_of_eq t.isLt (show cfg0.N = 32 from N_0); omega⟩ : Fin 2) j k := funext fun a => Fin.ext (by
    obtain ⟨e0, e1, e2⟩ := idx0_4_facts t
    have hu : u.val = 0 := by omega
    match a with
    | ⟨0, _⟩ => show win0_4.index t (0 : Fin 3) * 1 + 1 * u.val = t.val / 16; omega
    | ⟨1, _⟩ => show win0_4.index t (1 : Fin 3) * 64 + 1 * j.val = j.val; omega
    | ⟨2, _⟩ => show win0_4.index t (2 : Fin 3) * 1 + 1 * k.val = k.val; omega)
  rw [he]
  unfold k0_pay11
  refine (Idealize.ShloMosaic.ValueIdx.shapeCast_ab_1ab_apply _ _ u j k).trans ?_
  have hk : k = 0 := Fin.fin_one_eq_zero k
  subst hk
  show M0 m c t.val t.isLt j = M0 m c (16 * (t.val / 16) + 15) _ j
  exact M0_congr m c (by omega) _ _ j

theorem mem_blk0_4 (t : Fin cfg0.N) (i : S2x64x1.Idx) :
    i ∈ ((cfg0.win 4).blk t).view.set ↔ ∀ a : Fin 3, win0_4.index t a * S1x64x1.size a ≤ (i a).val ∧ (i a).val < win0_4.index t a * S1x64x1.size a + S1x64x1.size a := by
  show i ∈ ((View.whole main_v1_2).slice (win0_4.rect t)).set ↔ _
  rw [View.set_slice_whole, Rect.mem_set_unit]
  exact Iff.rfl

theorem cover0_4 (i : S2x64x1.Idx) : ∃ t : Fin cfg0.N, (cfg0.win 4).flush t = true ∧ i ∈ ((cfg0.win 4).blk t).view.set := by
  have hi0 : (i 0).val < 2 := (i 0).isLt
  have hi1 : (i 1).val < 64 := (i 1).isLt
  have hi2 : (i 2).val < 1 := (i 2).isLt
  let t : Fin cfg0.N := ⟨16 * (i 0).val + 15, by rw [show cfg0.N = 32 from N_0]; omega⟩
  refine ⟨t, (flush0_4 t).mpr (by show (16 * (i 0).val + 15) % 16 = 15; omega), ?_⟩
  rw [mem_blk0_4]
  obtain ⟨e0, e1, e2⟩ := idx0_4_facts t
  intro a
  match a with
  | ⟨0, _⟩ => show win0_4.index t (0 : Fin 3) * 1 ≤ (i 0).val ∧ (i 0).val < win0_4.index t (0 : Fin 3) * 1 + 1; rw [e0]; show (16 * (i 0).val + 15) / 16 * 1 ≤ (i 0).val ∧ (i 0).val < (16 * (i 0).val + 15) / 16 * 1 + 1; omega
  | ⟨1, _⟩ => show win0_4.index t (1 : Fin 3) * 64 ≤ (i 1).val ∧ (i 1).val < win0_4.index t (1 : Fin 3) * 64 + 64; rw [e1]; omega
  | ⟨2, _⟩ => show win0_4.index t (2 : Fin 3) * 1 ≤ (i 2).val ∧ (i 2).val < win0_4.index t (2 : Fin 3) * 1 + 1; rw [e2]; omega

/-- THE ARRAY after the region. -/
theorem final0_4 : (dat0 (V1 m) c).arrAt 4 cfg0.N = G0_4 m c :=
  (dat0 (V1 m) c).arrAt_eq_of_cover 4 _ (fun t hf => flushed0_4_eq m c t hf) (cover0_4)

/-! ## Window 5 of region 0: the per-core array `main_v1_3` -/

theorem idx0_5_facts : ∀ t : Fin cfg0.N, win0_5.index t (0 : Fin 3) = t.val / 16 ∧ win0_5.index t (1 : Fin 3) = 0 ∧ win0_5.index t (2 : Fin 3) = 0 :=
  (by decide +kernel : ∀ t : Fin grid0.N, _)

/-- What the array holds after the region: entry `(cc, j, 0)` is core `cc`'s value after its last chunk. -/
def G0_5 : S2x64x1.Idx → EReal := fun i => L0 m c (16 * (i 0).val + 15) (by rw [show cfg0.N = 32 from N_0]; show 16 * (i 0).val + 15 < 32; have h2 : (i 0).val < 2 := (i 0).isLt; omega) ⟨(i 1).val, (i 1).isLt⟩

theorem flushed0_5_eq (t : Fin cfg0.N) (hf : (cfg0.win 5).flush t = true) :
    (dat0 (V1 m) c).flushed 5 t = ((cfg0.win 5).blk t).view.read (Elt Ideal) (G0_5 m c) := by
  have h15 : t.val % 16 = 15 := (flush0_5 t).mp hf
  show (cfg0.win 5).cut (grid0.coords t) ((dat0 (V1 m) c).after 5 t) = _
  rw [after0_5, At0.o5_last (V1 m) c t h15]
  funext y
  obtain ⟨u, j, k, rfl⟩ : ∃ (u : Fin 1) (j : Fin 64) (k : Fin 1), y = ix3 u j k := ⟨y 0, y 1, y 2, eq_ix3 y⟩
  show k0_pay12 (F := Ideal) _ (ix3 u j k) = G0_5 m c (((cfg0.win 5).blk t).view.emb (ix3 u j k))
  have he : ((cfg0.win 5).blk t).view.emb (ix3 u j k) = ix3 (⟨t.val / 16, by have := lt_of_lt_of_eq t.isLt (show cfg0.N = 32 from N_0); omega⟩ : Fin 2) j k := funext fun a => Fin.ext (by
    obtain ⟨e0, e1, e2⟩ := idx0_5_facts t
    have hu : u.val = 0 := by omega
    match a with
    | ⟨0, _⟩ => show win0_5.index t (0 : Fin 3) * 1 + 1 * u.val = t.val / 16; omega
    | ⟨1, _⟩ => show win0_5.index t (1 : Fin 3) * 64 + 1 * j.val = j.val; omega
    | ⟨2, _⟩ => show win0_5.index t (2 : Fin 3) * 1 + 1 * k.val = k.val; omega)
  rw [he]
  unfold k0_pay12
  refine (Idealize.ShloMosaic.ValueIdx.shapeCast_ab_1ab_apply _ _ u j k).trans ?_
  have hk : k = 0 := Fin.fin_one_eq_zero k
  subst hk
  show L0 m c t.val t.isLt j = L0 m c (16 * (t.val / 16) + 15) _ j
  exact L0_congr m c (by omega) _ _ j

theorem mem_blk0_5 (t : Fin cfg0.N) (i : S2x64x1.Idx) :
    i ∈ ((cfg0.win 5).blk t).view.set ↔ ∀ a : Fin 3, win0_5.index t a * S1x64x1.size a ≤ (i a).val ∧ (i a).val < win0_5.index t a * S1x64x1.size a + S1x64x1.size a := by
  show i ∈ ((View.whole main_v1_3).slice (win0_5.rect t)).set ↔ _
  rw [View.set_slice_whole, Rect.mem_set_unit]
  exact Iff.rfl

theorem cover0_5 (i : S2x64x1.Idx) : ∃ t : Fin cfg0.N, (cfg0.win 5).flush t = true ∧ i ∈ ((cfg0.win 5).blk t).view.set := by
  have hi0 : (i 0).val < 2 := (i 0).isLt
  have hi1 : (i 1).val < 64 := (i 1).isLt
  have hi2 : (i 2).val < 1 := (i 2).isLt
  let t : Fin cfg0.N := ⟨16 * (i 0).val + 15, by rw [show cfg0.N = 32 from N_0]; omega⟩
  refine ⟨t, (flush0_5 t).mpr (by show (16 * (i 0).val + 15) % 16 = 15; omega), ?_⟩
  rw [mem_blk0_5]
  obtain ⟨e0, e1, e2⟩ := idx0_5_facts t
  intro a
  match a with
  | ⟨0, _⟩ => show win0_5.index t (0 : Fin 3) * 1 ≤ (i 0).val ∧ (i 0).val < win0_5.index t (0 : Fin 3) * 1 + 1; rw [e0]; show (16 * (i 0).val + 15) / 16 * 1 ≤ (i 0).val ∧ (i 0).val < (16 * (i 0).val + 15) / 16 * 1 + 1; omega
  | ⟨1, _⟩ => show win0_5.index t (1 : Fin 3) * 64 ≤ (i 1).val ∧ (i 1).val < win0_5.index t (1 : Fin 3) * 64 + 64; rw [e1]; omega
  | ⟨2, _⟩ => show win0_5.index t (2 : Fin 3) * 1 ≤ (i 2).val ∧ (i 2).val < win0_5.index t (2 : Fin 3) * 1 + 1; rw [e2]; omega

/-- THE ARRAY after the region. -/
theorem final0_5 : (dat0 (V1 m) c).arrAt 5 cfg0.N = G0_5 m c :=
  (dat0 (V1 m) c).arrAt_eq_of_cover 5 _ (fun t hf => flushed0_5_eq m c t hf) (cover0_5)

end Cert.KernelIdeal.Hand

end
-- ==== Proof.KI.Host1.lean ====
/-
  The host stretch between the regions. It combines the two cores' statistics of each memory row: the global maximum
  is the larger of the two cores' maxima, and the global sum is each core's sum rescaled by
  `exp (core maximum - global maximum)`, added up from the zero word.
-/
import proofs.«147958_j26001732010458_2_alg».proof.Proof.KI.ValStat0c

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- Core `cc`'s maximum and sum for memory row `j`, as the first region leaves them. -/
def Mc (cc : Fin 2) (j : Fin 64) : EReal := W2 m c (Proc.devRef .tc main_v1_2) (ix3 cc j (0 : Fin 1))
def Lc (cc : Fin 2) (j : Fin 64) : EReal := W2 m c (Proc.devRef .tc main_v1_3) (ix3 cc j (0 : Fin 1))

theorem Mc_eq (cc : Fin 2) (j : Fin 64) :
    Mc m c cc j = M0 m c (16 * cc.val + 15) (by rw [show cfg0.N = 32 from N_0]; have := cc.isLt; omega) j := by
  unfold Mc
  rw [W2_arr m c 4, final0_4]
  rfl
theorem Lc_eq (cc : Fin 2) (j : Fin 64) :
    Lc m c cc j = L0 m c (16 * cc.val + 15) (by rw [show cfg0.N = 32 from N_0]; have := cc.isLt; omega) j := by
  unfold Lc
  rw [W2_arr m c 5, final0_5]
  rfl

/-- The global maximum of memory row `j`. -/
theorem W3_v9_apply (j : Fin 64) :
    W3 m c (Proc.devRef .tc main_v9) (ix2 j (0 : Fin 1)) = Finset.univ.fold max Cert.Spec.NINF (fun cc : Fin 2 => Mc m c cc j) := by
  have e : W3 m c (Proc.devRef .tc main_v9) = shapeCast S64x1 (broadcastInDim S1x64x1 ![1, 2] bcast_S64x1_S1x64x1_1_2
      (Host.reduce FloatOps.maximumf (W2 m c (Proc.devRef .tc main_v1_2) : FVec Ideal S2x64x1 .f32) (constant (F := Ideal) S_ .f32 0xFF800000#32) reducesTo_S2x64x1_S64x1_d0 h_S_)) shapeCasts_S1x64x1_S64x1 := by
    show StableHlo.after hostOps1 (W2 m c) (Proc.devRef .tc main_v9) = _
    after_results
    rfl
  rw [e]
  refine (Idealize.ShloMosaic.ValueIdx.shapeCast_1ab_ab_apply _ _ j 0).trans ?_
  refine (broadcastInDim_apply _ bcast_S64x1_S1x64x1_1_2 _ (ix3 (0 : Fin 1) j (0 : Fin 1)) (ix2 j (0 : Fin 1)) (fun a => by
    match a with
    | ⟨0, _⟩ => show j.val = if (64 : ℕ) = 1 then 0 else j.val; rw [if_neg (by decide)]
    | ⟨1, _⟩ => show (0 : ℕ) = if (1 : ℕ) = 1 then 0 else 0; rw [if_pos rfl])).trans ?_
  refine (Host.reduce_eq_fold_single (α := EReal) max _ _ reducesTo_S2x64x1_S64x1_d0 (by decide) h_S_ (ix2 j (0 : Fin 1))).trans ?_
  refine congrArg (fun f => Finset.univ.fold max _ f) (funext fun cc => ?_)
  unfold Mc
  exact congrArg _ (funext fun a => Fin.ext (by match a with | ⟨0, _⟩ => rfl | ⟨1, _⟩ => rfl | ⟨2, _⟩ => rfl))

/-- The global sum of memory row `j`. -/
theorem W3_v8_apply (j : Fin 64) :
    W3 m c (Proc.devRef .tc main_v8) (ix2 j (0 : Fin 1))
      = Cert.Spec.ZERO + ∑ cc : Fin 2, Lc m c cc j * Ideal.exp (Mc m c cc j - W3 m c (Proc.devRef .tc main_v9) (ix2 j (0 : Fin 1))) := by
  have e9 : W3 m c (Proc.devRef .tc main_v9) = shapeCast S64x1 (W3 m c (Proc.devRef .tc main_v3) : FVec Ideal S1x64x1 .f32) shapeCasts_S1x64x1_S64x1 := by
    show StableHlo.after hostOps1 (W2 m c) (Proc.devRef .tc main_v9) = shapeCast S64x1 (StableHlo.after hostOps1 (W2 m c) (Proc.devRef .tc main_v3) : FVec Ideal S1x64x1 .f32) _
    after_results
    rfl
  have e : W3 m c (Proc.devRef .tc main_v8) = Host.reduceAdd (mulf (W2 m c (Proc.devRef .tc main_v1_3) : FVec Ideal S2x64x1 .f32)
      (Host.exp (subf (W2 m c (Proc.devRef .tc main_v1_2) : FVec Ideal S2x64x1 .f32) (broadcastInDim S2x64x1 ![0, 1, 2] bcast_S1x64x1_S2x64x1_0_1_2 (W3 m c (Proc.devRef .tc main_v3) : FVec Ideal S1x64x1 .f32)))))
      (constant (F := Ideal) S_ .f32 0x00000000#32) reducesTo_S2x64x1_S64x1_d0 h_S_ := by
    show StableHlo.after hostOps1 (W2 m c) (Proc.devRef .tc main_v8) = Host.reduceAdd (mulf (W2 m c (Proc.devRef .tc main_v1_3) : FVec Ideal S2x64x1 .f32) (Host.exp (subf (W2 m c (Proc.devRef .tc main_v1_2) : FVec Ideal S2x64x1 .f32) (broadcastInDim S2x64x1 ![0, 1, 2] bcast_S1x64x1_S2x64x1_0_1_2 (StableHlo.after hostOps1 (W2 m c) (Proc.devRef .tc main_v3) : FVec Ideal S1x64x1 .f32))))) (constant (F := Ideal) S_ .f32 0x00000000#32) reducesTo_S2x64x1_S64x1_d0 h_S_
    after_results
  rw [e, e9]
  simp only [Host.reduceAdd, Ideal.hostReduceAdd_def]
  rw [Ideal.hostReduceAdd_single reducesTo_S2x64x1_S64x1_d0 (by decide)]
  refine congrArg₂ (· + ·) rfl (Finset.sum_congr rfl fun (cc : Fin 2) _ => ?_)
  have hl : (by decide : S2x64x1.Reduces [0] S64x1).lift (ix2 j (0 : Fin 1)) cc = ix3 cc j (0 : Fin 1) := funext fun a => Fin.ext (by match a with | ⟨0, _⟩ => rfl | ⟨1, _⟩ => rfl | ⟨2, _⟩ => rfl)
  rw [hl]
  simp only [mulf, subf, Host.exp]
  rw [broadcastInDim_apply ![0, 1, 2] bcast_S1x64x1_S2x64x1_0_1_2 _ (ix3 cc j (0 : Fin 1)) (ix3 (0 : Fin 1) j (0 : Fin 1)) (fun a => by
    match a with
    | ⟨0, _⟩ => show (0 : ℕ) = if (1 : ℕ) = 1 then 0 else cc.val; rw [if_pos rfl]
    | ⟨1, _⟩ => show j.val = if (64 : ℕ) = 1 then 0 else j.val; rw [if_neg (by decide)]
    | ⟨2, _⟩ => show (0 : ℕ) = if (1 : ℕ) = 1 then 0 else 0; rw [if_pos rfl]),
    Idealize.ShloMosaic.ValueIdx.shapeCast_1ab_ab_apply _ _ j 0]
  rfl

end Cert.KernelIdeal.Hand

end
-- ==== Proof.KI.Pieces1.lean ====
/-
  What each control case of the second region leaves in each buffer, as a plain function of what the body loaded:
  the symbolic run's pieces for a buffer are one store through the whole buffer (at a core's first chunk two, the
  reset store first and the update last, which wins), so reading them back gives the stored payload; a value the body
  loads from a scratch buffer after storing into it is the stored payload again.
-/
import proofs.«147958_j26001732010458_2_alg».proof.Proof.KI.Frame1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2'' : (![0, 0] : Fin 2 → Nat) = fun _ => 0 := funext fun a => by fin_cases a <;> rfl
theorem hz3'' : (![0, 0, 0] : Fin 3 → Nat) = fun _ => 0 := funext fun a => by fin_cases a <;> rfl

theorem sout1_A_0_eq (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) :
    sout1_A_0 c i arg2 harg2 arg3 harg3 arg4 harg4 arg5 harg5 arg6 harg6 arg7 harg7 arg8 harg8 arg9 harg9 hc0 hc1 x0 x1 x2 x3 = k1_pay1 (k1_pay7 x0) (k1_pay8 x0 x1 x2 x3) (k1_pay4 (F := F)) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero hz2'']
  simp only [View.readAt_eq_ld, harg2.read_unread, harg3.read_unread, harg4.read_unread, harg5.read_unread, harg8.read_unread, harg9.read_unread, View.ld_unit_zero (S := S2048x512) hz2'', View.ld_unit_zero (S := S64x512) hz2'', View.ld_unit_zero (S := S64x1) hz2'', View.ld_unit_zero (S := S1x64x512) hz3'', View.ld_unit_zero (S := S1x64x1) hz3'', View.readCov_unit_zero (S := S64x1) _ hz2'', View.readCov_unit_zero (S := S64x512) _ hz2'']
  all_goals (try rfl)

theorem sout1_A_1_eq (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : cond1_0 i) (hc1 : ¬cond1_1 i)
    (x0 : Vec F S2048x512 .f32) (x1 : Vec F S64x512 .f32) (x2 : Vec F S64x1 .f32) (x3 : Vec F S64x1 .f32) :
    sout1_A_1 c i arg2 harg2 arg3 harg3 arg4 harg4 arg5 harg5 arg6 harg6 arg7 harg7 arg8 harg8 arg9 harg9 hc0 hc1 x0 x1 x2 x3 = k1_pay9 x0 x1 x2 x3 (k1_pay5 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero hz2'']
  simp only [View.readAt_eq_ld, harg2.read_unread, harg3.read_unread, harg4.read_unread, harg5.read_unread, harg8.read_unread, harg9.read_unread, View.ld_unit_zero (S := S2048x512) hz2'', View.ld_unit_zero (S := S64x512) hz2'', View.ld_unit_zero (S := S64x1) hz2'', View.ld_unit_zero (S := S1x64x512) hz3'', View.ld_unit_zero (S := S1x64x1) hz3'', View.readCov_unit_zero (S := S64x1) _ hz2'', View.readCov_unit_zero (S := S64x512) _ hz2'']
  all_goals (try rfl)

theorem sout1_B_0_eq (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) :
    sout1_B_0 c i arg2 harg2 arg3 harg3 arg4 harg4 arg5 harg5 arg6 harg6 arg7 harg7 arg8 harg8 arg9 harg9 hc0 hc1 x0 x1 x2 x3 xs0 xs1 = k1_pay1 (k1_pay7 x0) (k1_pay8 x0 x1 x2 x3) xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_cons_unit_zero hz2'']
  simp only [View.readAt_eq_ld, harg2.read_unread, harg3.read_unread, harg4.read_unread, harg5.read_unread, harg8.read_unread, harg9.read_unread, View.ld_unit_zero (S := S2048x512) hz2'', View.ld_unit_zero (S := S64x512) hz2'', View.ld_unit_zero (S := S64x1) hz2'', View.ld_unit_zero (S := S1x64x512) hz3'', View.ld_unit_zero (S := S1x64x1) hz3'', View.readCov_unit_zero (S := S64x1) _ hz2'', View.readCov_unit_zero (S := S64x512) _ hz2'']
  all_goals (try rfl)

theorem sout1_B_1_eq (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : ¬cond1_1 i)
    (x0 : Vec F S2048x512 .f32) (x1 : Vec F S64x512 .f32) (x2 : Vec F S64x1 .f32) (x3 : Vec F S64x1 .f32) (xs0 : Vec F S64x512 .f32) (xs1 : Vec F S64x1 .f32) :
    sout1_B_1 c i arg2 harg2 arg3 harg3 arg4 harg4 arg5 harg5 arg6 harg6 arg7 harg7 arg8 harg8 arg9 harg9 hc0 hc1 x0 x1 x2 x3 xs0 xs1 = k1_pay9 x0 x1 x2 x3 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_cons_unit_zero hz2'']
  simp only [View.readAt_eq_ld, harg2.read_unread, harg3.read_unread, harg4.read_unread, harg5.read_unread, harg8.read_unread, harg9.read_unread, View.ld_unit_zero (S := S2048x512) hz2'', View.ld_unit_zero (S := S64x512) hz2'', View.ld_unit_zero (S := S64x1) hz2'', View.ld_unit_zero (S := S1x64x512) hz3'', View.ld_unit_zero (S := S1x64x1) hz3'', View.readCov_unit_zero (S := S64x1) _ hz2'', View.readCov_unit_zero (S := S64x512) _ hz2'']
  all_goals (try rfl)

theorem sout1_C_0_eq (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) :
    sout1_C_0 c i arg2 harg2 arg3 harg3 arg4 harg4 arg5 harg5 arg6 harg6 arg7 harg7 arg8 harg8 arg9 harg9 hc0 hc1 x0 x1 x2 x3 xs0 xs1 = k1_pay1 (k1_pay7 x0) (k1_pay8 x0 x1 x2 x3) xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_cons_unit_zero hz2'']
  simp only [View.readAt_eq_ld, harg2.read_unread, harg3.read_unread, harg4.read_unread, harg5.read_unread, harg8.read_unread, harg9.read_unread, View.ld_unit_zero (S := S2048x512) hz2'', View.ld_unit_zero (S := S64x512) hz2'', View.ld_unit_zero (S := S64x1) hz2'', View.ld_unit_zero (S := S1x64x512) hz3'', View.ld_unit_zero (S := S1x64x1) hz3'', View.readCov_unit_zero (S := S64x1) _ hz2'', View.readCov_unit_zero (S := S64x512) _ hz2'']
  all_goals (try rfl)

theorem sout1_C_1_eq (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) :
    sout1_C_1 c i arg2 harg2 arg3 harg3 arg4 harg4 arg5 harg5 arg6 harg6 arg7 harg7 arg8 harg8 arg9 harg9 hc0 hc1 x0 x1 x2 x3 xs0 xs1 = k1_pay9 x0 x1 x2 x3 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_cons_unit_zero hz2'']
  simp only [View.readAt_eq_ld, harg2.read_unread, harg3.read_unread, harg4.read_unread, harg5.read_unread, harg8.read_unread, harg9.read_unread, View.ld_unit_zero (S := S2048x512) hz2'', View.ld_unit_zero (S := S64x512) hz2'', View.ld_unit_zero (S := S64x1) hz2'', View.ld_unit_zero (S := S1x64x512) hz3'', View.ld_unit_zero (S := S1x64x1) hz3'', View.readCov_unit_zero (S := S64x1) _ hz2'', View.readCov_unit_zero (S := S64x512) _ hz2'']
  all_goals (try rfl)

theorem out1_C_4_eq (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) :
    out1_C_4 c i arg2 harg2 arg3 harg3 arg4 harg4 arg5 harg5 arg6 harg6 arg7 harg7 arg8 harg8 arg9 harg9 hc0 hc1 x0 x1 x2 x3 xs0 xs1 = k1_pay2 (k1_pay1 (k1_pay7 x0) (k1_pay8 x0 x1 x2 x3) xs0) := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_cons_unit_zero hz3'']
  simp only [View.readAt_eq_ld, harg2.read_unread, harg3.read_unread, harg4.read_unread, harg5.read_unread, harg8.read_unread, harg9.read_unread, View.ld_unit_zero (S := S2048x512) hz2'', View.ld_unit_zero (S := S64x512) hz2'', View.ld_unit_zero (S := S64x1) hz2'', View.ld_unit_zero (S := S1x64x512) hz3'', View.ld_unit_zero (S := S1x64x1) hz3'', View.readCov_unit_zero (S := S64x1) _ hz2'', View.readCov_unit_zero (S := S64x512) _ hz2'']
  all_goals (try rfl)

theorem out1_C_5_eq (c : Dev nD) (i : grid1.Coords) (arg2 : Memref sig .tc .vmem S2048x512 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x512 .f32) (harg6 : arg6.IsWhole) (arg7 : Memref sig .tc .vmem S1x64x1 .f32) (harg7 : arg7.IsWhole) (arg8 : Memref sig .tc .vmem S64x512 .f32) (harg8 : arg8.IsWhole) (arg9 : Memref sig .tc .vmem S64x1 .f32) (harg9 : arg9.IsWhole) (hc0 : ¬cond1_0 i) (hc1 : cond1_1 i)
    (x0 : Vec F S2048x512 .f32) (x1 : Vec F S64x512 .f32) (x2 : Vec F S64x1 .f32) (x3 : Vec F S64x1 .f32) (xs0 : Vec F S64x512 .f32) (xs1 : Vec F S64x1 .f32) :
    out1_C_5 c i arg2 harg2 arg3 harg3 arg4 harg4 arg5 harg5 arg6 harg6 arg7 harg7 arg8 harg8 arg9 harg9 hc0 hc1 x0 x1 x2 x3 xs0 xs1 = k1_pay3 (k1_pay9 x0 x1 x2 x3 xs1) := by
  unfold out1_C_5
  rw [View.read_writes_eq_canon _ _ _ (cover1_C_5 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_cons_unit_zero hz3'']
  simp only [View.readAt_eq_ld, harg2.read_unread, harg3.read_unread, harg4.read_unread, harg5.read_unread, harg8.read_unread, harg9.read_unread, View.ld_unit_zero (S := S2048x512) hz2'', View.ld_unit_zero (S := S64x512) hz2'', View.ld_unit_zero (S := S64x1) hz2'', View.ld_unit_zero (S := S1x64x512) hz3'', View.ld_unit_zero (S := S1x64x1) hz3'', View.readCov_unit_zero (S := S64x1) _ hz2'', View.readCov_unit_zero (S := S64x512) _ hz2'']
  all_goals (try rfl)

end Cert.KernelIdeal.Hand

end
-- ==== Proof.KI.At1.lean ====
/-
  The second region's buffers after each point: the two accumulators satisfy a recurrence along a core's chunks,
  restarted from zero at each core's first chunk; the two per-core outputs are, at a core's last chunk, copies of the
  accumulators.
-/
import proofs.«147958_j26001732010458_2_alg».proof.Proof.KI.Pieces1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace At1

variable (V : (c : Dev nD) → (b : Ref sig .tc) → Buf (Elt F) ((c : Thread nD τ).loc b))

/-- The first scratch buffer after a core's first chunk. -/
theorem s0_first (c : Dev nD) (t : Fin cfg1.N) (h0 : t.val % 16 = 0) :
    (outsAt1 V c t.val t.isLt).2.2.1 = k1_pay1 (k1_pay7 (iblk1 V c 0 t)) (k1_pay8 (iblk1 V c 0 t) (iblk1 V c 1 t) (iblk1 V c 2 t) (iblk1 V c 3 t)) (k1_pay4 (F := F)) := by
  have h1 : ¬t.val % 16 = 15 := by omega
  rw [outsAt1_A V c t h0 h1]; unfold caseA1; dsimp only
  exact sout1_A_0_eq (F := F) c _ _ _ _ _ _ _ _ _ _ _ _ _ _ _ _ _ _ _ _ _ _ _
theorem s1_first (c : Dev nD) (t : Fin cfg1.N) (h0 : t.val % 16 = 0) :
    (outsAt1 V c t.val t.isLt).2.2.2 = k1_pay9 (iblk1 V c 0 t) (iblk1 V c 1 t) (iblk1 V c 2 t) (iblk1 V c 3 t) (k1_pay5 (F := F)) := by
  have h1 : ¬t.val % 16 = 15 := by omega
  rw [outsAt1_A V c t h0 h1]; unfold caseA1; dsimp only
  exact sout1_A_1_eq (F := F) c _ _ _ _ _ _ _ _ _ _ _ _ _ _ _ _ _ _ _ _ _ _ _
/-- The first scratch buffer after any later chunk, over what the chunk before left. -/
theorem s0_next (c : Dev nD) (t : Fin cfg1.N) (h0 : ¬t.val % 16 = 0) :
    (outsAt1 V c t.val t.isLt).2.2.1 = k1_pay1 (k1_pay7 (iblk1 V c 0 t)) (k1_pay8 (iblk1 V c 0 t) (iblk1 V c 1 t) (iblk1 V c 2 t) (iblk1 V c 3 t)) (outsAt1 V c (t.val - 1) (Nat.lt_of_le_of_lt (Nat.sub_le _ _) t.isLt)).2.2.1 := by
  by_cases h1 : t.val % 16 = 15
  · rw [outsAt1_C V c t h0 h1]; unfold caseC1; dsimp only
    exact sout1_C_0_eq (F := F) c _ _ _ _ _ _ _ _ _ _ _ _ _ _ _ _ _ _ _ _ _ _ _ _ _
  · rw [outsAt1_B V c t h0 h1]; unfold caseB1; dsimp only
    exact sout1_B_0_eq (F := F) c _ _ _ _ _ _ _ _ _ _ _ _ _ _ _ _ _ _ _ _ _ _ _ _ _
theorem s1_next (c : Dev nD) (t : Fin cfg1.N) (h0 : ¬t.val % 16 = 0) :
    (outsAt1 V c t.val t.isLt).2.2.2 = k1_pay9 (iblk1 V c 0 t) (iblk1 V c 1 t) (iblk1 V c 2 t) (iblk1 V c 3 t) (outsAt1 V c (t.val - 1) (Nat.lt_of_le_of_lt (Nat.sub_le _ _) t.isLt)).2.2.2 := by
  by_cases h1 : t.val % 16 = 15
  · rw [outsAt1_C V c t h0 h1]; unfold caseC1; dsimp only
    exact sout1_C_1_eq (F := F) c _ _ _ _ _ _ _ _ _ _ _ _ _ _ _ _ _ _ _ _ _ _ _ _ _
  · rw [outsAt1_B V c t h0 h1]; unfold caseB1; dsimp only
    exact sout1_B_1_eq (F := F) c _ _ _ _ _ _ _ _ _ _ _ _ _ _ _ _ _ _ _ _ _ _ _ _ _
/-- At a core's last chunk the two per-core outputs are copies of the scratch buffers as the chunk leaves them. -/
theorem o4_last (c : Dev nD) (t : Fin cfg1.N) (h1 : t.val % 16 = 15) :
    (outsAt1 V c t.val t.isLt).1 = k1_pay2 ((outsAt1 V c t.val t.isLt).2.2.1) := by
  have h0 : ¬t.val % 16 = 0 := by omega
  rw [outsAt1_C V c t h0 h1]; unfold caseC1
  dsimp only
  rw [out1_C_4_eq, sout1_C_0_eq]
theorem o5_last (c : Dev nD) (t : Fin cfg1.N) (h1 : t.val % 16 = 15) :
    (outsAt1 V c t.val t.isLt).2.1 = k1_pay3 ((outsAt1 V c t.val t.isLt).2.2.2) := by
  have h0 : ¬t.val % 16 = 0 := by omega
  rw [outsAt1_C V c t h0 h1]; unfold caseC1
  dsimp only
  rw [out1_C_5_eq, sout1_C_1_eq]

end At1

end Cert.KernelIdeal.Hand

end
-- ==== Proof.KI.ValAcc1.lean ====
/-
  The second region's accumulators. With `G j` and `D j` the global maximum and denominator the region is handed for
  memory row `j`, the body forms the hard-shrunk softmax weight of each query row of its chunk and adds, to the two
  accumulators kept in scratch, the weights' absolute sum and the weights' product with the chunk's query rows; a
  core's first chunk starts both from the zero word.
-/
import proofs.«147958_j26001732010458_2_alg».proof.Proof.KI.ValStat0
import proofs.«147958_j26001732010458_2_alg».proof.Proof.KI.At1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The query row that row `p` of point `t`'s block is (second region). -/
def rowOf1 (t : Fin cfg1.N) (p : Fin 2048) : Fin 65536 :=
  ⟨2048 * t.val + p.val, by have := lt_of_lt_of_eq t.isLt (show cfg1.N = 32 from N_1); have := p.isLt; omega⟩

/-- The second region finds the reshaped query and the memory bank as the first did. -/
theorem V3_main_v0 : V3 m c main_v0 = Cert.ReferenceIdeal.ReadP.val_main_v0 (F := Ideal) (X0 m c) :=
  (W3_of m c main_v0 (by decide)).trans <| ((W2_arr m c 0).trans (((dat0 (V1 m) c).arrAt_in 0 rfl _).trans (A_eq0 (V1 m) c 0))).trans (V1_main_v0 m c)
theorem V3_main_arg1 : V3 m c main_arg1 = X1 m c :=
  (W3_of m c main_arg1 (by decide)).trans <| ((W2_arr m c 1).trans (((dat0 (V1 m) c).arrAt_in 1 rfl _).trans (A_eq0 (V1 m) c 1))).trans (V1_main_arg1 m c)

/-- The global maximum and denominator of memory row `j`, as the second region is handed them. -/
def Gk (j : Fin 64) : EReal := V3 m c main_v9 (ix2 j (0 : Fin 1))
def Dk (j : Fin 64) : EReal := V3 m c main_v8 (ix2 j (0 : Fin 1))

theorem q_blk1 (t : Fin cfg1.N) (p : Fin 2048) (d : Fin 512) :
    iblk1 (V3 m) c 0 t (ix2 p d) = Cert.ReferenceIdeal.ReadP.val_main_v0 (F := Ideal) (X0 m c) (ix2 (rowOf1 t p) d) := by
  show V3 m c main_v0 (((cfg1.win 0).blk t).view.emb (ix2 p d)) = _
  rw [V3_main_v0]
  refine congrArg _ (funext fun a => Fin.ext ?_)
  obtain ⟨e0, e1, -⟩ := idx1_facts t
  match a with
  | ⟨0, _⟩ => show win1_0.index t (0 : Fin 2) * 2048 + 1 * p.val = 2048 * t.val + p.val; omega
  | ⟨1, _⟩ => show win1_0.index t (1 : Fin 2) * 512 + 1 * d.val = d.val; omega
theorem mem_blk1 (t : Fin cfg1.N) (k : Fin 64) (d : Fin 512) :
    iblk1 (V3 m) c 1 t (ix2 k d) = X1 m c (ix2 k d) := by
  show V3 m c main_arg1 (((cfg1.win 1).blk t).view.emb (ix2 k d)) = _
  rw [V3_main_arg1]
  refine congrArg _ (funext fun a => Fin.ext ?_)
  obtain ⟨-, -, e0, e1, -⟩ := idx1_facts t
  match a with
  | ⟨0, _⟩ => show win1_1.index t (0 : Fin 2) * 64 + 1 * k.val = k.val; omega
  | ⟨1, _⟩ => show win1_1.index t (1 : Fin 2) * 512 + 1 * d.val = d.val; omega
theorem g_blk1 (t : Fin cfg1.N) (j : Fin 64) : iblk1 (V3 m) c 2 t (ix2 j (0 : Fin 1)) = Gk m c j := by
  show V3 m c main_v9 (((cfg1.win 2).blk t).view.emb (ix2 j (0 : Fin 1))) = _
  unfold Gk
  refine congrArg _ (funext fun a => Fin.ext ?_)
  obtain ⟨-, -, -, -, e0, e1, -⟩ := idx1_facts t
  match a with
  | ⟨0, _⟩ => show win1_2.index t (0 : Fin 2) * 64 + 1 * j.val = j.val; omega
  | ⟨1, _⟩ => show win1_2.index t (1 : Fin 2) * 1 + 1 * 0 = 0; omega
theorem d_blk1 (t : Fin cfg1.N) (j : Fin 64) : iblk1 (V3 m) c 3 t (ix2 j (0 : Fin 1)) = Dk m c j := by
  show V3 m c main_v8 (((cfg1.win 3).blk t).view.emb (ix2 j (0 : Fin 1))) = _
  unfold Dk
  refine congrArg _ (funext fun a => Fin.ext ?_)
  obtain ⟨-, -, -, -, -, -, e0, e1⟩ := idx1_facts t
  match a with
  | ⟨0, _⟩ => show win1_3.index t (0 : Fin 2) * 64 + 1 * j.val = j.val; omega
  | ⟨1, _⟩ => show win1_3.index t (1 : Fin 2) * 1 + 1 * 0 = 0; omega

theorem su_blk1 (t : Fin cfg1.N) (j : Fin 64) (p : Fin 2048) :
    su (iblk1 (V3 m) c 0 t) (iblk1 (V3 m) c 1 t) j p = Sc m c j (rowOf1 t p) := by
  unfold su Sc
  exact Finset.sum_congr rfl fun d _ => by rw [q_blk1, mem_blk1]

/-- The kernel's hard-shrunk weight of query row `n` for memory row `j`. -/
def apk (j : Fin 64) (n : Fin 65536) : EReal :=
  Cert.Spec.hshrink (Ideal.div (Ideal.exp (Sc m c j n - Gk m c j)) (Dk m c j))

theorem pay8_blk1 (t : Fin cfg1.N) (j : Fin 64) (p : Fin 2048) :
    k1_pay8 (iblk1 (V3 m) c 0 t) (iblk1 (V3 m) c 1 t) (iblk1 (V3 m) c 2 t) (iblk1 (V3 m) c 3 t) (ix2 j p) = apk m c j (rowOf1 t p) := by
  rw [k1pay8_apply, su_blk1, g_blk1, d_blk1]
  rfl

/-- The two accumulators in scratch after the point at position `n`. -/
def A1 (n : ℕ) (hn : n < cfg1.N) (j : Fin 64) (d : Fin 512) : EReal := (outsAt1 (V3 m) c n hn).2.2.1 (ix2 j d)
def B1 (n : ℕ) (hn : n < cfg1.N) (j : Fin 64) : EReal := (outsAt1 (V3 m) c n hn).2.2.2 (ix2 j (0 : Fin 1))

/-- A chunk's contribution to each accumulator. -/
def chA (t : Fin cfg1.N) (j : Fin 64) (d : Fin 512) : EReal :=
  ∑ p : Fin 2048, apk m c j (rowOf1 t p) * Cert.ReferenceIdeal.ReadP.val_main_v0 (F := Ideal) (X0 m c) (ix2 (rowOf1 t p) d)
def chB (t : Fin cfg1.N) (j : Fin 64) : EReal :=
  ∑ p : Fin 2048, max (apk m c j (rowOf1 t p)) (-(apk m c j (rowOf1 t p)))

theorem A1_first (t : Fin cfg1.N) (h0 : t.val % 16 = 0) (j : Fin 64) (d : Fin 512) :
    A1 m c t.val t.isLt j d = Cert.Spec.ZERO + chA m c t j d := by
  unfold A1 chA
  rw [At1.s0_first (V3 m) c t h0, k1pay1_apply, k1pay4_apply]
  exact congrArg (_ + ·) (Finset.sum_congr rfl fun p _ => by rw [pay8_blk1, q_blk1])
theorem A1_next (t : Fin cfg1.N) (h0 : ¬t.val % 16 = 0) (j : Fin 64) (d : Fin 512) :
    A1 m c t.val t.isLt j d = A1 m c (t.val - 1) (Nat.lt_of_le_of_lt (Nat.sub_le _ _) t.isLt) j d + chA m c t j d := by
  unfold A1 chA
  rw [At1.s0_next (V3 m) c t h0, k1pay1_apply]
  exact congrArg (_ + ·) (Finset.sum_congr rfl fun p _ => by rw [pay8_blk1, q_blk1])
theorem B1_first (t : Fin cfg1.N) (h0 : t.val % 16 = 0) (j : Fin 64) :
    B1 m c t.val t.isLt j = Cert.Spec.ZERO + chB m c t j := by
  unfold B1 chB
  rw [At1.s1_first (V3 m) c t h0, k1pay9_apply, k1pay5_apply]
  exact congrArg (_ + ·) (Finset.sum_congr rfl fun p _ => by rw [pay8_blk1])
theorem B1_next (t : Fin cfg1.N) (h0 : ¬t.val % 16 = 0) (j : Fin 64) :
    B1 m c t.val t.isLt j = B1 m c (t.val - 1) (Nat.lt_of_le_of_lt (Nat.sub_le _ _) t.isLt) j + chB m c t j := by
  unfold B1 chB
  rw [At1.s1_next (V3 m) c t h0, k1pay9_apply]
  exact congrArg (_ + ·) (Finset.sum_congr rfl fun p _ => by rw [pay8_blk1])

end Cert.KernelIdeal.Hand

end
-- ==== Proof.KI.ValAcc1b.lean ====
/-
  The second region's accumulators in closed form, and the two per-core arrays it leaves: after chunk `i` of core
  `cc` each accumulator is the zero word plus the sum of the contributions of the core's chunks `0 … i`; the last
  chunk copies them out.
-/
import proofs.«147958_j26001732010458_2_alg».proof.Proof.KI.ValAcc1
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- Point `16 cc + i` of the second region's grid (`i` taken modulo 16). -/
def tOf1 (cc : Fin 2) (i : ℕ) : Fin cfg1.N :=
  ⟨16 * cc.val + i % 16, by rw [show cfg1.N = 32 from N_1]; have := cc.isLt; have := Nat.mod_lt i (by norm_num : 16 > 0); omega⟩

theorem A1_congr {n n' : ℕ} (h : n = n') (hn : n < cfg1.N) (hn' : n' < cfg1.N) (j : Fin 64) (d : Fin 512) : A1 m c n hn j d = A1 m c n' hn' j d := by
  subst h; rfl
theorem B1_congr {n n' : ℕ} (h : n = n') (hn : n < cfg1.N) (hn' : n' < cfg1.N) (j : Fin 64) : B1 m c n hn j = B1 m c n' hn' j := by
  subst h; rfl

theorem A1_run (cc : Fin 2) (j : Fin 64) (d : Fin 512) :
    ∀ i : ℕ, i < 16 → A1 m c (tOf1 cc i).val (tOf1 cc i).isLt j d = Cert.Spec.ZERO + ∑ i' ∈ Finset.range (i + 1), chA m c (tOf1 cc i') j d
  | 0, _ => by
    have h0 : (tOf1 cc 0).val % 16 = 0 := by show (16 * cc.val + 0 % 16) % 16 = 0; omega
    rw [A1_first m c (tOf1 cc 0) h0 j d, Finset.range_one, Finset.sum_singleton]
  | i + 1, hi => by
    have ih := A1_run cc j d i (by omega)
    have hv : (tOf1 cc (i + 1)).val = 16 * cc.val + (i + 1) := by show 16 * cc.val + (i + 1) % 16 = _; rw [Nat.mod_eq_of_lt hi]
    have hv' : (tOf1 cc i).val = 16 * cc.val + i := by show 16 * cc.val + i % 16 = _; rw [Nat.mod_eq_of_lt (by omega)]
    have h0 : ¬(tOf1 cc (i + 1)).val % 16 = 0 := by rw [hv]; omega
    have hp : (tOf1 cc (i + 1)).val - 1 = (tOf1 cc i).val := by rw [hv, hv']; omega
    rw [A1_next m c (tOf1 cc (i + 1)) h0 j d, A1_congr m c hp _ (tOf1 cc i).isLt j d, ih, add_assoc, ← Finset.sum_range_succ]

theorem B1_run (cc : Fin 2) (j : Fin 64) :
    ∀ i : ℕ, i < 16 → B1 m c (tOf1 cc i).val (tOf1 cc i).isLt j = Cert.Spec.ZERO + ∑ i' ∈ Finset.range (i + 1), chB m c (tOf1 cc i') j
  | 0, _ => by
    have h0 : (tOf1 cc 0).val % 16 = 0 := by show (16 * cc.val + 0 % 16) % 16 = 0; omega
    rw [B1_first m c (tOf1 cc 0) h0 j, Finset.range_one, Finset.sum_singleton]
  | i + 1, hi => by
    have ih := B1_run cc j i (by omega)
    have hv : (tOf1 cc (i + 1)).val = 16 * cc.val + (i + 1) := by show 16 * cc.val + (i + 1) % 16 = _; rw [Nat.mod_eq_of_lt hi]
    have hv' : (tOf1 cc i).val = 16 * cc.val + i := by show 16 * cc.val + i % 16 = _; rw [Nat.mod_eq_of_lt (by omega)]
    have h0 : ¬(tOf1 cc (i + 1)).val % 16 = 0 := by rw [hv]; omega
    have hp : (tOf1 cc (i + 1)).val - 1 = (tOf1 cc i).val := by rw [hv, hv']; omega
    rw [B1_next m c (tOf1 cc (i + 1)) h0 j, B1_congr m c hp _ (tOf1 cc i).isLt j, ih, add_assoc, ← Finset.sum_range_succ]

/-! ## Window 4 of region 1: the per-core array `main_v10_0` -/

theorem idx1_4_facts : ∀ t : Fin cfg1.N, win1_4.index t (0 : Fin 3) = t.val / 16 ∧ win1_4.index t (1 : Fin 3) = 0 ∧ win1_4.index t (2 : Fin 3) = 0 :=
  (by decide +kernel : ∀ t : Fin grid1.N, _)

/-- What the array holds after the region: entry `(cc, j, d)` is core `cc`'s value after its last chunk. -/
def G1_4 : S2x64x512.Idx → EReal := fun i => A1 m c (16 * (i 0).val + 15) (by have := (i 0).isLt; rw [show cfg1.N = 32 from N_1]; show 16 * (i 0).val + 15 < 32; have h2 : (i 0).val < 2 := (i 0).isLt; omega) ⟨(i 1).val, (i 1).isLt⟩ ⟨(i 2).val, (i 2).isLt⟩

theorem flushed1_4_eq (t : Fin cfg1.N) (hf : (cfg1.win 4).flush t = true) :
    (dat1 (V3 m) c).flushed 4 t = ((cfg1.win 4).blk t).view.read (Elt Ideal) (G1_4 m c) := by
  have h15 : t.val % 16 = 15 := (flush1_4 t).mp hf
  show (cfg1.win 4).cut (grid1.coords t) ((dat1 (V3 m) c).after 4 t) = _
  rw [after1_4, At1.o4_last (V3 m) c t h15]
  funext y
  obtain ⟨u, j, k, rfl⟩ : ∃ (u : Fin 1) (j : Fin 64) (k : Fin 512), y = ix3 u j k := ⟨y 0, y 1, y 2, eq_ix3 y⟩
  show k1_pay2 (F := Ideal) _ (ix3 u j k) = G1_4 m c (((cfg1.win 4).blk t).view.emb (ix3 u j k))
  have he : ((cfg1.win 4).blk t).view.emb (ix3 u j k) = ix3 (⟨t.val / 16, by have := lt_of_lt_of_eq t.isLt (show cfg1.N = 32 from N_1); omega⟩ : Fin 2) j k := funext fun a => Fin.ext (by
    obtain ⟨e0, e1, e2⟩ := idx1_4_facts t
    have hu : u.val = 0 := by omega
    match a with
    | ⟨0, _⟩ => show win1_4.index t (0 : Fin 3) * 1 + 1 * u.val = t.val / 16; omega
    | ⟨1, _⟩ => show win1_4.index t (1 : Fin 3) * 64 + 1 * j.val = j.val; omega
    | ⟨2, _⟩ => show win1_4.index t (2 : Fin 3) * 512 + 1 * k.val = k.val; omega)
  rw [he]
  unfold k1_pay2
  refine (Idealize.ShloMosaic.ValueIdx.shapeCast_ab_1ab_apply _ _ u j k).trans ?_
  show A1 m c t.val t.isLt j k = A1 m c (16 * (t.val / 16) + 15) _ j k
  exact A1_congr m c (by omega) _ _ j k

theorem mem_blk1_4 (t : Fin cfg1.N) (i : S2x64x512.Idx) :
    i ∈ ((cfg1.win 4).blk t).view.set ↔ ∀ a : Fin 3, win1_4.index t a * S1x64x512.size a ≤ (i a).val ∧ (i a).val < win1_4.index t a * S1x64x512.size a + S1x64x512.size a := by
  show i ∈ ((View.whole main_v10_0).slice (win1_4.rect t)).set ↔ _
  rw [View.set_slice_whole, Rect.mem_set_unit]
  exact Iff.rfl

theorem cover1_4 (i : S2x64x512.Idx) : ∃ t : Fin cfg1.N, (cfg1.win 4).flush t = true ∧ i ∈ ((cfg1.win 4).blk t).view.set := by
  have hi0 : (i 0).val < 2 := (i 0).isLt
  have hi1 : (i 1).val < 64 := (i 1).isLt
  have hi2 : (i 2).val < 512 := (i 2).isLt
  let t : Fin cfg1.N := ⟨16 * (i 0).val + 15, by rw [show cfg1.N = 32 from N_1]; omega⟩
  refine ⟨t, (flush1_4 t).mpr (by show (16 * (i 0).val + 15) % 16 = 15; omega), ?_⟩
  rw [mem_blk1_4]
  obtain ⟨e0, e1, e2⟩ := idx1_4_facts t
  intro a
  match a with
  | ⟨0, _⟩ => show win1_4.index t (0 : Fin 3) * 1 ≤ (i 0).val ∧ (i 0).val < win1_4.index t (0 : Fin 3) * 1 + 1; rw [e0]; show (16 * (i 0).val + 15) / 16 * 1 ≤ (i 0).val ∧ (i 0).val < (16 * (i 0).val + 15) / 16 * 1 + 1; omega
  | ⟨1, _⟩ => show win1_4.index t (1 : Fin 3) * 64 ≤ (i 1).val ∧ (i 1).val < win1_4.index t (1 : Fin 3) * 64 + 64; rw [e1]; omega
  | ⟨2, _⟩ => show win1_4.index t (2 : Fin 3) * 512 ≤ (i 2).val ∧ (i 2).val < win1_4.index t (2 : Fin 3) * 512 + 512; rw [e2]; omega

/-- THE ARRAY after the region. -/
theorem final1_4 : (dat1 (V3 m) c).arrAt 4 cfg1.N = G1_4 m c :=
  (dat1 (V3 m) c).arrAt_eq_of_cover 4 _ (fun t hf => flushed1_4_eq m c t hf) (cover1_4)

/-! ## Window 5 of region 1: the per-core array `main_v10_1` -/

theorem idx1_5_facts : ∀ t : Fin cfg1.N, win1_5.index t (0 : Fin 3) = t.val / 16 ∧ win1_5.index t (1 : Fin 3) = 0 ∧ win1_5.index t (2 : Fin 3) = 0 :=
  (by decide +kernel : ∀ t : Fin grid1.N, _)

/-- What the array holds after the region: entry `(cc, j, 0)` is core `cc`'s value after its last chunk. -/
def G1_5 : S2x64x1.Idx → EReal := fun i => B1 m c (16 * (i 0).val + 15) (by rw [show cfg1.N = 32 from N_1]; show 16 * (i 0).val + 15 < 32; have h2 : (i 0).val < 2 := (i 0).isLt; omega) ⟨(i 1).val, (i 1).isLt⟩

theorem flushed1_5_eq (t : Fin cfg1.N) (hf : (cfg1.win 5).flush t = true) :
    (dat1 (V3 m) c).flushed 5 t = ((cfg1.win 5).blk t).view.read (Elt Ideal) (G1_5 m c) := by
  have h15 : t.val % 16 = 15 := (flush1_5 t).mp hf
  show (cfg1.win 5).cut (grid1.coords t) ((dat1 (V3 m) c).after 5 t) = _
  rw [after1_5, At1.o5_last (V3 m) c t h15]
  funext y
  obtain ⟨u, j, k, rfl⟩ : ∃ (u : Fin 1) (j : Fin 64) (k : Fin 1), y = ix3 u j k := ⟨y 0, y 1, y 2, eq_ix3 y⟩
  show k1_pay3 (F := Ideal) _ (ix3 u j k) = G1_5 m c (((cfg1.win 5).blk t).view.emb (ix3 u j k))
  have he : ((cfg1.win 5).blk t).view.emb (ix3 u j k) = ix3 (⟨t.val / 16, by have := lt_of_lt_of_eq t.isLt (show cfg1.N = 32 from N_1); omega⟩ : Fin 2) j k := funext fun a => Fin.ext (by
    obtain ⟨e0, e1, e2⟩ := idx1_5_facts t
    have hu : u.val = 0 := by omega
    match a with
    | ⟨0, _⟩ => show win1_5.index t (0 : Fin 3) * 1 + 1 * u.val = t.val / 16; omega
    | ⟨1, _⟩ => show win1_5.index t (1 : Fin 3) * 64 + 1 * j.val = j.val; omega
    | ⟨2, _⟩ => show win1_5.index t (2 : Fin 3) * 1 + 1 * k.val = k.val; omega)
  rw [he]
  unfold k1_pay3
  refine (Idealize.ShloMosaic.ValueIdx.shapeCast_ab_1ab_apply _ _ u j k).trans ?_
  have hk : k = 0 := Fin.fin_one_eq_zero k
  subst hk
  show B1 m c t.val t.isLt j = B1 m c (16 * (t.val / 16) + 15) _ j
  exact B1_congr m c (by omega) _ _ j

theorem mem_blk1_5 (t : Fin cfg1.N) (i : S2x64x1.Idx) :
    i ∈ ((cfg1.win 5).blk t).view.set ↔ ∀ a : Fin 3, win1_5.index t a * S1x64x1.size a ≤ (i a).val ∧ (i a).val < win1_5.index t a * S1x64x1.size a + S1x64x1.size a := by
  show i ∈ ((View.whole main_v10_1).slice (win1_5.rect t)).set ↔ _
  rw [View.set_slice_whole, Rect.mem_set_unit]
  exact Iff.rfl

theorem cover1_5 (i : S2x64x1.Idx) : ∃ t : Fin cfg1.N, (cfg1.win 5).flush t = true ∧ i ∈ ((cfg1.win 5).blk t).view.set := by
  have hi0 : (i 0).val < 2 := (i 0).isLt
  have hi1 : (i 1).val < 64 := (i 1).isLt
  have hi2 : (i 2).val < 1 := (i 2).isLt
  let t : Fin cfg1.N := ⟨16 * (i 0).val + 15, by rw [show cfg1.N = 32 from N_1]; omega⟩
  refine ⟨t, (flush1_5 t).mpr (by show (16 * (i 0).val + 15) % 16 = 15; omega), ?_⟩
  rw [mem_blk1_5]
  obtain ⟨e0, e1, e2⟩ := idx1_5_facts t
  intro a
  match a with
  | ⟨0, _⟩ => show win1_5.index t (0 : Fin 3) * 1 ≤ (i 0).val ∧ (i 0).val < win1_5.index t (0 : Fin 3) * 1 + 1; rw [e0]; show (16 * (i 0).val + 15) / 16 * 1 ≤ (i 0).val ∧ (i 0).val < (16 * (i 0).val + 15) / 16 * 1 + 1; omega
  | ⟨1, _⟩ => show win1_5.index t (1 : Fin 3) * 64 ≤ (i 1).val ∧ (i 1).val < win1_5.index t (1 : Fin 3) * 64 + 64; rw [e1]; omega
  | ⟨2, _⟩ => show win1_5.index t (2 : Fin 3) * 1 ≤ (i 2).val ∧ (i 2).val < win1_5.index t (2 : Fin 3) * 1 + 1; rw [e2]; omega

/-- THE ARRAY after the region. -/
theorem final1_5 : (dat1 (V3 m) c).arrAt 5 cfg1.N = G1_5 m c :=
  (dat1 (V3 m) c).arrAt_eq_of_cover 5 _ (fun t hf => flushed1_5_eq m c t hf) (cover1_5)

end Cert.KernelIdeal.Hand

end
-- ==== Proof.RefCol.lean ====
/-
  The reference's update path at an index. For memory row `j`: the scores against all 65536 query rows, their softmax
  along the query rows (the shared chain's first step), the hard shrink of each weight, the L1 normalisation along
  the row, and the product of the normalised weights with the reshaped query. Read off the generated stage-by-stage
  lemmas, three small stages at a time.
-/
import proofs.«147958_j26001732010458_2_alg».proof.Proof.RefRow

noncomputable section

namespace Cert.RefCol

open Cert.ReferenceIdeal Cert.ReferenceIdeal.Gen Cert.ReferenceIdeal.ReadP Cert.RefRow
open Idealize.ShloMosaic Idealize.ShloMosaic.ValueIdx

theorem c_col7 (j : Fin 64) (n : Fin 65536) : idx_main_v7 (ix2 j n) = ix2 j (0 : Fin 1) := funext fun a => Fin.ext (by match a with | ⟨0, _⟩ => rfl | ⟨1, _⟩ => rfl)
theorem c_col12 (j : Fin 64) (n : Fin 65536) : idx_main_v12 (ix2 j n) = ix2 j (0 : Fin 1) := funext fun a => Fin.ext (by match a with | ⟨0, _⟩ => rfl | ⟨1, _⟩ => rfl)
theorem c_col27 (j : Fin 64) (n : Fin 65536) : idx_main_v27 (ix2 j n) = ix2 j (0 : Fin 1) := funext fun a => Fin.ext (by match a with | ⟨0, _⟩ => rfl | ⟨1, _⟩ => rfl)
theorem c_vec6 (j : Fin 64) (u : Fin 1) : idx_main_v6 (ix2 j u) = ix1 j := funext fun a => Fin.ext (by match a with | ⟨0, _⟩ => rfl)
theorem c_vec11 (j : Fin 64) (u : Fin 1) : idx_main_v11 (ix2 j u) = ix1 j := funext fun a => Fin.ext (by match a with | ⟨0, _⟩ => rfl)
theorem c_vec24 (j : Fin 64) (u : Fin 1) : idx_main_v24 (ix2 j u) = ix1 j := funext fun a => Fin.ext (by match a with | ⟨0, _⟩ => rfl)
theorem c_row10 (j : Fin 64) (n : Fin 65536) : idx_main_v10 (ix1 j) n = ix2 j n := funext fun a => Fin.ext (by match a with | ⟨0, _⟩ => rfl | ⟨1, _⟩ => rfl)
theorem c_row23 (j : Fin 64) (n : Fin 65536) : idx_main_v23 (ix1 j) n = ix2 j n := funext fun a => Fin.ext (by match a with | ⟨0, _⟩ => rfl | ⟨1, _⟩ => rfl)

/-- The scores of memory row `j` as the reference has them. -/
abbrev scol (x0 : (⟨S32x2048x512, .f32⟩ : BufTy).Contents (Elt Ideal)) (x1 : (⟨S64x512, .f32⟩ : BufTy).Contents (Elt Ideal)) (j : Fin 64) : Fin 65536 → EReal :=
  fun n => val_main_v2 (F := Ideal) x0 x1 (ix2 j n)

/-- The reference's maximum of a memory row's scores. -/
theorem ref_v3_apply (x0 : (⟨S32x2048x512, .f32⟩ : BufTy).Contents (Elt Ideal)) (x1 : (⟨S64x512, .f32⟩ : BufTy).Contents (Elt Ideal)) (j : Fin 64) :
    val_main_v3 (F := Ideal) x0 x1 (ix1 j) = Cert.Spec.rowMax (fun n : Fin 65536 => val_main_v2 (F := Ideal) x0 x1 (ix2 j n)) := by
  unfold val_main_v3
  generalize val_main_v2 (F := Ideal) x0 x1 = y
  refine (Host.reduce_eq_fold_single (α := EReal) max y _ reducesTo_S64x65536_S64_d1 (by decide) h_S_ (ix1 j)).trans ?_
  unfold Cert.Spec.rowMax
  refine congrArg (fun f => Finset.univ.fold max _ f) (funext fun k => congrArg y ?_)
  exact funext fun a => Fin.ext (by match a with | ⟨0, _⟩ => rfl | ⟨1, _⟩ => rfl)

theorem ref_Mrow (x0 : (⟨S32x2048x512, .f32⟩ : BufTy).Contents (Elt Ideal)) (x1 : (⟨S64x512, .f32⟩ : BufTy).Contents (Elt Ideal)) (j : Fin 64) (n : Fin 65536) :
    val_main_v7 (F := Ideal) x0 x1 (ix2 j n) = Cert.Spec.rowMax (scol x0 x1 j) :=
  (val_main_v7_apply x0 x1 (ix2 j n)).trans <| (congrArg (val_main_v6 (F := Ideal) x0 x1) (c_col7 j n)).trans <|
    (val_main_v6_apply x0 x1 (ix2 j (0 : Fin 1))).trans <| (congrArg (val_main_v5 (F := Ideal) x0 x1) (c_vec6 j 0)).trans <|
    (val_main_v5_apply x0 x1 (ix1 j)).trans <| by
      rw [val_main_v4_apply, val_main_cst_0_apply, ref_v3_apply]
      exact max_init_fold _ _

/-- Stage 1: the softmax weight of query row `n` for memory row `j`. -/
theorem ref_softc_apply (x0 : (⟨S32x2048x512, .f32⟩ : BufTy).Contents (Elt Ideal)) (x1 : (⟨S64x512, .f32⟩ : BufTy).Contents (Elt Ideal)) (j : Fin 64) (n : Fin 65536) :
    val_main_v13 (F := Ideal) x0 x1 (ix2 j n)
      = Cert.Spec.soft (scol x0 x1 j) (Cert.Spec.rowMax (scol x0 x1 j)) (Cert.Spec.rowDen (scol x0 x1 j) (Cert.Spec.rowMax (scol x0 x1 j))) n := by
  simp only [val_main_v13_apply, val_main_v12_apply, val_main_v11_apply, val_main_v10_apply, val_main_cst_1_apply,
    val_main_v9_apply, val_main_v8_apply, c_col12, c_vec11, c_row10, ref_Mrow]
  simp only [Ideal.hostDivf_def, Ideal.hostUnary_exp_def, Ideal.subf_def, Ideal.ofBits_def]
  rw [zero_word_add']
  unfold Cert.Spec.soft Cert.Spec.rowDen
  with_reducible rfl

/-- Stage 2: the hard-shrunk weight from the softmax weight at the same index. -/
theorem ref_shrinkc_apply (x0 : (⟨S32x2048x512, .f32⟩ : BufTy).Contents (Elt Ideal)) (x1 : (⟨S64x512, .f32⟩ : BufTy).Contents (Elt Ideal)) (i : S64x65536.Idx) :
    val_main_v21 (F := Ideal) x0 x1 i = Cert.Spec.hshrink (val_main_v13 (F := Ideal) x0 x1 i) := by
  simp only [val_main_v21_apply, val_main_v20_apply, val_main_v19_apply, val_main_cst_3_apply, val_main_v18_apply, val_main_v17_apply,
    val_main_v16_apply, val_main_call0_v0_apply, val_main_call0_cst_apply, val_main_v15_apply, val_main_v14_apply, val_main_cst_2_apply]
  rfl

/-- Stage 3: the normalised weight. -/
theorem ref_normc_apply (x0 : (⟨S32x2048x512, .f32⟩ : BufTy).Contents (Elt Ideal)) (x1 : (⟨S64x512, .f32⟩ : BufTy).Contents (Elt Ideal)) (j : Fin 64) (n : Fin 65536) :
    val_main_v28 (F := Ideal) x0 x1 (ix2 j n)
      = Ideal.div (val_main_v21 (F := Ideal) x0 x1 (ix2 j n)) (Cert.Spec.rowNorm fun n : Fin 65536 => val_main_v21 (F := Ideal) x0 x1 (ix2 j n)) := by
  simp only [val_main_v28_apply, val_main_v27_apply, val_main_v26_apply, val_main_v25_apply, val_main_cst_5_apply, val_main_v24_apply,
    val_main_v23_apply, val_main_cst_4_apply, val_main_v22_apply, c_col27, c_vec24, c_row23]
  rw [zero_word_add]
  rfl

/-- The hard-shrunk weight of query row `n` for memory row `j`, from the row's scores. -/
def apc (x0 : (⟨S32x2048x512, .f32⟩ : BufTy).Contents (Elt Ideal)) (x1 : (⟨S64x512, .f32⟩ : BufTy).Contents (Elt Ideal)) (j : Fin 64) (n : Fin 65536) : EReal :=
  Cert.Spec.hshrink (Cert.Spec.soft (scol x0 x1 j) (Cert.Spec.rowMax (scol x0 x1 j)) (Cert.Spec.rowDen (scol x0 x1 j) (Cert.Spec.rowMax (scol x0 x1 j))) n)

/-- THE REFERENCE'S ADDED MEMORY at `(j, d)`: the normalised weights of row `j` times the query's column `d`. -/
theorem ref_addmem_apply (x0 : (⟨S32x2048x512, .f32⟩ : BufTy).Contents (Elt Ideal)) (x1 : (⟨S64x512, .f32⟩ : BufTy).Contents (Elt Ideal)) (j : Fin 64) (d : Fin 512) :
    val_main_v29 (F := Ideal) x0 x1 (ix2 j d)
      = ∑ n : Fin 65536, Ideal.div (apc x0 x1 j n) (Cert.Spec.rowNorm (apc x0 x1 j)) * val_main_v0 (F := Ideal) x0 (ix2 n d) := by
  rw [val_main_v29_apply]
  refine Finset.sum_congr rfl fun n _ => ?_
  have hl : lidx_main_v29 (ix2 j d) n = ix2 j n := funext fun a => Fin.ext (by match a with | ⟨0, _⟩ => rfl | ⟨1, _⟩ => rfl)
  have hr : ridx_main_v29 (ix2 j d) n = ix2 n d := funext fun a => Fin.ext (by match a with | ⟨0, _⟩ => rfl | ⟨1, _⟩ => rfl)
  have h : ∀ n' : Fin 65536, val_main_v21 (F := Ideal) x0 x1 (ix2 j n') = apc x0 x1 j n' :=
    fun n' => by rw [ref_shrinkc_apply, ref_softc_apply]; rfl
  rw [hl, hr, ref_normc_apply, h n, funext h]

/-- A score: the inner product of memory row `j` with query row `n`. -/
theorem ref_score_apply (x0 : (⟨S32x2048x512, .f32⟩ : BufTy).Contents (Elt Ideal)) (x1 : (⟨S64x512, .f32⟩ : BufTy).Contents (Elt Ideal)) (j : Fin 64) (n : Fin 65536) :
    val_main_v2 (F := Ideal) x0 x1 (ix2 j n) = ∑ d : Fin 512, x1 (ix2 j d) * val_main_v0 (F := Ideal) x0 (ix2 n d) := by
  rw [val_main_v2_apply]
  refine Finset.sum_congr rfl fun d _ => ?_
  rw [val_main_v1_apply]
  refine congrArg₂ (· * ·) (congrArg _ ?_) (congrArg _ ?_)
  · exact funext fun a => Fin.ext (by match a with | ⟨0, _⟩ => rfl | ⟨1, _⟩ => rfl)
  · exact funext fun a => Fin.ext (by match a with | ⟨0, _⟩ => rfl | ⟨1, _⟩ => rfl)

end Cert.RefCol

end
-- ==== Proof.LibNorm.lean ====
/-
  Two general facts on the extended reals, and the regrouping of 65536 rows.

  A sum of terms each divided by the same positive `L` is the sum divided by `L`, also when multiplied termwise by
  other factors: division by a nonzero `L` is multiplication by `L⁻¹`, which is nonnegative and not `+∞`, and
  multiplication by such a factor distributes over the extended reals' addition. And a sum (or a maximum) over the
  65536 rows is the same sum over (core, chunk, row in chunk) with row `2048 (16 cc + i) + p`.
-/
import Idealize.ShloMosaic.PureOps.Ideal.Laws

noncomputable section

namespace Cert.LibNorm

open Idealize.ShloMosaic

theorem sum_mul_of_nonneg {ι : Type*} (s : Finset ι) (f : ι → EReal) {c : EReal} (hc : 0 ≤ c) (hc' : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top hc hc', ih]

/-- THE NORMALISER PULLED OUT: `∑ (a n / L) * q n = (∑ a n * q n) / L` for `0 < L`. -/
theorem sum_div_pull {ι : Type*} [Fintype ι] (a q : ι → EReal) (L : EReal) (hL : 0 < L) :
    ∑ n, Ideal.div (a n) L * q n = Ideal.div (∑ n, a n * q n) L := by
  have hne : L ≠ 0 := hL.ne'
  unfold Ideal.div
  simp only [if_neg hne]
  rw [sum_mul_of_nonneg _ _ (EReal.inv_nonneg_of_nonneg hL.le) (EReal.inv_lt_top L).ne]
  exact Finset.sum_congr rfl fun n _ => mul_right_comm _ _ _

/-- Row `2048 (16 cc + i) + p`. -/
def row (cc : Fin 2) (i : Fin 16) (p : Fin 2048) : Fin 65536 :=
  ⟨2048 * (16 * cc.val + i.val) + p.val, by have := cc.isLt; have := i.isLt; have := p.isLt; omega⟩

/-- The rows, regrouped. -/
def rowEquiv : (Fin 2 × Fin 16) × Fin 2048 ≃ Fin 65536 where
  toFun x := row x.1.1 x.1.2 x.2
  invFun n := ((⟨n.val / 32768, by have := n.isLt; omega⟩, ⟨n.val / 2048 % 16, Nat.mod_lt _ (by norm_num)⟩), ⟨n.val % 2048, Nat.mod_lt _ (by norm_num)⟩)
  left_inv x := by
    obtain ⟨⟨cc, i⟩, p⟩ := x
    have := cc.isLt; have := i.isLt; have := p.isLt
    refine Prod.ext (Prod.ext (Fin.ext ?_) (Fin.ext ?_)) (Fin.ext ?_) <;> simp only [row] <;> omega
  right_inv n := by
    have := n.isLt
    refine Fin.ext ?_
    simp only [row]
    omega

/-- A SUM OVER THE ROWS, REGROUPED. -/
theorem sum_rows {M : Type*} [AddCommMonoid M] (f : Fin 65536 → M) :
    ∑ n, f n = ∑ cc : Fin 2, ∑ i : Fin 16, ∑ p : Fin 2048, f (row cc i p) := by
  rw [← Equiv.sum_comp rowEquiv f, Fintype.sum_prod_type, Fintype.sum_prod_type]
  rfl

/-- A MAXIMUM OVER THE ROWS, REGROUPED. -/
theorem sup_rows (f : Fin 65536 → EReal) :
    Finset.univ.sup f = Finset.univ.sup fun cc : Fin 2 => Finset.univ.sup fun i : Fin 16 => Finset.univ.sup fun p : Fin 2048 => f (row cc i p) := by
  apply le_antisymm
  · refine Finset.sup_le fun n _ => ?_
    have h : f n = f (row (rowEquiv.symm n).1.1 (rowEquiv.symm n).1.2 (rowEquiv.symm n).2) := congrArg f (rowEquiv.apply_symm_apply n).symm
    rw [h]
    exact le_trans (le_trans (Finset.le_sup (f := fun p => f (row _ _ p)) (Finset.mem_univ _))
      (Finset.le_sup (f := fun i => Finset.univ.sup fun p => f (row _ i p)) (Finset.mem_univ _)))
      (Finset.le_sup (f := fun cc => Finset.univ.sup fun i => Finset.univ.sup fun p => f (row cc i p)) (Finset.mem_univ _))
  · refine Finset.sup_le fun cc _ => Finset.sup_le fun i _ => Finset.sup_le fun p _ => Finset.le_sup (Finset.mem_univ _)

end Cert.LibNorm

end
-- ==== Proof.LibRescale.lean ====
/-
  Rescaling a partial softmax denominator: a double sum of `exp (score - a)` times `exp (a - g)` is the same double sum
  of `exp (score - g)`, for real `a`, `g` and real scores — how a core's sum, taken at the core's own maximum, enters the
  global sum taken at the global maximum.
-/
import proofs.«147958_j26001732010458_2_alg».proof.Proof.LibOnline

noncomputable section

namespace Cert.LibOnline

open Idealize.ShloMosaic

theorem rescale {ι κ : Type*} (A : Finset ι) (B : Finset κ) (s : ι → κ → ℝ) (a g : ℝ) :
    (∑ i ∈ A, ∑ k ∈ B, Ideal.exp ((s i k : EReal) - (a : EReal))) * Ideal.exp ((a : EReal) - (g : EReal))
      = ∑ i ∈ A, ∑ k ∈ B, Ideal.exp ((s i k : EReal) - (g : EReal)) := by
  simp only [exp_coe_sub]
  simp only [← coe_sum]
  rw [← EReal.coe_mul, Finset.sum_mul]
  congr 1
  refine Finset.sum_congr rfl fun i _ => ?_
  rw [Finset.sum_mul]
  refine Finset.sum_congr rfl fun k _ => ?_
  rw [← Real.exp_add]
  congr 1; ring

/-- A maximum over `range n` is the maximum over `Fin n`. -/
theorem sup_range_fin (n : ℕ) (f : ℕ → EReal) : (Finset.range n).sup f = Finset.univ.sup fun i : Fin n => f i.val := by
  apply le_antisymm
  · exact Finset.sup_le fun i hi => Finset.le_sup (f := fun i : Fin n => f i.val) (Finset.mem_univ ⟨i, Finset.mem_range.mp hi⟩)
  · exact Finset.sup_le fun i _ => Finset.le_sup (Finset.mem_range.mpr i.isLt)

end Cert.LibOnline

end
-- ==== Proof.KI.NewMemA.lean ====
/-
  The kernel's global statistics are the reference's. With every element of the query and of the memory bank a real
  number, every score is a real; the global maximum the second region is handed is the maximum of memory row `j`'s
  scores over all 65536 query rows, and the global sum it is handed is the sum of `exp (score - that maximum)` over
  them: each core's online pair is the maximum and denominator of its own 32768 rows, and the host stretch combines the
  two cores' pairs by the rescaling identity.
-/
import proofs.«147958_j26001732010458_2_alg».proof.Proof.KI.Host1
import proofs.«147958_j26001732010458_2_alg».proof.Proof.KI.ValAcc1b
import proofs.«147958_j26001732010458_2_alg».proof.Proof.RefCol
import proofs.«147958_j26001732010458_2_alg».proof.Proof.LibNorm
import proofs.«147958_j26001732010458_2_alg».proof.Proof.LibRescale

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibOnline Cert.LibNorm

variable (m : (ℓ : Loc nD τ sig) → Buf (Elt Ideal) ℓ) (c : Dev nD)

/-- The real score of memory row `j` against query row `n`. -/
def scR (j : Fin 64) (n : Fin 65536) : ℝ :=
  ∑ d : Fin 512, (X1 m c (ix2 j d)).toReal * (Cert.ReferenceIdeal.ReadP.val_main_v0 (F := Ideal) (X0 m c) (ix2 n d)).toReal

section Finite
variable (h0 : ∀ i, X0 m c i ≠ ⊤ ∧ X0 m c i ≠ ⊥) (h1 : ∀ i, X1 m c i ≠ ⊤ ∧ X1 m c i ≠ ⊥)

include h0 h1 in
theorem hS (j : Fin 64) (n : Fin 65536) : Sc m c j n = (scR m c j n : EReal) := by
  unfold Sc scR
  rw [Cert.LibOnline.coe_sum]
  refine Finset.sum_congr rfl fun d _ => ?_
  rw [EReal.coe_mul, EReal.coe_toReal (h1 _).1 (h1 _).2]
  rw [Cert.ReferenceIdeal.ReadP.val_main_v0_apply, EReal.coe_toReal (h0 _).1 (h0 _).2]

/-- The reference's scores of memory row `j` are the same inner products. -/
theorem scol_eq (j : Fin 64) : Cert.RefCol.scol (X0 m c) (X1 m c) j = Sc m c j :=
  funext fun n => Cert.RefCol.ref_score_apply (X0 m c) (X1 m c) j n

theorem row_eq (cc : Fin 2) (i : Fin 16) (p : Fin 2048) : rowOf (tOf cc i.val) p = row cc i p :=
  Fin.ext (by show 2048 * (16 * cc.val + i.val % 16) + p.val = 2048 * (16 * cc.val + i.val) + p.val; rw [Nat.mod_eq_of_lt i.isLt])

include h0 h1 in
/-- A core's maximum: over its 16 chunks of 2048 rows. -/
theorem Mc_sup (cc : Fin 2) (j : Fin 64) :
    Mc m c cc j = Finset.univ.sup fun i : Fin 16 => Finset.univ.sup fun p : Fin 2048 => (scR m c j (row cc i p) : EReal) := by
  have hv : (tOf cc 15).val = 16 * cc.val + 15 := rfl
  rw [Mc_eq, ← M0_congr m c hv (tOf cc 15).isLt _ j, (ML0_run m c (scR m c) (hS m c h0 h1) cc j 15 (by norm_num)).1,
    runM_eq_sup, sup_range_fin]
  refine Finset.sup_congr rfl fun i _ => ?_
  unfold cmax chs
  exact Finset.sup_congr rfl fun p _ => by rw [row_eq]

include h0 h1 in
/-- THE GLOBAL MAXIMUM is the maximum over all rows. -/
theorem Gk_eq (j : Fin 64) : Gk m c j = Cert.Spec.rowMax (Sc m c j) := by
  refine (W3_v9_apply m c j).trans ?_
  show (Finset.univ.fold max Cert.Spec.NINF (fun cc : Fin 2 => Mc m c cc j) : EReal) = Cert.Spec.rowMax (Sc m c j)
  unfold Cert.Spec.rowMax
  rw [ninf_bot, fold_max_eq_sup, fold_max_eq_sup]
  have e : (fun n => Sc m c j n) = fun n => (scR m c j n : EReal) := funext fun n => hS m c h0 h1 j n
  rw [show Sc m c j = fun n => (scR m c j n : EReal) from e, sup_rows]
  exact Finset.sup_congr rfl fun cc _ => Mc_sup m c h0 h1 cc j

include h0 h1 in
/-- The global maximum is a real. -/
theorem Gk_real (j : Fin 64) : ∃ g : ℝ, Gk m c j = (g : EReal) := by
  rw [Gk_eq m c h0 h1]
  unfold Cert.Spec.rowMax
  rw [ninf_bot, fold_max_eq_sup, show Sc m c j = fun n => (scR m c j n : EReal) from funext fun n => hS m c h0 h1 j n]
  obtain ⟨g, hg, -⟩ := sup_coe_real (Finset.univ : Finset (Fin 65536)) Finset.univ_nonempty (scR m c j)
  exact ⟨g, hg⟩

include h0 h1 in
/-- THE GLOBAL SUM is the softmax denominator at the global maximum. -/
theorem Dk_eq (j : Fin 64) : Dk m c j = Cert.Spec.rowDen (Sc m c j) (Gk m c j) := by
  obtain ⟨g, hg⟩ := Gk_real m c h0 h1 j
  refine (W3_v8_apply m c j).trans ?_
  show (Cert.Spec.ZERO + ∑ cc : Fin 2, Lc m c cc j * Ideal.exp (Mc m c cc j - Gk m c j) : EReal) = Cert.Spec.rowDen (Sc m c j) (Gk m c j)
  rw [zero_zero, zero_add]
  unfold Cert.Spec.rowDen
  rw [hg, show Sc m c j = fun n => (scR m c j n : EReal) from funext fun n => hS m c h0 h1 j n, sum_rows]
  refine Finset.sum_congr rfl fun cc _ => ?_
  have hv : (tOf cc 15).val = 16 * cc.val + 15 := rfl
  obtain ⟨hM, hL⟩ := ML0_run m c (scR m c) (hS m c h0 h1) cc j 15 (by norm_num)
  obtain ⟨a, ha⟩ := runM_real (chs (scR m c) cc j) 15
  rw [Lc_eq, Mc_eq, ← L0_congr m c hv (tOf cc 15).isLt _ j, ← M0_congr m c hv (tOf cc 15).isLt _ j, hL, hM, runL_eq_sum, ha, rescale,
    Finset.sum_range]
  refine Finset.sum_congr rfl fun i _ => Finset.sum_congr rfl fun p _ => ?_
  unfold chs
  rw [row_eq]

end Finite

end Cert.KernelIdeal.Hand

end
-- ==== Proof.Tail.lean ====
/-
  The gate. Both programs finish the memory update the same way: a pre-gate sum of four terms — the memory bank times
  the first gate matrix's transpose, its bias, the added memory times the second gate matrix's transpose, its bias —
  goes through the sigmoid `g = 1 / (1 + exp (-t))`, and the result is `(1 - g) * memory + g * added memory`. The
  kernel adds the four terms as `(a + b) + (c + d)`, the reference as `((a + b) + c) + d`; on the extended reals these
  are equal, so the two results are the same function of the added memory.
-/
import proofs.«147958_j26001732010458_2_alg».proof.Proof.RefReadP
import Idealize.ShloMosaic.Lib.ValueIdx

noncomputable section

namespace Cert.Tail

open Cert.ReferenceIdeal Cert.ReferenceIdeal.Gen Cert.ReferenceIdeal.ReadP
open Idealize.ShloMosaic

variable {F : FTy → Type} [FloatOps F]

abbrev V64 (F : FTy → Type) := (⟨S64x512, .f32⟩ : BufTy).Contents (Elt F)
abbrev W512 (F : FTy → Type) := (⟨S512x512, .f32⟩ : BufTy).Contents (Elt F)
abbrev B512 (F : FTy → Type) := (⟨S512, .f32⟩ : BufTy).Contents (Elt F)

/-- The four terms of the pre-gate sum. -/
def tA (x1 : V64 F) (x2 : W512 F) : V64 F := Host.dotGeneral dot_S64x512_S512x512_S64x512_1_0_0_1_n_n none x1 (transpose S512x512 [1, 0] x2 transposes_S512x512_S512x512_1_0)
def tB (x3 : B512 F) : V64 F := broadcastInDim S64x512 ![0, 1] bcast_S1x512_S64x512_0_1 (broadcastInDim S1x512 ![1] bcast_S512_S1x512_1 x3)
/-- The reference's association, -/
def preR (x1 : V64 F) (x2 : W512 F) (x3 : B512 F) (x4 : W512 F) (x5 : B512 F) (A : V64 F) : V64 F :=
  addf (addf (addf (tA x1 x2) (tB x3)) (tA A x4)) (tB x5)
/-- and the kernel's. -/
def preK (x1 : V64 F) (x2 : W512 F) (x3 : B512 F) (x4 : W512 F) (x5 : B512 F) (A : V64 F) : V64 F :=
  addf (addf (tA x1 x2) (tB x3)) (addf (tA A x4) (tB x5))

/-- The gated blend from the pre-gate sum `t`, the memory bank and the added memory. -/
def gate (t x1 A : V64 F) : V64 F :=
  addf (mulf (subf (broadcastInDim S64x512 ![] bcast_S_S64x512 (constant S_ .f32 0x3F800000#32))
      (Host.divf (broadcastInDim S64x512 ![] bcast_S_S64x512 (constant S_ .f32 0x3F800000#32))
        (addf (broadcastInDim S64x512 ![] bcast_S_S64x512 (constant S_ .f32 0x3F800000#32)) (Host.exp (Host.negf t))))) x1)
    (mulf (Host.divf (broadcastInDim S64x512 ![] bcast_S_S64x512 (constant S_ .f32 0x3F800000#32))
        (addf (broadcastInDim S64x512 ![] bcast_S_S64x512 (constant S_ .f32 0x3F800000#32)) (Host.exp (Host.negf t)))) A)

/-- On the extended reals the two associations agree. -/
theorem preK_eq_preR (x1 : V64 Ideal) (x2 : W512 Ideal) (x3 : B512 Ideal) (x4 : W512 Ideal) (x5 : B512 Ideal) (A : V64 Ideal) :
    preK x1 x2 x3 x4 x5 A = preR x1 x2 x3 x4 x5 A := by
  unfold preK preR
  funext i
  show (tA x1 x2 i + tB x3 i) + (tA A x4 i + tB x5 i) = ((tA x1 x2 i + tB x3 i) + tA A x4 i) + tB x5 i
  simp only [add_assoc]

/-- THE REFERENCE'S THIRD RESULT through the gate. -/
theorem ref_v51 (x0 : (⟨S32x2048x512, .f32⟩ : BufTy).Contents (Elt F)) (x1 : V64 F) (x2 : W512 F) (x3 : B512 F) (x4 : W512 F) (x5 : B512 F) :
    val_main_v51 (F := F) x0 x1 x2 x3 x4 x5 = gate (preR x1 x2 x3 x4 x5 (val_main_v29 (F := F) x0 x1)) x1 (val_main_v29 (F := F) x0 x1) := rfl

end Cert.Tail

end
-- ==== Proof.KI.Host2.lean ====
/-
  The last host stretch. It adds the two cores' accumulators (each sum started from the zero word), divides the summed
  weighted queries by the larger of the summed absolute weights and the guard, and passes the result — the added
  memory — through the gate with the memory bank and the four gate parameters.
-/
import proofs.«147958_j26001732010458_2_alg».proof.Proof.KI.ValAcc1b
import proofs.«147958_j26001732010458_2_alg».proof.Proof.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- Core `cc`'s two accumulators for memory row `j`, as the second region leaves them. -/
def Acc (cc : Fin 2) (j : Fin 64) (d : Fin 512) : EReal := W4 m c (Proc.devRef .tc main_v10_0) (ix3 cc j d)
def Lab (cc : Fin 2) (j : Fin 64) : EReal := W4 m c (Proc.devRef .tc main_v10_1) (ix3 cc j (0 : Fin 1))

/-- THE ADDED MEMORY at `(j, d)`. -/
theorem W5_v16_apply (j : Fin 64) (d : Fin 512) :
    W5 m c (Proc.devRef .tc main_v16) (ix2 j d)
      = Ideal.div (Cert.Spec.ZERO + ∑ cc : Fin 2, Acc m c cc j d) (max (Cert.Spec.ZERO + ∑ cc : Fin 2, Lab m c cc j) Cert.Spec.EPS) := by
  have e : W5 m c (Proc.devRef .tc main_v16) = Host.divf
      (Host.reduceAdd (W4 m c (Proc.devRef .tc main_v10_0) : FVec Ideal S2x64x512 .f32) (constant (F := Ideal) S_ .f32 0x00000000#32) reducesTo_S2x64x512_S64x512_d0 h_S_)
      (broadcastInDim S64x512 ![0, 1] bcast_S64x1_S64x512_0_1
        (maximumf (Host.reduceAdd (W4 m c (Proc.devRef .tc main_v10_1) : FVec Ideal S2x64x1 .f32) (constant (F := Ideal) S_ .f32 0x00000000#32) reducesTo_S2x64x1_S64x1_d0 h_S_)
          (broadcastInDim S64x1 ![] bcast_S_S64x1 (constant (F := Ideal) S_ .f32 0x2B8CBCCC#32)))) := by
    show StableHlo.after hostOps2 (W4 m c) (Proc.devRef .tc main_v16) = _
    after_results_simp
  rw [e]
  simp only [Host.divf]
  rw [broadcastInDim_apply ![0, 1] bcast_S64x1_S64x512_0_1 _ (ix2 j d) (ix2 j (0 : Fin 1)) (fun a => by
    match a with
    | ⟨0, _⟩ => show j.val = if (64 : ℕ) = 1 then 0 else j.val; rw [if_neg (by decide)]
    | ⟨1, _⟩ => show (0 : ℕ) = if (1 : ℕ) = 1 then 0 else d.val; rw [if_pos rfl])]
  simp only [maximumf]
  rw [broadcastInDim_apply ![] bcast_S_S64x1 _ (ix2 j (0 : Fin 1)) ix0 (fun a => a.elim0)]
  simp only [Host.reduceAdd, Ideal.hostReduceAdd_def, Ideal.hostDivf_def, Ideal.maximumf_def]
  rw [Ideal.hostReduceAdd_single reducesTo_S2x64x512_S64x512_d0 (by decide), Ideal.hostReduceAdd_single reducesTo_S2x64x1_S64x1_d0 (by decide)]
  unfold Acc Lab
  refine congrArg₂ Ideal.div (congrArg (_ + ·) (Finset.sum_congr rfl fun cc _ => congrArg _ ?_))
    (congrArg₂ max (congrArg (_ + ·) (Finset.sum_congr rfl fun cc _ => congrArg _ ?_)) rfl)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- THE THIRD RESULT through the gate. -/
theorem W5_v38_gate :
    W5 m c (Proc.devRef .tc main_v38) = Cert.Tail.gate (F := Ideal)
      (Cert.Tail.preK (W4 m c (Proc.devRef .tc main_arg1)) (W4 m c (Proc.devRef .tc main_arg2)) (W4 m c (Proc.devRef .tc main_arg3)) (W4 m c (Proc.devRef .tc main_arg4)) (W4 m c (Proc.devRef .tc main_arg5)) (W5 m c (Proc.devRef .tc main_v16)))
      (W4 m c (Proc.devRef .tc main_arg1)) (W5 m c (Proc.devRef .tc main_v16)) := by
  show StableHlo.after hostOps2 (W4 m c) (Proc.devRef .tc main_v38) = Cert.Tail.gate (F := Ideal)
      (Cert.Tail.preK (W4 m c (Proc.devRef .tc main_arg1)) (W4 m c (Proc.devRef .tc main_arg2)) (W4 m c (Proc.devRef .tc main_arg3)) (W4 m c (Proc.devRef .tc main_arg4)) (W4 m c (Proc.devRef .tc main_arg5)) (StableHlo.after hostOps2 (W4 m c) (Proc.devRef .tc main_v16)))
      (W4 m c (Proc.devRef .tc main_arg1)) (StableHlo.after hostOps2 (W4 m c) (Proc.devRef .tc main_v16))
  unfold Cert.Tail.gate Cert.Tail.preK Cert.Tail.tA Cert.Tail.tB
  after_results_simp
  all_goals (try rfl)

end Cert.KernelIdeal.Hand

end
-- ==== Proof.KI.NewMemB.lean ====
/-
  The third result (the gated memory update) of the idealized kernel is the reference's. The kernel's hard-shrunk
  weights are the reference's, because the global statistics are; its two accumulated arrays, summed over the cores,
  are the sums over all 65536 query rows of the weights times the query and of the weights' absolute values; the
  reference divides each weight by the normaliser before summing, the kernel divides the sum, and the two agree
  because the normaliser is at least the positive guard. The gate then takes equal added memories to equal results.
-/
import proofs.«147958_j26001732010458_2_alg».proof.Proof.KI.NewMemA
import proofs.«147958_j26001732010458_2_alg».proof.Proof.KI.Host2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibOnline Cert.LibNorm

variable (m : (ℓ : Loc nD τ sig) → Buf (Elt Ideal) ℓ) (c : Dev nD)

theorem eps_pos : (0 : EReal) < Cert.Spec.EPS := by
  have h : ∃ e : ℝ, 0 < e ∧ Cert.Spec.EPS = (e : EReal) := by
    refine ⟨_, ?_, by simp [Cert.Spec.EPS, Ideal.ofBits, Ideal.ieee]; rfl⟩
    norm_num
  obtain ⟨e, he, h'⟩ := h
  rw [h']; exact_mod_cast he

theorem rowNorm_pos {K : Type*} [Fintype K] (ap : K → EReal) : 0 < Cert.Spec.rowNorm ap :=
  lt_max_of_lt_right eps_pos

theorem row_eq1 (cc : Fin 2) (i : Fin 16) (p : Fin 2048) : rowOf1 (tOf1 cc i.val) p = row cc i p :=
  Fin.ext (by show 2048 * (16 * cc.val + i.val % 16) + p.val = 2048 * (16 * cc.val + i.val) + p.val; rw [Nat.mod_eq_of_lt i.isLt])

/-- The second region's two arrays at an index: core `cc`'s accumulators after its last chunk. -/
theorem W4_v10_0_apply (cc : Fin 2) (j : Fin 64) (d : Fin 512) :
    Acc m c cc j d = Cert.Spec.ZERO + ∑ i : Fin 16, chA m c (tOf1 cc i.val) j d := by
  unfold Acc
  have hv : (tOf1 cc 15).val = 16 * cc.val + 15 := rfl
  rw [W4_arr m c 4, final1_4]
  show A1 m c (16 * cc.val + 15) _ j d = _
  rw [← A1_congr m c hv (tOf1 cc 15).isLt _ j d, A1_run m c cc j d 15 (by norm_num), Finset.sum_range]
theorem W4_v10_1_apply (cc : Fin 2) (j : Fin 64) :
    Lab m c cc j = Cert.Spec.ZERO + ∑ i : Fin 16, chB m c (tOf1 cc i.val) j := by
  unfold Lab
  have hv : (tOf1 cc 15).val = 16 * cc.val + 15 := rfl
  rw [W4_arr m c 5, final1_5]
  show B1 m c (16 * cc.val + 15) _ j = _
  rw [← B1_congr m c hv (tOf1 cc 15).isLt _ j, B1_run m c cc j 15 (by norm_num), Finset.sum_range]

/-- The summed weighted queries: over all rows. -/
theorem num_eq (j : Fin 64) (d : Fin 512) :
    Cert.Spec.ZERO + ∑ cc : Fin 2, Acc m c cc j d
      = ∑ n : Fin 65536, apk m c j n * Cert.ReferenceIdeal.ReadP.val_main_v0 (F := Ideal) (X0 m c) (ix2 n d) := by
  rw [zero_zero, zero_add, sum_rows]
  refine Finset.sum_congr rfl fun cc _ => ?_
  rw [W4_v10_0_apply, zero_zero, zero_add]
  refine Finset.sum_congr rfl fun i _ => ?_
  unfold chA
  exact Finset.sum_congr rfl fun p _ => by rw [row_eq1]
/-- The summed absolute weights: over all rows. -/
theorem den_eq (j : Fin 64) :
    max (Cert.Spec.ZERO + ∑ cc : Fin 2, Lab m c cc j) Cert.Spec.EPS
      = Cert.Spec.rowNorm (apk m c j) := by
  unfold Cert.Spec.rowNorm
  rw [zero_zero, zero_add, sum_rows]
  refine congrArg (max · _) (Finset.sum_congr rfl fun cc _ => ?_)
  rw [W4_v10_1_apply, zero_zero, zero_add]
  refine Finset.sum_congr rfl fun i _ => ?_
  unfold chB
  exact Finset.sum_congr rfl fun p _ => by rw [row_eq1]

section Finite
variable (h0 : ∀ i, X0 m c i ≠ ⊤ ∧ X0 m c i ≠ ⊥) (h1 : ∀ i, X1 m c i ≠ ⊤ ∧ X1 m c i ≠ ⊥)

include h0 h1 in
/-- The kernel's hard-shrunk weights are the reference's. -/
theorem apk_eq (j : Fin 64) : apk m c j = Cert.RefCol.apc (X0 m c) (X1 m c) j := by
  funext n
  unfold apk Cert.RefCol.apc Cert.Spec.soft
  rw [scol_eq, Dk_eq m c h0 h1, Gk_eq m c h0 h1]

include h0 h1 in
/-- THE ADDED MEMORY of the idealized kernel is the reference's. -/
theorem addmem_eq : W5 m c (Proc.devRef .tc main_v16) = Cert.ReferenceIdeal.ReadP.val_main_v29 (F := Ideal) (X0 m c) (X1 m c) := by
  funext y
  obtain ⟨j, d, rfl⟩ : ∃ (j : Fin 64) (d : Fin 512), y = ix2 j d := ⟨y 0, y 1, eq_ix2 y⟩
  rw [W5_v16_apply, num_eq, den_eq, Cert.RefCol.ref_addmem_apply, sum_div_pull _ _ _ (rowNorm_pos _), apk_eq m c h0 h1]

/-- The arguments reach the last host stretch as launched. -/
theorem W4_plain (r : Ref sig .tc) (h4 : ∀ w, Pipeline.arrRef spec1 w ≠ r) (h3 : r ∉ hostOps1_W)
    (h2 : ∀ w, Pipeline.arrRef spec0 w ≠ r) (h1' : r ∉ hostOps0_W) : W4 m c (Proc.devRef .tc r) = m ((c : Thread nD τ).loc r) :=
  (W4_of_ne m c r h4).trans <| (W3_of m c r h3).trans <| (W2_of_ne m c r h2).trans <| (W1_of m c r h1').trans rfl
theorem W4_main_arg1 : W4 m c (Proc.devRef .tc main_arg1) = m ((c : Thread nD τ).loc main_arg1) :=
  ((W4_arr m c 1).trans (((dat1 (V3 m) c).arrAt_in 1 rfl _).trans (A_eq1 (V3 m) c 1))).trans <|
    (W3_of m c main_arg1 (by decide)).trans <|
    ((W2_arr m c 1).trans (((dat0 (V1 m) c).arrAt_in 1 rfl _).trans (A_eq0 (V1 m) c 1))).trans <|
    (W1_of m c main_arg1 (by decide)).trans rfl

include h0 h1 in
/-- THE THIRD RESULT of the idealized kernel is the reference's third result. -/
theorem W5_v38 : W5 m c (Proc.devRef .tc main_v38)
    = Cert.ReferenceIdeal.ReadP.val_main_v51 (F := Ideal) (X0 m c) (X1 m c) (m ((c : Thread nD τ).loc main_arg2)) (m ((c : Thread nD τ).loc main_arg3))
        (m ((c : Thread nD τ).loc main_arg4)) (m ((c : Thread nD τ).loc main_arg5)) := by
  rw [W5_v38_gate, Cert.Tail.ref_v51, addmem_eq m c h0 h1, W4_main_arg1,
    W4_plain m c main_arg2 (by decide) (by decide) (by decide) (by decide),
    W4_plain m c main_arg3 (by decide) (by decide) (by decide) (by decide),
    W4_plain m c main_arg4 (by decide) (by decide) (by decide) (by decide),
    W4_plain m c main_arg5 (by decide) (by decide) (by decide) (by decide)]
  exact congrArg (fun t => Cert.Tail.gate (F := Ideal) t _ _) (Cert.Tail.preK_eq_preR _ _ _ _ _ _)

end Finite

end Cert.KernelIdeal.Hand

end
-- ==== Proof.RefA.lean ====
/-
  The reference's buffers after its run, one at a time: the fold of its 105 host operations, read at the buffer that
  holds the normalised read-path attention weights (and at its reshaped copy, the second result), is the generated
  staged value of the two arguments it depends on.
-/
import proofs.«147958_j26001732010458_2_alg».proof.Proof.RefRunP
import proofs.«147958_j26001732010458_2_alg».proof.Proof.RefReadP

noncomputable section

namespace Cert.RefAfter

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 1000000 in
set_option maxHeartbeats 42000000 in
theorem after_v79 (V : Valuation τ sig (Elt F)) :
    after ops V (Proc.devRef .tc main_v79) = val_main_v79 (F := F) (V (Proc.devRef .tc main_arg0)) (V (Proc.devRef .tc main_arg1)) := by
  after_results_simp
  exact rfl

set_option maxRecDepth 1000000 in
set_option maxHeartbeats 42000000 in
theorem after_v83 (V : Valuation τ sig (Elt F)) :
    after ops V (Proc.devRef .tc main_v83) = val_main_v83 (F := F) (V (Proc.devRef .tc main_arg0)) (V (Proc.devRef .tc main_arg1)) := by
  after_results_simp
  exact rfl

end Cert.RefAfter

end
-- ==== Proof.RefB.lean ====
/-
  The reference's first result after its run. Its buffer is written by the last three host operations but one — the
  concatenation, along the feature axis, of the reshaped query with the attention weights' product with the memory bank,
  then the reshape of that. The 102 operations before them are taken as one line of their own: over it the two inputs of
  the concatenation are the generated staged values, and the last three operations are then read off one at a time.
-/
import proofs.«147958_j26001732010458_2_alg».proof.Proof.RefRunP
import proofs.«147958_j26001732010458_2_alg».proof.Proof.RefReadP

noncomputable section

namespace Cert.RefAfter

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The host operations before the concatenation: the first 102 of the 105. -/
abbrev pre : List (HloOp τ sig (Elt F)) :=
  [ reshape main_arg0 main_v0 rfl shapeCasts_S32x2048x512_S65536x512,
    unary main_v0 main_v1 ((transpose S512x65536 [1, 0] · transposes_S65536x512_S512x65536_1_0) : (⟨S65536x512, .f32⟩ : BufTy).Contents (Elt F) → (⟨S512x65536, .f32⟩ : BufTy).Contents (Elt F)),
    binary main_arg1 main_v1 main_v2 ((fun l r => Host.dotGeneral dot_S64x512_S512x65536_S64x65536_1_0_0_1_n_n none l r) : (⟨S64x512, .f32⟩ : BufTy).Contents (Elt F) → (⟨S512x65536, .f32⟩ : BufTy).Contents (Elt F) → (⟨S64x65536, .f32⟩ : BufTy).Contents (Elt F)),
    nullary main_cst (constant S_ .f32 0xFF800000#32),
    binary main_v2 main_cst main_v3 ((fun x v => Host.reduce FloatOps.maximumf x v reducesTo_S64x65536_S64_d1 h_S_) : (⟨S64x65536, .f32⟩ : BufTy).Contents (Elt F) → (⟨S_, .f32⟩ : BufTy).Contents (Elt F) → (⟨S64, .f32⟩ : BufTy).Contents (Elt F)),
    nullary main_cst_0 (constant S_ .f32 0xFF800000#32),
    unary main_cst_0 main_v4 (broadcastInDim S64 ![] bcast_S_S64 : (⟨S_, .f32⟩ : BufTy).Contents (Elt F) → (⟨S64, .f32⟩ : BufTy).Contents (Elt F)),
    binary main_v4 main_v3 main_v5 (maximumf : (⟨S64, .f32⟩ : BufTy).Contents (Elt F) → (⟨S64, .f32⟩ : BufTy).Contents (Elt F) → (⟨S64, .f32⟩ : BufTy).Contents (Elt F)),
    unary main_v5 main_v6 (broadcastInDim S64x1 ![0] bcast_S64_S64x1_0 : (⟨S64, .f32⟩ : BufTy).Contents (Elt F) → (⟨S64x1, .f32⟩ : BufTy).Contents (Elt F)),
    unary main_v6 main_v7 (broadcastInDim S64x65536 ![0, 1] bcast_S64x1_S64x65536_0_1 : (⟨S64x1, .f32⟩ : BufTy).Contents (Elt F) → (⟨S64x65536, .f32⟩ : BufTy).Contents (Elt F)),
    binary main_v2 main_v7 main_v8 (subf : (⟨S64x65536, .f32⟩ : BufTy).Contents (Elt F) → (⟨S64x65536, .f32⟩ : BufTy).Contents (Elt F) → (⟨S64x65536, .f32⟩ : BufTy).Contents (Elt F)),
    unary main_v8 main_v9 (Host.exp : (⟨S64x65536, .f32⟩ : BufTy).Contents (Elt F) → (⟨S64x65536, .f32⟩ : BufTy).Contents (Elt F)),
    nullary main_cst_1 (constant S_ .f32 0x00000000#32),
    binary main_v9 main_cst_1 main_v10 ((fun x v => Host.reduceAdd x v reducesTo_S64x65536_S64_d1 h_S_) : (⟨S64x65536, .f32⟩ : BufTy).Contents (Elt F) → (⟨S_, .f32⟩ : BufTy).Contents (Elt F) → (⟨S64, .f32⟩ : BufTy).Contents (Elt F)),
    unary main_v10 main_v11 (broadcastInDim S64x1 ![0] bcast_S64_S64x1_0 : (⟨S64, .f32⟩ : BufTy).Contents (Elt F) → (⟨S64x1, .f32⟩ : BufTy).Contents (Elt F)),
    unary main_v11 main_v12 (broadcastInDim S64x65536 ![0, 1] bcast_S64x1_S64x65536_0_1 : (⟨S64x1, .f32⟩ : BufTy).Contents (Elt F) → (⟨S64x65536, .f32⟩ : BufTy).Contents (Elt F)),
    binary main_v9 main_v12 main_v13 (Host.divf : (⟨S64x65536, .f32⟩ : BufTy).Contents (Elt F) → (⟨S64x65536, .f32⟩ : BufTy).Contents (Elt F) → (⟨S64x65536, .f32⟩ : BufTy).Contents (Elt F)),
    nullary main_cst_2 (constant S_ .f32 0x3B23D70A#32),
    unary main_cst_2 main_v14 (broadcastInDim S64x65536 ![] bcast_S_S64x65536 : (⟨S_, .f32⟩ : BufTy).Contents (Elt F) → (⟨S64x65536, .f32⟩ : BufTy).Contents (Elt F)),
    binary main_v13 main_v14 main_v15 (subf : (⟨S64x65536, .f32⟩ : BufTy).Contents (Elt F) → (⟨S64x65536, .f32⟩ : BufTy).Contents (Elt F) → (⟨S64x65536, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S64x65536, .f32⟩) main_call0_v0) (broadcastInDim S64x65536 ![] bcast_S_S64x65536),
    TRef.binary (TRef.of (T := ⟨S64x65536, .f32⟩) main_v15) (TRef.of (T := ⟨S64x65536, .f32⟩) main_call0_v0) (TRef.of (T := ⟨S64x65536, .f32⟩) main_v16) maximumf,
    binary main_v16 main_v13 main_v17 (mulf : (⟨S64x65536, .f32⟩ : BufTy).Contents (Elt F) → (⟨S64x65536, .f32⟩ : BufTy).Contents (Elt F) → (⟨S64x65536, .f32⟩ : BufTy).Contents (Elt F)),
    unary main_v15 main_v18 (Host.absf : (⟨S64x65536, .f32⟩ : BufTy).Contents (Elt F) → (⟨S64x65536, .f32⟩ : BufTy).Contents (Elt F)),
    nullary main_cst_3 (constant S_ .f32 0x2B8CBCCC#32),
    unary main_cst_3 main_v19 (broadcastInDim S64x65536 ![] bcast_S_S64x65536 : (⟨S_, .f32⟩ : BufTy).Contents (Elt F) → (⟨S64x65536, .f32⟩ : BufTy).Contents (Elt F)),
    binary main_v18 main_v19 main_v20 (addf : (⟨S64x65536, .f32⟩ : BufTy).Contents (Elt F) → (⟨S64x65536, .f32⟩ : BufTy).Contents (Elt F) → (⟨S64x65536, .f32⟩ : BufTy).Contents (Elt F)),
    binary main_v17 main_v20 main_v21 (Host.divf : (⟨S64x65536, .f32⟩ : BufTy).Contents (Elt F) → (⟨S64x65536, .f32⟩ : BufTy).Contents (Elt F) → (⟨S64x65536, .f32⟩ : BufTy).Contents (Elt F)),
    unary main_v21 main_v22 (Host.absf : (⟨S64x65536, .f32⟩ : BufTy).Contents (Elt F) → (⟨S64x65536, .f32⟩ : BufTy).Contents (Elt F)),
    nullary main_cst_4 (constant S_ .f32 0x00000000#32),
    binary main_v22 main_cst_4 main_v23 ((fun x v => Host.reduceAdd x v reducesTo_S64x65536_S64_d1 h_S_) : (⟨S64x65536, .f32⟩ : BufTy).Contents (Elt F) → (⟨S_, .f32⟩ : BufTy).Contents (Elt F) → (⟨S64, .f32⟩ : BufTy).Contents (Elt F)),
    unary main_v23 main_v24 (broadcastInDim S64x1 ![0] bcast_S64_S64x1_0 : (⟨S64, .f32⟩ : BufTy).Contents (Elt F) → (⟨S64x1, .f32⟩ : BufTy).Contents (Elt F)),
    nullary main_cst_5 (constant S_ .f32 0x2B8CBCCC#32),
    unary main_cst_5 main_v25 (broadcastInDim S64x1 ![] bcast_S_S64x1 : (⟨S_, .f32⟩ : BufTy).Contents (Elt F) → (⟨S64x1, .f32⟩ : BufTy).Contents (Elt F)),
    binary main_v24 main_v25 main_v26 (maximumf : (⟨S64x1, .f32⟩ : BufTy).Contents (Elt F) → (⟨S64x1, .f32⟩ : BufTy).Contents (Elt F) → (⟨S64x1, .f32⟩ : BufTy).Contents (Elt F)),
    unary main_v26 main_v27 (broadcastInDim S64x65536 ![0, 1] bcast_S64x1_S64x65536_0_1 : (⟨S64x1, .f32⟩ : BufTy).Contents (Elt F) → (⟨S64x65536, .f32⟩ : BufTy).Contents (Elt F)),
    binary main_v21 main_v27 main_v28 (Host.divf : (⟨S64x65536, .f32⟩ : BufTy).Contents (Elt F) → (⟨S64x65536, .f32⟩ : BufTy).Contents (Elt F) → (⟨S64x65536, .f32⟩ : BufTy).Contents (Elt F)),
    binary main_v28 main_v0 main_v29 ((fun l r => Host.dotGeneral dot_S64x65536_S65536x512_S64x512_1_0_0_1_n_n none l r) : (⟨S64x65536, .f32⟩ : BufTy).Contents (Elt F) → (⟨S65536x512, .f32⟩ : BufTy).Contents (Elt F) → (⟨S64x512, .f32⟩ : BufTy).Contents (Elt F)),
    unary main_arg2 main_v30 ((transpose S512x512 [1, 0] · transposes_S512x512_S512x512_1_0) : (⟨S512x512, .f32⟩ : BufTy).Contents (Elt F) → (⟨S512x512, .f32⟩ : BufTy).Contents (Elt F)),
    binary main_arg1 main_v30 main_v31 ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)),
    unary main_arg3 main_v32 (broadcastInDim S1x512 ![1] bcast_S512_S1x512_1 : (⟨S512, .f32⟩ : BufTy).Contents (Elt F) → (⟨S1x512, .f32⟩ : BufTy).Contents (Elt F)),
    unary main_v32 main_v33 (broadcastInDim S64x512 ![0, 1] bcast_S1x512_S64x512_0_1 : (⟨S1x512, .f32⟩ : BufTy).Contents (Elt F) → (⟨S64x512, .f32⟩ : BufTy).Contents (Elt F)),
    binary main_v31 main_v33 main_v34 (addf : (⟨S64x512, .f32⟩ : BufTy).Contents (Elt F) → (⟨S64x512, .f32⟩ : BufTy).Contents (Elt F) → (⟨S64x512, .f32⟩ : BufTy).Contents (Elt F)),
    unary main_arg4 main_v35 ((transpose S512x512 [1, 0] · transposes_S512x512_S512x512_1_0) : (⟨S512x512, .f32⟩ : BufTy).Contents (Elt F) → (⟨S512x512, .f32⟩ : BufTy).Contents (Elt F)),
    binary main_v29 main_v35 main_v36 ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)),
    binary main_v34 main_v36 main_v37 (addf : (⟨S64x512, .f32⟩ : BufTy).Contents (Elt F) → (⟨S64x512, .f32⟩ : BufTy).Contents (Elt F) → (⟨S64x512, .f32⟩ : BufTy).Contents (Elt F)),
    unary main_arg5 main_v38 (broadcastInDim S1x512 ![1] bcast_S512_S1x512_1 : (⟨S512, .f32⟩ : BufTy).Contents (Elt F) → (⟨S1x512, .f32⟩ : BufTy).Contents (Elt F)),
    unary main_v38 main_v39 (broadcastInDim S64x512 ![0, 1] bcast_S1x512_S64x512_0_1 : (⟨S1x512, .f32⟩ : BufTy).Contents (Elt F) → (⟨S64x512, .f32⟩ : BufTy).Contents (Elt F)),
    binary main_v37 main_v39 main_v40 (addf : (⟨S64x512, .f32⟩ : BufTy).Contents (Elt F) → (⟨S64x512, .f32⟩ : BufTy).Contents (Elt F) → (⟨S64x512, .f32⟩ : BufTy).Contents (Elt F)),
    unary main_v40 main_v41 (Host.negf : (⟨S64x512, .f32⟩ : BufTy).Contents (Elt F) → (⟨S64x512, .f32⟩ : BufTy).Contents (Elt F)),
    unary main_v41 main_v42 (Host.exp : (⟨S64x512, .f32⟩ : BufTy).Contents (Elt F) → (⟨S64x512, .f32⟩ : BufTy).Contents (Elt F)),
    nullary main_cst_6 (constant S_ .f32 0x3F800000#32),
    unary main_cst_6 main_v43 (broadcastInDim S64x512 ![] bcast_S_S64x512 : (⟨S_, .f32⟩ : BufTy).Contents (Elt F) → (⟨S64x512, .f32⟩ : BufTy).Contents (Elt F)),
    binary main_v43 main_v42 main_v44 (addf : (⟨S64x512, .f32⟩ : BufTy).Contents (Elt F) → (⟨S64x512, .f32⟩ : BufTy).Contents (Elt F) → (⟨S64x512, .f32⟩ : BufTy).Contents (Elt F)),
    nullary main_cst_7 (constant S_ .f32 0x3F800000#32),
    unary main_cst_7 main_v45 (broadcastInDim S64x512 ![] bcast_S_S64x512 : (⟨S_, .f32⟩ : BufTy).Contents (Elt F) → (⟨S64x512, .f32⟩ : BufTy).Contents (Elt F)),
    binary main_v45 main_v44 main_v46 (Host.divf : (⟨S64x512, .f32⟩ : BufTy).Contents (Elt F) → (⟨S64x512, .f32⟩ : BufTy).Contents (Elt F) → (⟨S64x512, .f32⟩ : BufTy).Contents (Elt F)),
    nullary main_cst_8 (constant S_ .f32 0x3F800000#32),
    unary main_cst_8 main_v47 (broadcastInDim S64x512 ![] bcast_S_S64x512 : (⟨S_, .f32⟩ : BufTy).Contents (Elt F) → (⟨S64x512, .f32⟩ : BufTy).Contents (Elt F)),
    binary main_v47 main_v46 main_v48 (subf : (⟨S64x512, .f32⟩ : BufTy).Contents (Elt F) → (⟨S64x512, .f32⟩ : BufTy).Contents (Elt F) → (⟨S64x512, .f32⟩ : BufTy).Contents (Elt F)),
    binary main_v48 main_arg1 main_v49 (mulf : (⟨S64x512, .f32⟩ : BufTy).Contents (Elt F) → (⟨S64x512, .f32⟩ : BufTy).Contents (Elt F) → (⟨S64x512, .f32⟩ : BufTy).Contents (Elt F)),
    binary main_v46 main_v29 main_v50 (mulf : (⟨S64x512, .f32⟩ : BufTy).Contents (Elt F) → (⟨S64x512, .f32⟩ : BufTy).Contents (Elt F) → (⟨S64x512, .f32⟩ : BufTy).Contents (Elt F)),
    binary main_v49 main_v50 main_v51 (addf : (⟨S64x512, .f32⟩ : BufTy).Contents (Elt F) → (⟨S64x512, .f32⟩ : BufTy).Contents (Elt F) → (⟨S64x512, .f32⟩ : BufTy).Contents (Elt F)),
    unary main_arg1 main_v52 ((transpose S512x64 [1, 0] · transposes_S64x512_S512x64_1_0) : (⟨S64x512, .f32⟩ : BufTy).Contents (Elt F) → (⟨S512x64, .f32⟩ : BufTy).Contents (Elt F)),
    binary main_v0 main_v52 main_v53 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    nullary main_cst_9 (constant S_ .f32 0xFF800000#32),
    binary main_v53 main_cst_9 main_v54 ((fun x v => Host.reduce FloatOps.maximumf x v reducesTo_S65536x64_S65536_d1 h_S_) : (⟨S65536x64, .f32⟩ : BufTy).Contents (Elt F) → (⟨S_, .f32⟩ : BufTy).Contents (Elt F) → (⟨S65536, .f32⟩ : BufTy).Contents (Elt F)),
    nullary main_cst_10 (constant S_ .f32 0xFF800000#32),
    unary main_cst_10 main_v55 (broadcastInDim S65536 ![] bcast_S_S65536 : (⟨S_, .f32⟩ : BufTy).Contents (Elt F) → (⟨S65536, .f32⟩ : BufTy).Contents (Elt F)),
    binary main_v55 main_v54 main_v56 (maximumf : (⟨S65536, .f32⟩ : BufTy).Contents (Elt F) → (⟨S65536, .f32⟩ : BufTy).Contents (Elt F) → (⟨S65536, .f32⟩ : BufTy).Contents (Elt F)),
    unary main_v56 main_v57 (broadcastInDim S65536x1 ![0] bcast_S65536_S65536x1_0 : (⟨S65536, .f32⟩ : BufTy).Contents (Elt F) → (⟨S65536x1, .f32⟩ : BufTy).Contents (Elt F)),
    unary main_v57 main_v58 (broadcastInDim S65536x64 ![0, 1] bcast_S65536x1_S65536x64_0_1 : (⟨S65536x1, .f32⟩ : BufTy).Contents (Elt F) → (⟨S65536x64, .f32⟩ : BufTy).Contents (Elt F)),
    binary main_v53 main_v58 main_v59 (subf : (⟨S65536x64, .f32⟩ : BufTy).Contents (Elt F) → (⟨S65536x64, .f32⟩ : BufTy).Contents (Elt F) → (⟨S65536x64, .f32⟩ : BufTy).Contents (Elt F)),
    unary main_v59 main_v60 (Host.exp : (⟨S65536x64, .f32⟩ : BufTy).Contents (Elt F) → (⟨S65536x64, .f32⟩ : BufTy).Contents (Elt F)),
    nullary main_cst_11 (constant S_ .f32 0x00000000#32),
    binary main_v60 main_cst_11 main_v61 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v61 main_v62 (broadcastInDim S65536x1 ![0] bcast_S65536_S65536x1_0 : (⟨S65536, .f32⟩ : BufTy).Contents (Elt F) → (⟨S65536x1, .f32⟩ : BufTy).Contents (Elt F)),
    unary main_v62 main_v63 (broadcastInDim S65536x64 ![0, 1] bcast_S65536x1_S65536x64_0_1 : (⟨S65536x1, .f32⟩ : BufTy).Contents (Elt F) → (⟨S65536x64, .f32⟩ : BufTy).Contents (Elt F)),
    binary main_v60 main_v63 main_v64 (Host.divf : (⟨S65536x64, .f32⟩ : BufTy).Contents (Elt F) → (⟨S65536x64, .f32⟩ : BufTy).Contents (Elt F) → (⟨S65536x64, .f32⟩ : BufTy).Contents (Elt F)),
    nullary main_cst_12 (constant S_ .f32 0x3B23D70A#32),
    unary main_cst_12 main_v65 (broadcastInDim S65536x64 ![] bcast_S_S65536x64 : (⟨S_, .f32⟩ : BufTy).Contents (Elt F) → (⟨S65536x64, .f32⟩ : BufTy).Contents (Elt F)),
    binary main_v64 main_v65 main_v66 (subf : (⟨S65536x64, .f32⟩ : BufTy).Contents (Elt F) → (⟨S65536x64, .f32⟩ : BufTy).Contents (Elt F) → (⟨S65536x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x64, .f32⟩) main_call1_v0) (broadcastInDim S65536x64 ![] bcast_S_S65536x64),
    TRef.binary (TRef.of (T := ⟨S65536x64, .f32⟩) main_v66) (TRef.of (T := ⟨S65536x64, .f32⟩) main_call1_v0) (TRef.of (T := ⟨S65536x64, .f32⟩) main_v67) maximumf,
    binary main_v67 main_v64 main_v68 (mulf : (⟨S65536x64, .f32⟩ : BufTy).Contents (Elt F) → (⟨S65536x64, .f32⟩ : BufTy).Contents (Elt F) → (⟨S65536x64, .f32⟩ : BufTy).Contents (Elt F)),
    unary main_v66 main_v69 (Host.absf : (⟨S65536x64, .f32⟩ : BufTy).Contents (Elt F) → (⟨S65536x64, .f32⟩ : BufTy).Contents (Elt F)),
    nullary main_cst_13 (constant S_ .f32 0x2B8CBCCC#32),
    unary main_cst_13 main_v70 (broadcastInDim S65536x64 ![] bcast_S_S65536x64 : (⟨S_, .f32⟩ : BufTy).Contents (Elt F) → (⟨S65536x64, .f32⟩ : BufTy).Contents (Elt F)),
    binary main_v69 main_v70 main_v71 (addf : (⟨S65536x64, .f32⟩ : BufTy).Contents (Elt F) → (⟨S65536x64, .f32⟩ : BufTy).Contents (Elt F) → (⟨S65536x64, .f32⟩ : BufTy).Contents (Elt F)),
    binary main_v68 main_v71 main_v72 (Host.divf : (⟨S65536x64, .f32⟩ : BufTy).Contents (Elt F) → (⟨S65536x64, .f32⟩ : BufTy).Contents (Elt F) → (⟨S65536x64, .f32⟩ : BufTy).Contents (Elt F)),
    unary main_v72 main_v73 (Host.absf : (⟨S65536x64, .f32⟩ : BufTy).Contents (Elt F) → (⟨S65536x64, .f32⟩ : BufTy).Contents (Elt F)),
    nullary main_cst_14 (constant S_ .f32 0x00000000#32),
    binary main_v73 main_cst_14 main_v74 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v74 main_v75 (broadcastInDim S65536x1 ![0] bcast_S65536_S65536x1_0 : (⟨S65536, .f32⟩ : BufTy).Contents (Elt F) → (⟨S65536x1, .f32⟩ : BufTy).Contents (Elt F)),
    nullary main_cst_15 (constant S_ .f32 0x2B8CBCCC#32),
    unary main_cst_15 main_v76 (broadcastInDim S65536x1 ![] bcast_S_S65536x1 : (⟨S_, .f32⟩ : BufTy).Contents (Elt F) → (⟨S65536x1, .f32⟩ : BufTy).Contents (Elt F)),
    binary main_v75 main_v76 main_v77 (maximumf : (⟨S65536x1, .f32⟩ : BufTy).Contents (Elt F) → (⟨S65536x1, .f32⟩ : BufTy).Contents (Elt F) → (⟨S65536x1, .f32⟩ : BufTy).Contents (Elt F)),
    unary main_v77 main_v78 (broadcastInDim S65536x64 ![0, 1] bcast_S65536x1_S65536x64_0_1 : (⟨S65536x1, .f32⟩ : BufTy).Contents (Elt F) → (⟨S65536x64, .f32⟩ : BufTy).Contents (Elt F)),
    binary main_v72 main_v78 main_v79 (Host.divf : (⟨S65536x64, .f32⟩ : BufTy).Contents (Elt F) → (⟨S65536x64, .f32⟩ : BufTy).Contents (Elt F) → (⟨S65536x64, .f32⟩ : BufTy).Contents (Elt F)),
    binary main_v79 main_arg1 main_v80 ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)) ]

/-- The last three operations. -/
abbrev op81 : HloOp τ sig (Elt F) := binary main_v0 main_v80 main_v81 ((fun a b => concatenate S65536x1024 1 [⟨S65536x512, a⟩, ⟨S65536x512, b⟩] concatenates_S65536x512_S65536x512_S65536x1024_d1) : (⟨S65536x512, .f32⟩ : BufTy).Contents (Elt F) → (⟨S65536x512, .f32⟩ : BufTy).Contents (Elt F) → (⟨S65536x1024, .f32⟩ : BufTy).Contents (Elt F))
abbrev op82 : HloOp τ sig (Elt F) := reshape main_v81 main_v82 rfl shapeCasts_S65536x1024_S32x2048x1024
abbrev op83 : HloOp τ sig (Elt F) := reshape main_v79 main_v83 rfl shapeCasts_S65536x64_S32x2048x64

set_option maxRecDepth 100000 in
theorem ops_split : (ops : List (HloOp τ sig (Elt F))) = pre ++ [op81, op82, op83] := rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 1000000 in
set_option maxHeartbeats 42000000 in
theorem pre_v0 (V : Valuation τ sig (Elt F)) :
    after pre V (Proc.devRef .tc main_v0) = val_main_v0 (F := F) (V (Proc.devRef .tc main_arg0)) := by
  after_results_simp
  exact rfl

set_option maxRecDepth 1000000 in
set_option maxHeartbeats 42000000 in
theorem pre_v80 (V : Valuation τ sig (Elt F)) :
    after pre V (Proc.devRef .tc main_v80) = val_main_v80 (F := F) (V (Proc.devRef .tc main_arg0)) (V (Proc.devRef .tc main_arg1)) := by
  after_results_simp
  exact rfl

/-- THE FIRST RESULT's buffer after the run is the generated staged value. -/
theorem after_v82 (V : Valuation τ sig (Elt F)) :
    after ops V (Proc.devRef .tc main_v82) = val_main_v82 (F := F) (V (Proc.devRef .tc main_arg0)) (V (Proc.devRef .tc main_arg1)) := by
  rw [ops_split, after_append]
  generalize hW : after pre V = W
  have h0 : W (Proc.devRef .tc main_v0) = val_main_v0 (F := F) (V (Proc.devRef .tc main_arg0)) := by rw [← hW]; exact pre_v0 V
  have h80 : W (Proc.devRef .tc main_v80) = val_main_v80 (F := F) (V (Proc.devRef .tc main_arg0)) (V (Proc.devRef .tc main_arg1)) := by rw [← hW]; exact pre_v80 V
  simp only [after_cons, after_nil]
  rw [reshape_result_ne (h := (by decide : main_v82 ≠ main_v83)), reshape_result, binary_result, h0, h80]
  rfl

end Cert.RefAfter

end
-- ==== Proof.RefC.lean ====
/-
  The reference's third result (the gated memory update) after its run: the fold of the host operations read at its
  buffer is the generated staged value of the six arguments.
-/
import proofs.«147958_j26001732010458_2_alg».proof.Proof.RefRunP
import proofs.«147958_j26001732010458_2_alg».proof.Proof.RefReadP

noncomputable section

namespace Cert.RefAfter

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 1000000 in
set_option maxHeartbeats 42000000 in
theorem after_v51 (V : Valuation τ sig (Elt F)) :
    after ops V (Proc.devRef .tc main_v51) = val_main_v51 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp
  exact rfl

end Cert.RefAfter

end
-- ==== Proof.RefD1.lean ====
/-
  No host operation of the reference writes an argument: after the run each argument's buffer holds what it held.
-/
import proofs.«147958_j26001732010458_2_alg».proof.Proof.RefRunP

noncomputable section

namespace Cert.RefAfter

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 1000000 in
set_option maxHeartbeats 42000000 in
theorem after_arg0 (V : Valuation τ sig (Elt F)) : after ops V (Proc.devRef .tc main_arg0) = V (Proc.devRef .tc main_arg0) := by
  after_results_simp <;> rfl

set_option maxRecDepth 1000000 in
set_option maxHeartbeats 42000000 in
theorem after_arg1 (V : Valuation τ sig (Elt F)) : after ops V (Proc.devRef .tc main_arg1) = V (Proc.devRef .tc main_arg1) := by
  after_results_simp <;> rfl

set_option maxRecDepth 1000000 in
set_option maxHeartbeats 42000000 in
theorem after_arg2 (V : Valuation τ sig (Elt F)) : after ops V (Proc.devRef .tc main_arg2) = V (Proc.devRef .tc main_arg2) := by
  after_results_simp <;> rfl

end Cert.RefAfter

end
-- ==== Proof.RefD2.lean ====
/-
  No host operation of the reference writes an argument: after the run each argument's buffer holds what it held.
-/
import proofs.«147958_j26001732010458_2_alg».proof.Proof.RefRunP

noncomputable section

namespace Cert.RefAfter

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 1000000 in
set_option maxHeartbeats 42000000 in
theorem after_arg3 (V : Valuation τ sig (Elt F)) : after ops V (Proc.devRef .tc main_arg3) = V (Proc.devRef .tc main_arg3) := by
  after_results_simp <;> rfl

set_option maxRecDepth 1000000 in
set_option maxHeartbeats 42000000 in
theorem after_arg4 (V : Valuation τ sig (Elt F)) : after ops V (Proc.devRef .tc main_arg4) = V (Proc.devRef .tc main_arg4) := by
  after_results_simp <;> rfl

set_option maxRecDepth 1000000 in
set_option maxHeartbeats 42000000 in
theorem after_arg5 (V : Valuation τ sig (Elt F)) : after ops V (Proc.devRef .tc main_arg5) = V (Proc.devRef .tc main_arg5) := by
  after_results_simp <;> rfl

end Cert.RefAfter

end
-- ==== Proof.RefRes.lean ====
/-
  THE REFERENCE'S RUN, read: from any memory with zero counters every weakly fair execution of the reference's @main
  terminates, with its three results at the generated staged values of the launch arguments and its six arguments
  unchanged. The raw run gives each buffer as the fold of the host operations; the modules before this one compute
  that fold at the nine buffers.
-/
import proofs.«147958_j26001732010458_2_alg».proof.Proof.RefA
import proofs.«147958_j26001732010458_2_alg».proof.Proof.RefB
import proofs.«147958_j26001732010458_2_alg».proof.Proof.RefC
import proofs.«147958_j26001732010458_2_alg».proof.Proof.RefD1
import proofs.«147958_j26001732010458_2_alg».proof.Proof.RefD2

noncomputable section

namespace Cert.RefAfter

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82) = val_main_v82 (F := F) (m ((c.tc : Thread nD τ).loc main_arg0)) (m ((c.tc : Thread nD τ).loc main_arg1))
      ∧ r.2.mem ((c.tc : Thread nD τ).loc main_v83) = val_main_v83 (F := F) (m ((c.tc : Thread nD τ).loc main_arg0)) (m ((c.tc : Thread nD τ).loc main_arg1))
      ∧ r.2.mem ((c.tc : Thread nD τ).loc main_v51) = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(h c main_v82).trans (after_v82 _), (h c main_v83).trans (after_v83 _), (h c main_v51).trans (after_v51 _),
     (h c main_arg0).trans (after_arg0 _), (h c main_arg1).trans (after_arg1 _), (h c main_arg2).trans (after_arg2 _),
     (h c main_arg3).trans (after_arg3 _), (h c main_arg4).trans (after_arg4 _), (h c main_arg5).trans (after_arg5 _)⟩)
    (run_raw m ρ)

end Cert.RefAfter

end
-- ==== Proof.PreFin.lean ====
/-
  What the precondition says. `finite_inputs` is the conjunction, over the six arguments, of "every element's absolute
  value is below +infinity", each taken by an AND-reduction from `true`. Read at the exact instance: if the whole
  thing is `true` then every element of the query and of the memory bank is a real number (neither infinity).
-/
import proofs.«147958_j26001732010458_2_alg».proof.Proof.Gen.Pre_finite_inputs
import Idealize.ShloMosaic.PureOps.Ideal.Laws
import Idealize.ShloMosaic.Lib.ValueIdx
import Idealize.ShloMosaic.Lib.Pipeline.Value

noncomputable section

namespace Cert.PreFin

open Idealize.ShloMosaic Cert.Pre_finite_inputs Cert.Pre_finite_inputs.Facts

theorem and1 (a b : BitVec 1) (h : IntOp.andi a b = 1#1) : a = 1#1 ∧ b = 1#1 := by
  by_cases ha : a = 1#1
  · by_cases hb : b = 1#1
    · exact ⟨ha, hb⟩
    · rw [ValueIdx.eq_zero_of_ne_one hb, ha] at h; exact absurd h (by decide)
  · rw [ValueIdx.eq_zero_of_ne_one ha] at h
    by_cases hb : b = 1#1
    · rw [hb] at h; exact absurd h (by decide)
    · rw [ValueIdx.eq_zero_of_ne_one hb] at h; exact absurd h (by decide)

theorem foldl_and {α : Type} (x : α → BitVec 1) : ∀ (l : List α) (b : BitVec 1),
    l.foldl (fun r i => IntOp.andi r (x i)) b = 1#1 → b = 1#1 ∧ ∀ i ∈ l, x i = 1#1
  | [], b, h => ⟨h, fun _ hi => absurd hi (List.not_mem_nil)⟩
  | a :: l, b, h => by
    obtain ⟨h1, h2⟩ := foldl_and x l _ h
    obtain ⟨hb, ha⟩ := and1 _ _ h1
    exact ⟨hb, fun i hi => by
      rcases List.mem_cons.mp hi with rfl | hi
      · exact ha
      · exact h2 i hi⟩

/-- An AND-reduction to a scalar that answers `true` had `true` at every element. -/
theorem reduce_and_all {s u : Shape} {axes : List (Fin s.rank)} (x : IVec s 1) (init : IVec u 1) (h : s.ReducesTo axes S_)
    (hu : 0 < u.numel) (j : S_.Idx) (hr : Host.reduce IntOp.andi x init h hu j = 1#1) : ∀ i, x i = 1#1 := by
  rw [Host.reduce_eq_foldl] at hr
  obtain ⟨-, hall⟩ := foldl_and x _ _ hr
  intro i
  refine hall i (List.mem_filter.mpr ⟨List.mem_map.mpr ⟨s.rowMajor i, List.mem_finRange _, s.rowMajor.symm_apply_apply i⟩, ?_⟩)
  exact decide_eq_true (funext fun a => a.elim0)

/-- An extended real whose absolute value is below `+∞` is a real. -/
theorem real_of_abs_lt_top (x : EReal) (h : Ideal.cmp .olt (max x (-x)) ⊤ = 1#1) : x ≠ ⊤ ∧ x ≠ ⊥ := by
  constructor
  · rintro rfl
    simp [Ideal.cmp] at h
  · rintro rfl
    simp [Ideal.cmp] at h

theorem top_word : Ideal.ofBits .f32 0x7F800000#32 = (⊤ : EReal) := by simp [Ideal.ofBits, Ideal.ieee]

/-- THE PRECONDITION, DECODED for the two arguments the softmax depends on. -/
theorem finite_of_pre [Cert.Pre_finite_inputs.Facts] (a0 : FVec Ideal S32x2048x512 .f32) (a1 : FVec Ideal S64x512 .f32) (a2 : FVec Ideal S512x512 .f32)
    (a3 : FVec Ideal S512 .f32) (a4 : FVec Ideal S512x512 .f32) (a5 : FVec Ideal S512 .f32)
    (h : Cert.Pre_finite_inputs.fn (F := Ideal) a0 a1 a2 a3 a4 a5 = fun _ => 1#1) :
    (∀ i, a0 i ≠ ⊤ ∧ a0 i ≠ ⊥) ∧ (∀ i, a1 i ≠ ⊤ ∧ a1 i ≠ ⊥) := by
  have h' := congrFun h ValueIdx.ix0
  unfold Cert.Pre_finite_inputs.fn Cert.Pre_finite_inputs.fn_part1 at h'
  dsimp only at h'
  -- the conjunction's six conjuncts, outermost last
  obtain ⟨h23, -⟩ := and1 _ _ h'
  obtain ⟨h18, -⟩ := and1 _ _ h23
  obtain ⟨h13, -⟩ := and1 _ _ h18
  obtain ⟨h8, -⟩ := and1 _ _ h13
  obtain ⟨h3, h7⟩ := and1 _ _ h8
  have e0 := reduce_and_all _ _ _ _ _ h3
  have e1 := reduce_and_all _ _ _ _ _ h7
  refine ⟨fun i => ?_, fun i => ?_⟩
  · have := e0 i
    refine real_of_abs_lt_top (a0 i) ?_
    rw [← top_word]
    exact this
  · have := e1 i
    refine real_of_abs_lt_top (a1 i) ?_
    rw [← top_word]
    exact this

end Cert.PreFin

end
-- ==== Proof.Claims.lean ====
/-
  The five claims, one theorem each.

  The three frame claims are the runs of the three programs with the post cut down to the arguments: the kernel's two
  programs run as two pipelined regions between three host stretches (Proof/K, Proof/KI); the reference is a line of
  host operations (Proof/RefRes). The idealization rewrote nothing, so `preserves` is trivial. For the value claim the
  common results are the reference's own staged values of the launch arguments: the idealized kernel's three result
  buffers end at them (Proof/KI/ValOut, ValAttn, NewMemB — the last one needs the inputs finite, which the precondition
  says: Proof/PreFin), and so do the reference's (Proof/RefRes).
-/
import proofs.«147958_j26001732010458_2_alg».proof.Defs
import proofs.«147958_j26001732010458_2_alg».proof.Proof.K.Args
import proofs.«147958_j26001732010458_2_alg».proof.Proof.KI.ValOut
import proofs.«147958_j26001732010458_2_alg».proof.Proof.KI.NewMemB
import proofs.«147958_j26001732010458_2_alg».proof.Proof.RefRes
import proofs.«147958_j26001732010458_2_alg».proof.Proof.PreFin
import proofs.«147958_j26001732010458_2_alg».proof.Proof.Gen.Pre_finite_inputs

noncomputable section

namespace Cert.Proof

open Idealize.ShloMosaic Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run _ _ _).mono (fun r h c => (h c).2.2.2) (Cert.RefAfter.run (F := Ideal) m ρ)

theorem preserves : Cert.preserves_Kernel_KernelIdeal := trivial

theorem algebraic : Cert.algebraic_KernelIdeal_ReferenceIdeal := by
  intro m g m' g' hpre hagree
  refine ⟨fun c => Cert.ReferenceIdeal.ReadP.val_main_v82 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.ReadP.val_main_v83 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.ReadP.val_main_v51 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)),
    ?_, Cert.RefAfter.run (F := Ideal) m' g'⟩
  refine (θ_run _ _ _).mono (fun r h c => ?_) (Cert.KernelIdeal.Hand.run_main (F := Ideal) m g)
  obtain ⟨e0, e1, e2, e3, e4, e5⟩ := hagree c
  obtain ⟨hf0, hf1⟩ := Cert.PreFin.finite_of_pre _ _ _ _ _ _ (hpre c)
  refine ⟨?_, ?_, ?_, (h c _ (Cert.KernelIdeal.Hand.mem_uc Cert.KernelIdeal.main_arg0 (by decide))).trans (Cert.KernelIdeal.Hand.W5_plain m c Cert.KernelIdeal.main_arg0 (by decide) (by decide) (by decide) (by decide) (by decide)),
    (h c _ (Cert.KernelIdeal.Hand.mem_uc Cert.KernelIdeal.main_arg1 (by decide))).trans (Cert.KernelIdeal.Hand.W5_main_arg1 m c),
    (h c _ (Cert.KernelIdeal.Hand.mem_uc Cert.KernelIdeal.main_arg2 (by decide))).trans (Cert.KernelIdeal.Hand.W5_plain m c Cert.KernelIdeal.main_arg2 (by decide) (by decide) (by decide) (by decide) (by decide)),
    (h c _ (Cert.KernelIdeal.Hand.mem_uc Cert.KernelIdeal.main_arg3 (by decide))).trans (Cert.KernelIdeal.Hand.W5_plain m c Cert.KernelIdeal.main_arg3 (by decide) (by decide) (by decide) (by decide) (by decide)),
    (h c _ (Cert.KernelIdeal.Hand.mem_uc Cert.KernelIdeal.main_arg4 (by decide))).trans (Cert.KernelIdeal.Hand.W5_plain m c Cert.KernelIdeal.main_arg4 (by decide) (by decide) (by decide) (by decide) (by decide)),
    (h c _ (Cert.KernelIdeal.Hand.mem_uc Cert.KernelIdeal.main_arg5 (by decide))).trans (Cert.KernelIdeal.Hand.W5_plain m c Cert.KernelIdeal.main_arg5 (by decide) (by decide) (by decide) (by decide) (by decide))⟩
  · dsimp only
    rw [e0, e1]
    exact (h c _ (Cert.KernelIdeal.Hand.mem_uc Cert.KernelIdeal.main_v39 (by decide))).trans (Cert.KernelIdeal.Hand.W5_v39 m c)
  · dsimp only
    rw [e0, e1]
    exact (h c _ (Cert.KernelIdeal.Hand.mem_uc Cert.KernelIdeal.main_v40 (by decide))).trans (Cert.KernelIdeal.Hand.W5_v40 m c)
  · dsimp only
    rw [e0, e1, e2, e3, e4, e5]
    exact (h c _ (Cert.KernelIdeal.Hand.mem_uc Cert.KernelIdeal.main_v38 (by decide))).trans (Cert.KernelIdeal.Hand.W5_v38 m c hf0 hf1)

end Cert.Proof

end
-- ==== Proof.lean ====
/-
  MemoryModule attention (32 x 2048 queries of width 512 against a 64-row memory bank): the Pallas kernel and its
  reference agree on all three results over the extended reals, for finite inputs.

  The read path. Each query row's attention weights are a function of that row alone: the softmax of its 64 scores
  against the memory rows, hard-shrunk and L1-normalised. The kernel computes them for 2048 rows at a time, the
  reference for all 65536 at once; row by row the two chains are the same, so the weights array and the
  concatenation of the query with the weights' product with the memory bank agree.

  The update path. For a memory row the softmax runs over all 65536 query rows. The kernel never holds them at once:
  a first pass keeps, per core, a running maximum and a running sum of exponentials over its 16 chunks (the online
  softmax: rescaling the old sum by `exp (old maximum - new maximum)` keeps it the sum of `exp (score - maximum)` over
  everything seen), the two cores' pairs are combined the same way, and a second pass forms the hard-shrunk weights
  from the global pair and accumulates their absolute sum and their product with the query. Because
  `exp (a - b) * exp (b - c) = exp (a - c)` for real `a, b, c` — and the scores are real when the inputs are finite —
  the global pair is the reference's maximum and denominator, so the weights are the reference's. The reference
  divides each weight by the L1 normaliser before the product with the query, the kernel divides the accumulated
  product; the normaliser is at least the positive guard `1e-12`, so its inverse is a nonnegative finite factor
  and comes out of the sum. The gate that follows is the same function of the added memory on both sides, up to the
  association of one four-term sum.

  The five claims are proved one theorem each in Proof/Claims.lean.
-/
import proofs.«147958_j26001732010458_2_alg».proof.Defs
import proofs.«147958_j26001732010458_2_alg».proof.Proof.Gen.Kernel
import proofs.«147958_j26001732010458_2_alg».proof.Proof.Gen.Kernel.Skeleton
import proofs.«147958_j26001732010458_2_alg».proof.Proof.Gen.Kernel.Launch
import proofs.«147958_j26001732010458_2_alg».proof.Proof.Gen.Kernel.Regions
import proofs.«147958_j26001732010458_2_alg».proof.Proof.Gen.Kernel.Points
import proofs.«147958_j26001732010458_2_alg».proof.Proof.Gen.KernelIdeal
import proofs.«147958_j26001732010458_2_alg».proof.Proof.Gen.KernelIdeal.Skeleton
import proofs.«147958_j26001732010458_2_alg».proof.Proof.Gen.KernelIdeal.Launch
import proofs.«147958_j26001732010458_2_alg».proof.Proof.Gen.KernelIdeal.Regions
import proofs.«147958_j26001732010458_2_alg».proof.Proof.Gen.KernelIdeal.Points
import proofs.«147958_j26001732010458_2_alg».proof.Proof.Gen.ReferenceIdeal
import proofs.«147958_j26001732010458_2_alg».proof.Proof.Gen.Pre_finite_inputs
import Idealize.ShloMosaic.Adequacy
import Idealize.ShloMosaic.Init
import proofs.«147958_j26001732010458_2_alg».proof.Proof.Claims

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
